-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v209) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x256x256 : Shape := ⟨4, ![8, 64, 256, 256]⟩
abbrev S8x1x256x256 : Shape := ⟨4, ![8, 1, 256, 256]⟩
abbrev S_ : Shape := ⟨0, ![]⟩

class Facts : Prop where
  bcast_S_S8x64x256x256 : S_.BroadcastsInDim S8x64x256x256 (![] : Fin 0 → Fin S8x64x256x256.rank)
  reducesTo_S8x64x256x256_S_d0_1_2_3 : S8x64x256x256.ReducesTo [0, 1, 2, 3] S_
  h_S_ : 0 < S_.numel
  bcast_S_S8x1x256x256 : S_.BroadcastsInDim S8x1x256x256 (![] : Fin 0 → Fin S8x1x256x256.rank)
  reducesTo_S8x1x256x256_S_d0_1_2_3 : S8x1x256x256.ReducesTo [0, 1, 2, 3] S_

variable [Facts]

def fn {F : FTy → Type} [FloatOps F] (main_arg0 : FVec F S8x64x256x256 .f32) (main_arg1 : FVec F S8x1x256x256 .f32) : IVec S_ 1 :=
  let main_v0 : FVec F S8x64x256x256 .f32 := Host.absf main_arg0
  let main_cst : FVec F S_ .f32 := constant S_ .f32 0x7F800000#32
  let main_v1 : FVec F S8x64x256x256 .f32 := broadcastInDim S8x64x256x256 ![] bcast_S_S8x64x256x256 main_cst
  let main_v2 : IVec S8x64x256x256 1 := cmpf .olt main_v0 main_v1
  let main_c : IVec S_ 1 := constantI S_ 1 1#1
  let main_v3 : IVec S_ 1 := (fun x v => Host.reduce IntOp.andi x v reducesTo_S8x64x256x256_S_d0_1_2_3 h_S_) main_v2 main_c
  let main_v4 : FVec F S8x1x256x256 .f32 := Host.absf main_arg1
  let main_cst_0 : FVec F S_ .f32 := constant S_ .f32 0x7F800000#32
  let main_v5 : FVec F S8x1x256x256 .f32 := broadcastInDim S8x1x256x256 ![] bcast_S_S8x1x256x256 main_cst_0
  let main_v6 : IVec S8x1x256x256 1 := cmpf .olt main_v4 main_v5
  let main_c_1 : IVec S_ 1 := constantI S_ 1 1#1
  let main_v7 : IVec S_ 1 := (fun x v => Host.reduce IntOp.andi x v reducesTo_S8x1x256x256_S_d0_1_2_3 h_S_) main_v6 main_c_1
  let main_v8 : IVec S_ 1 := andi main_v3 main_v7
  main_v8
-- ==== Kernel.lean ====
abbrev S8x64x256x256 : Shape := ⟨4, ![8, 64, 256, 256]⟩
abbrev S8x1x256x256 : Shape := ⟨4, ![8, 1, 256, 256]⟩
abbrev S_ : Shape := ⟨0, ![]⟩
abbrev S8x64x1x256 : Shape := ⟨4, ![8, 64, 1, 256]⟩
abbrev S8x64x4x256 : Shape := ⟨4, ![8, 64, 4, 256]⟩
abbrev S8x64x260x256 : Shape := ⟨4, ![8, 64, 260, 256]⟩
abbrev S8x64x264x256 : Shape := ⟨4, ![8, 64, 264, 256]⟩
abbrev S8x64x264x1 : Shape := ⟨4, ![8, 64, 264, 1]⟩
abbrev S8x64x264x4 : Shape := ⟨4, ![8, 64, 264, 4]⟩
abbrev S8x64x264x260 : Shape := ⟨4, ![8, 64, 264, 260]⟩
abbrev S8x64x264x264 : Shape := ⟨4, ![8, 64, 264, 264]⟩
abbrev S8x1x1x256 : Shape := ⟨4, ![8, 1, 1, 256]⟩
abbrev S8x1x4x256 : Shape := ⟨4, ![8, 1, 4, 256]⟩
abbrev S8x1x260x256 : Shape := ⟨4, ![8, 1, 260, 256]⟩
abbrev S8x1x264x256 : Shape := ⟨4, ![8, 1, 264, 256]⟩
abbrev S8x1x264x1 : Shape := ⟨4, ![8, 1, 264, 1]⟩
abbrev S8x1x264x4 : Shape := ⟨4, ![8, 1, 264, 4]⟩
abbrev S8x1x264x260 : Shape := ⟨4, ![8, 1, 264, 260]⟩
abbrev S8x1x264x264 : Shape := ⟨4, ![8, 1, 264, 264]⟩
abbrev S1x16x264x264 : Shape := ⟨4, ![1, 16, 264, 264]⟩
abbrev S1x1x264x264 : Shape := ⟨4, ![1, 1, 264, 264]⟩
abbrev S1x16x256x256 : Shape := ⟨4, ![1, 16, 256, 256]⟩
abbrev S264x264 : Shape := ⟨2, ![264, 264]⟩
abbrev S16x264x264 : Shape := ⟨3, ![16, 264, 264]⟩
abbrev S256x256 : Shape := ⟨2, ![256, 256]⟩
abbrev S16x256x256 : Shape := ⟨3, ![16, 256, 256]⟩
abbrev S1x256x256 : Shape := ⟨3, ![1, 256, 256]⟩

abbrev nBuf : Space → Nat
  | .hbm => 37
  | .vmem => 6
  | .smem => 0
  | _ => 0

abbrev bufTy : (tb : Table) → Fin (tcTables nBuf tb) → BufTy
  | .hbm, ⟨0, _⟩ => ⟨S8x64x256x256, .f32⟩
  | .hbm, ⟨1, _⟩ => ⟨S8x1x256x256, .f32⟩
  | .hbm, ⟨2, _⟩ => ⟨S_, .i32⟩
  | .hbm, ⟨3, _⟩ => ⟨S8x64x1x256, .f32⟩
  | .hbm, ⟨4, _⟩ => ⟨S8x64x4x256, .f32⟩
  | .hbm, ⟨5, _⟩ => ⟨S8x64x4x256, .f32⟩
  | .hbm, ⟨6, _⟩ => ⟨S8x64x260x256, .f32⟩
  | .hbm, ⟨7, _⟩ => ⟨S8x64x1x256, .f32⟩
  | .hbm, ⟨8, _⟩ => ⟨S8x64x4x256, .f32⟩
  | .hbm, ⟨9, _⟩ => ⟨S8x64x4x256, .f32⟩
  | .hbm, ⟨10, _⟩ => ⟨S8x64x264x256, .f32⟩
  | .hbm, ⟨11, _⟩ => ⟨S8x64x264x1, .f32⟩
  | .hbm, ⟨12, _⟩ => ⟨S8x64x264x4, .f32⟩
  | .hbm, ⟨13, _⟩ => ⟨S8x64x264x4, .f32⟩
  | .hbm, ⟨14, _⟩ => ⟨S8x64x264x260, .f32⟩
  | .hbm, ⟨15, _⟩ => ⟨S8x64x264x1, .f32⟩
  | .hbm, ⟨16, _⟩ => ⟨S8x64x264x4, .f32⟩
  | .hbm, ⟨17, _⟩ => ⟨S8x64x264x4, .f32⟩
  | .hbm, ⟨18, _⟩ => ⟨S8x64x264x264, .f32⟩
  | .hbm, ⟨19, _⟩ => ⟨S_, .i32⟩
  | .hbm, ⟨20, _⟩ => ⟨S8x1x1x256, .f32⟩
  | .hbm, ⟨21, _⟩ => ⟨S8x1x4x256, .f32⟩
  | .hbm, ⟨22, _⟩ => ⟨S8x1x4x256, .f32⟩
  | .hbm, ⟨23, _⟩ => ⟨S8x1x260x256, .f32⟩
  | .hbm, ⟨24, _⟩ => ⟨S8x1x1x256, .f32⟩
  | .hbm, ⟨25, _⟩ => ⟨S8x1x4x256, .f32⟩
  | .hbm, ⟨26, _⟩ => ⟨S8x1x4x256, .f32⟩
  | .hbm, ⟨27, _⟩ => ⟨S8x1x264x256, .f32⟩
  | .hbm, ⟨28, _⟩ => ⟨S8x1x264x1, .f32⟩
  | .hbm, ⟨29, _⟩ => ⟨S8x1x264x4, .f32⟩
  | .hbm, ⟨30, _⟩ => ⟨S8x1x264x4, .f32⟩
  | .hbm, ⟨31, _⟩ => ⟨S8x1x264x260, .f32⟩
  | .hbm, ⟨32, _⟩ => ⟨S8x1x264x1, .f32⟩
  | .hbm, ⟨33, _⟩ => ⟨S8x1x264x4, .f32⟩
  | .hbm, ⟨34, _⟩ => ⟨S8x1x264x4, .f32⟩
  | .hbm, ⟨35, _⟩ => ⟨S8x1x264x264, .f32⟩
  | .hbm, ⟨36, _⟩ => ⟨S8x64x256x256, .f32⟩
  | .local _ .vmem, ⟨0, _⟩ => ⟨S1x16x264x264, .f32⟩
  | .local _ .vmem, ⟨1, _⟩ => ⟨S1x16x264x264, .f32⟩
  | .local _ .vmem, ⟨2, _⟩ => ⟨S1x1x264x264, .f32⟩
  | .local _ .vmem, ⟨3, _⟩ => ⟨S1x1x264x264, .f32⟩
  | .local _ .vmem, ⟨4, _⟩ => ⟨S1x16x256x256, .f32⟩
  | .local _ .vmem, ⟨5, _⟩ => ⟨S1x16x256x256, .f32⟩
  | _, _ => ⟨S8x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_call0_v13 : Ref sig .tc := ⟨.hbm, 16, rfl⟩
abbrev main_call0_v14 : Ref sig .tc := ⟨.hbm, 17, rfl⟩
abbrev main_v0 : Ref sig .tc := ⟨.hbm, 18, rfl⟩
abbrev main_c_0 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_v12 : Ref sig .tc := ⟨.hbm, 32, rfl⟩
abbrev main_call1_v13 : Ref sig .tc := ⟨.hbm, 33, rfl⟩
abbrev main_call1_v14 : Ref sig .tc := ⟨.hbm, 34, rfl⟩
abbrev main_v1 : Ref sig .tc := ⟨.hbm, 35, rfl⟩
abbrev main_v2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x264x264 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x264x264 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S8x64x256x256_S8x64x1x256_0_0_0_0 : S8x64x256x256.Slices ![0, 0, 0, 0] S8x64x1x256
  slices_S8x64x256x256_S8x64x4x256_0_0_1_0 : S8x64x256x256.Slices ![0, 0, 1, 0] S8x64x4x256
  concatenates_S8x64x4x256_S8x64x256x256_S8x64x260x256_d2 : Shape.Concatenates [S8x64x4x256, S8x64x256x256] S8x64x260x256 2
  slices_S8x64x260x256_S8x64x1x256_0_0_259_0 : S8x64x260x256.Slices ![0, 0, 259, 0] S8x64x1x256
  slices_S8x64x260x256_S8x64x4x256_0_0_255_0 : S8x64x260x256.Slices ![0, 0, 255, 0] S8x64x4x256
  concatenates_S8x64x260x256_S8x64x4x256_S8x64x264x256_d2 : Shape.Concatenates [S8x64x260x256, S8x64x4x256] S8x64x264x256 2
  slices_S8x64x264x256_S8x64x264x1_0_0_0_0 : S8x64x264x256.Slices ![0, 0, 0, 0] S8x64x264x1
  slices_S8x64x264x256_S8x64x264x4_0_0_0_1 : S8x64x264x256.Slices ![0, 0, 0, 1] S8x64x264x4
  concatenates_S8x64x264x4_S8x64x264x256_S8x64x264x260_d3 : Shape.Concatenates [S8x64x264x4, S8x64x264x256] S8x64x264x260 3
  slices_S8x64x264x260_S8x64x264x1_0_0_0_259 : S8x64x264x260.Slices ![0, 0, 0, 259] S8x64x264x1
  slices_S8x64x264x260_S8x64x264x4_0_0_0_255 : S8x64x264x260.Slices ![0, 0, 0, 255] S8x64x264x4
  concatenates_S8x64x264x260_S8x64x264x4_S8x64x264x264_d3 : Shape.Concatenates [S8x64x264x260, S8x64x264x4] S8x64x264x264 3
  slices_S8x1x256x256_S8x1x1x256_0_0_0_0 : S8x1x256x256.Slices ![0, 0, 0, 0] S8x1x1x256
  slices_S8x1x256x256_S8x1x4x256_0_0_1_0 : S8x1x256x256.Slices ![0, 0, 1, 0] S8x1x4x256
  concatenates_S8x1x4x256_S8x1x256x256_S8x1x260x256_d2 : Shape.Concatenates [S8x1x4x256, S8x1x256x256] S8x1x260x256 2
  slices_S8x1x260x256_S8x1x1x256_0_0_259_0 : S8x1x260x256.Slices ![0, 0, 259, 0] S8x1x1x256
  slices_S8x1x260x256_S8x1x4x256_0_0_255_0 : S8x1x260x256.Slices ![0, 0, 255, 0] S8x1x4x256
  concatenates_S8x1x260x256_S8x1x4x256_S8x1x264x256_d2 : Shape.Concatenates [S8x1x260x256, S8x1x4x256] S8x1x264x256 2
  slices_S8x1x264x256_S8x1x264x1_0_0_0_0 : S8x1x264x256.Slices ![0, 0, 0, 0] S8x1x264x1
  slices_S8x1x264x256_S8x1x264x4_0_0_0_1 : S8x1x264x256.Slices ![0, 0, 0, 1] S8x1x264x4
  concatenates_S8x1x264x4_S8x1x264x256_S8x1x264x260_d3 : Shape.Concatenates [S8x1x264x4, S8x1x264x256] S8x1x264x260 3
  slices_S8x1x264x260_S8x1x264x1_0_0_0_259 : S8x1x264x260.Slices ![0, 0, 0, 259] S8x1x264x1
  slices_S8x1x264x260_S8x1x264x4_0_0_0_255 : S8x1x264x260.Slices ![0, 0, 0, 255] S8x1x264x4
  concatenates_S8x1x264x260_S8x1x264x4_S8x1x264x264_d3 : Shape.Concatenates [S8x1x264x260, S8x1x264x4] S8x1x264x264 3
  inb_S1x1x264x264_S1x1x264x264_0_0_0_0 : ∀ a, (![0, 0, 0, 0] : Fin 4 → Nat) a + S1x1x264x264.size a ≤ S1x1x264x264.size a
  h_S1x1x264x264 : 0 < S1x1x264x264.numel
  shapeCasts_S1x1x264x264_S264x264 : S1x1x264x264.ShapeCasts S264x264
  inb_S1x16x264x264_S1x16x264x264_0_0_0_0 : ∀ a, (![0, 0, 0, 0] : Fin 4 → Nat) a + S1x16x264x264.size a ≤ S1x16x264x264.size a
  h_S1x16x264x264 : 0 < S1x16x264x264.numel
  shapeCasts_S1x16x264x264_S16x264x264 : S1x16x264x264.ShapeCasts S16x264x264
  slices_S264x264_o4_4_S256x256 : S264x264.Slices ![4, 4] S256x256
  slices_S16x264x264_o0_0_0_S16x256x256 : S16x264x264.Slices ![0, 0, 0] S16x256x256
  slices_S264x264_o0_0_S256x256 : S264x264.Slices ![0, 0] S256x256
  natLt_1_32 : 1 < 32
  shapeCasts_S256x256_S1x256x256 : S256x256.ShapeCasts S1x256x256
  broadcasts_S1x256x256_S16x256x256 : S1x256x256.Broadcasts S16x256x256
  slices_S16x264x264_o0_0_2_S16x256x256 : S16x264x264.Slices ![0, 0, 2] S16x256x256
  slices_S264x264_o0_2_S256x256 : S264x264.Slices ![0, 2] S256x256
  slices_S16x264x264_o0_0_4_S16x256x256 : S16x264x264.Slices ![0, 0, 4] S16x256x256
  slices_S264x264_o0_4_S256x256 : S264x264.Slices ![0, 4] S256x256
  slices_S16x264x264_o0_0_6_S16x256x256 : S16x264x264.Slices ![0, 0, 6] S16x256x256
  slices_S264x264_o0_6_S256x256 : S264x264.Slices ![0, 6] S256x256
  slices_S16x264x264_o0_0_8_S16x256x256 : S16x264x264.Slices ![0, 0, 8] S16x256x256
  slices_S264x264_o0_8_S256x256 : S264x264.Slices ![0, 8] S256x256
  slices_S16x264x264_o0_2_0_S16x256x256 : S16x264x264.Slices ![0, 2, 0] S16x256x256
  slices_S264x264_o2_0_S256x256 : S264x264.Slices ![2, 0] S256x256
  slices_S16x264x264_o0_2_2_S16x256x256 : S16x264x264.Slices ![0, 2, 2] S16x256x256
  slices_S264x264_o2_2_S256x256 : S264x264.Slices ![2, 2] S256x256
  slices_S16x264x264_o0_2_4_S16x256x256 : S16x264x264.Slices ![0, 2, 4] S16x256x256
  slices_S264x264_o2_4_S256x256 : S264x264.Slices ![2, 4] S256x256
  slices_S16x264x264_o0_2_6_S16x256x256 : S16x264x264.Slices ![0, 2, 6] S16x256x256
  slices_S264x264_o2_6_S256x256 : S264x264.Slices ![2, 6] S256x256
  slices_S16x264x264_o0_2_8_S16x256x256 : S16x264x264.Slices ![0, 2, 8] S16x256x256
  slices_S264x264_o2_8_S256x256 : S264x264.Slices ![2, 8] S256x256
  slices_S16x264x264_o0_4_0_S16x256x256 : S16x264x264.Slices ![0, 4, 0] S16x256x256
  slices_S264x264_o4_0_S256x256 : S264x264.Slices ![4, 0] S256x256
  slices_S16x264x264_o0_4_2_S16x256x256 : S16x264x264.Slices ![0, 4, 2] S16x256x256
  slices_S264x264_o4_2_S256x256 : S264x264.Slices ![4, 2] S256x256
  slices_S16x264x264_o0_4_4_S16x256x256 : S16x264x264.Slices ![0, 4, 4] S16x256x256
  slices_S16x264x264_o0_4_6_S16x256x256 : S16x264x264.Slices ![0, 4, 6] S16x256x256
  slices_S264x264_o4_6_S256x256 : S264x264.Slices ![4, 6] S256x256
  slices_S16x264x264_o0_4_8_S16x256x256 : S16x264x264.Slices ![0, 4, 8] S16x256x256
  slices_S264x264_o4_8_S256x256 : S264x264.Slices ![4, 8] S256x256
  slices_S16x264x264_o0_6_0_S16x256x256 : S16x264x264.Slices ![0, 6, 0] S16x256x256
  slices_S264x264_o6_0_S256x256 : S264x264.Slices ![6, 0] S256x256
  slices_S16x264x264_o0_6_2_S16x256x256 : S16x264x264.Slices ![0, 6, 2] S16x256x256
  slices_S264x264_o6_2_S256x256 : S264x264.Slices ![6, 2] S256x256
  slices_S16x264x264_o0_6_4_S16x256x256 : S16x264x264.Slices ![0, 6, 4] S16x256x256
  slices_S264x264_o6_4_S256x256 : S264x264.Slices ![6, 4] S256x256
  slices_S16x264x264_o0_6_6_S16x256x256 : S16x264x264.Slices ![0, 6, 6] S16x256x256
  slices_S264x264_o6_6_S256x256 : S264x264.Slices ![6, 6] S256x256
  slices_S16x264x264_o0_6_8_S16x256x256 : S16x264x264.Slices ![0, 6, 8] S16x256x256
  slices_S264x264_o6_8_S256x256 : S264x264.Slices ![6, 8] S256x256
  slices_S16x264x264_o0_8_0_S16x256x256 : S16x264x264.Slices ![0, 8, 0] S16x256x256
  slices_S264x264_o8_0_S256x256 : S264x264.Slices ![8, 0] S256x256
  slices_S16x264x264_o0_8_2_S16x256x256 : S16x264x264.Slices ![0, 8, 2] S16x256x256
  slices_S264x264_o8_2_S256x256 : S264x264.Slices ![8, 2] S256x256
  slices_S16x264x264_o0_8_4_S16x256x256 : S16x264x264.Slices ![0, 8, 4] S16x256x256
  slices_S264x264_o8_4_S256x256 : S264x264.Slices ![8, 4] S256x256
  slices_S16x264x264_o0_8_6_S16x256x256 : S16x264x264.Slices ![0, 8, 6] S16x256x256
  slices_S264x264_o8_6_S256x256 : S264x264.Slices ![8, 6] S256x256
  slices_S16x264x264_o0_8_8_S16x256x256 : S16x264x264.Slices ![0, 8, 8] S16x256x256
  slices_S264x264_o8_8_S256x256 : S264x264.Slices ![8, 8] S256x256
  inb_S1x16x256x256_S1x16x256x256_0_0_0_0 : ∀ a, (![0, 0, 0, 0] : Fin 4 → Nat) a + S1x16x256x256.size a ≤ S1x16x256x256.size a
  h_S1x16x256x256 : 0 < S1x16x256x256.numel
  shapeCasts_S1x16x256x256_S16x256x256 : S1x16x256x256.ShapeCasts S16x256x256
  shapeCasts_S16x256x256_S1x16x256x256 : S16x256x256.ShapeCasts S1x16x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x264x264.size a ≤ S8x64x264x264.size a
  hwx0_0 : ∀ i : grid0.Coords, EltTy.bits .f32 = 32 ∨ (Rect.block (s := S8x64x264x264) S1x16x264x264.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x264x264.size a ≤ S8x1x264x264.size a
  hwx0_1 : ∀ i : grid0.Coords, EltTy.bits .f32 = 32 ∨ (Rect.block (s := S8x1x264x264) S1x1x264x264.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x256x256.size a ≤ S8x64x256x256.size a
  hwx0_2 : ∀ i : grid0.Coords, EltTy.bits .f32 = 32 ∨ (Rect.block (s := S8x64x256x256) S1x16x256x256.size (cc0_transform_2 i) (hinb0_2 i)).WholeWords (EltTy.packing .f32)

variable [Facts₀]

abbrev win0_0 : Pipeline.Window sig grid0 :=
  Pipeline.Window.ofSpec (Memref.whole main_v0) S1x16x264x264.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x264x264.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x16x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x64x256x256 : Shape := ⟨4, ![8, 64, 256, 256]⟩
abbrev S8x1x256x256 : Shape := ⟨4, ![8, 1, 256, 256]⟩
abbrev S_ : Shape := ⟨0, ![]⟩
abbrev S8x64x1x256 : Shape := ⟨4, ![8, 64, 1, 256]⟩
abbrev S8x64x4x256 : Shape := ⟨4, ![8, 64, 4, 256]⟩
abbrev S8x64x260x256 : Shape := ⟨4, ![8, 64, 260, 256]⟩
abbrev S8x64x264x256 : Shape := ⟨4, ![8, 64, 264, 256]⟩
abbrev S8x64x264x1 : Shape := ⟨4, ![8, 64, 264, 1]⟩
abbrev S8x64x264x4 : Shape := ⟨4, ![8, 64, 264, 4]⟩
abbrev S8x64x264x260 : Shape := ⟨4, ![8, 64, 264, 260]⟩
abbrev S8x64x264x264 : Shape := ⟨4, ![8, 64, 264, 264]⟩
abbrev S8x1x1x256 : Shape := ⟨4, ![8, 1, 1, 256]⟩
abbrev S8x1x4x256 : Shape := ⟨4, ![8, 1, 4, 256]⟩
abbrev S8x1x260x256 : Shape := ⟨4, ![8, 1, 260, 256]⟩
abbrev S8x1x264x256 : Shape := ⟨4, ![8, 1, 264, 256]⟩
abbrev S8x1x264x1 : Shape := ⟨4, ![8, 1, 264, 1]⟩
abbrev S8x1x264x4 : Shape := ⟨4, ![8, 1, 264, 4]⟩
abbrev S8x1x264x260 : Shape := ⟨4, ![8, 1, 264, 260]⟩
abbrev S8x1x264x264 : Shape := ⟨4, ![8, 1, 264, 264]⟩

abbrev nBuf : Space → Nat
  | .hbm => 448
  | .vmem => 0
  | .smem => 0
  | _ => 0

abbrev hbmTy0_0 (i : Nat) : BufTy := match i % 128 with
  | 0 => ⟨S8x64x256x256, .f32⟩
  | 1 => ⟨S8x1x256x256, .f32⟩
  | 2 => ⟨S_, .i32⟩
  | 3 => ⟨S8x64x1x256, .f32⟩
  | 4 => ⟨S8x64x4x256, .f32⟩
  | 5 => ⟨S8x64x4x256, .f32⟩
  | 6 => ⟨S8x64x260x256, .f32⟩
  | 7 => ⟨S8x64x1x256, .f32⟩
  | 8 => ⟨S8x64x4x256, .f32⟩
  | 9 => ⟨S8x64x4x256, .f32⟩
  | 10 => ⟨S8x64x264x256, .f32⟩
  | 11 => ⟨S8x64x264x1, .f32⟩
  | 12 => ⟨S8x64x264x4, .f32⟩
  | 13 => ⟨S8x64x264x4, .f32⟩
  | 14 => ⟨S8x64x264x260, .f32⟩
  | 15 => ⟨S8x64x264x1, .f32⟩
  | 16 => ⟨S8x64x264x4, .f32⟩
  | 17 => ⟨S8x64x264x4, .f32⟩
  | 18 => ⟨S8x64x264x264, .f32⟩
  | 19 => ⟨S_, .i32⟩
  | 20 => ⟨S8x1x1x256, .f32⟩
  | 21 => ⟨S8x1x4x256, .f32⟩
  | 22 => ⟨S8x1x4x256, .f32⟩
  | 23 => ⟨S8x1x260x256, .f32⟩
  | 24 => ⟨S8x1x1x256, .f32⟩
  | 25 => ⟨S8x1x4x256, .f32⟩
  | 26 => ⟨S8x1x4x256, .f32⟩
  | 27 => ⟨S8x1x264x256, .f32⟩
  | 28 => ⟨S8x1x264x1, .f32⟩
  | 29 => ⟨S8x1x264x4, .f32⟩
  | 30 => ⟨S8x1x264x4, .f32⟩
  | 31 => ⟨S8x1x264x260, .f32⟩
  | 32 => ⟨S8x1x264x1, .f32⟩
  | 33 => ⟨S8x1x264x4, .f32⟩
  | 34 => ⟨S8x1x264x4, .f32⟩
  | 35 => ⟨S8x1x264x264, .f32⟩
  | 36 => ⟨S_, .f32⟩
  | 37 => ⟨S8x64x256x256, .f32⟩
  | 38 => ⟨S_, .f32⟩
  | 39 => ⟨S8x1x256x256, .f32⟩
  | 40 => ⟨S_, .i32⟩
  | 41 => ⟨S_, .i32⟩
  | 42 => ⟨S_, .i32⟩
  | 43 => ⟨S_, .i32⟩
  | 44 => ⟨S8x64x256x256, .f32⟩
  | 45 => ⟨S_, .i32⟩
  | 46 => ⟨S_, .i32⟩
  | 47 => ⟨S_, .i32⟩
  | 48 => ⟨S_, .i32⟩
  | 49 => ⟨S8x1x256x256, .f32⟩
  | 50 => ⟨S8x1x256x256, .i1⟩
  | 51 => ⟨S8x1x256x256, .f32⟩
  | 52 => ⟨S8x64x256x256, .f32⟩
  | 53 => ⟨S8x64x256x256, .f32⟩
  | 54 => ⟨S8x64x256x256, .f32⟩
  | 55 => ⟨S8x1x256x256, .f32⟩
  | 56 => ⟨S_, .i32⟩
  | 57 => ⟨S_, .i32⟩
  | 58 => ⟨S_, .i32⟩
  | 59 => ⟨S_, .i32⟩
  | 60 => ⟨S8x64x256x256, .f32⟩
  | 61 => ⟨S_, .i32⟩
  | 62 => ⟨S_, .i32⟩
  | 63 => ⟨S_, .i32⟩
  | 64 => ⟨S_, .i32⟩
  | 65 => ⟨S8x1x256x256, .f32⟩
  | 66 => ⟨S8x1x256x256, .i1⟩
  | 67 => ⟨S8x1x256x256, .f32⟩
  | 68 => ⟨S8x64x256x256, .f32⟩
  | 69 => ⟨S8x64x256x256, .f32⟩
  | 70 => ⟨S8x64x256x256, .f32⟩
  | 71 => ⟨S8x1x256x256, .f32⟩
  | 72 => ⟨S_, .i32⟩
  | 73 => ⟨S_, .i32⟩
  | 74 => ⟨S_, .i32⟩
  | 75 => ⟨S_, .i32⟩
  | 76 => ⟨S8x64x256x256, .f32⟩
  | 77 => ⟨S_, .i32⟩
  | 78 => ⟨S_, .i32⟩
  | 79 => ⟨S_, .i32⟩
  | 80 => ⟨S_, .i32⟩
  | 81 => ⟨S8x1x256x256, .f32⟩
  | 82 => ⟨S8x1x256x256, .i1⟩
  | 83 => ⟨S8x1x256x256, .f32⟩
  | 84 => ⟨S8x64x256x256, .f32⟩
  | 85 => ⟨S8x64x256x256, .f32⟩
  | 86 => ⟨S8x64x256x256, .f32⟩
  | 87 => ⟨S8x1x256x256, .f32⟩
  | 88 => ⟨S_, .i32⟩
  | 89 => ⟨S_, .i32⟩
  | 90 => ⟨S_, .i32⟩
  | 91 => ⟨S_, .i32⟩
  | 92 => ⟨S8x64x256x256, .f32⟩
  | 93 => ⟨S_, .i32⟩
  | 94 => ⟨S_, .i32⟩
  | 95 => ⟨S_, .i32⟩
  | 96 => ⟨S_, .i32⟩
  | 97 => ⟨S8x1x256x256, .f32⟩
  | 98 => ⟨S8x1x256x256, .i1⟩
  | 99 => ⟨S8x1x256x256, .f32⟩
  | 100 => ⟨S8x64x256x256, .f32⟩
  | 101 => ⟨S8x64x256x256, .f32⟩
  | 102 => ⟨S8x64x256x256, .f32⟩
  | 103 => ⟨S8x1x256x256, .f32⟩
  | 104 => ⟨S_, .i32⟩
  | 105 => ⟨S_, .i32⟩
  | 106 => ⟨S_, .i32⟩
  | 107 => ⟨S_, .i32⟩
  | 108 => ⟨S8x64x256x256, .f32⟩
  | 109 => ⟨S_, .i32⟩
  | 110 => ⟨S_, .i32⟩
  | 111 => ⟨S_, .i32⟩
  | 112 => ⟨S_, .i32⟩
  | 113 => ⟨S8x1x256x256, .f32⟩
  | 114 => ⟨S8x1x256x256, .i1⟩
  | 115 => ⟨S8x1x256x256, .f32⟩
  | 116 => ⟨S8x64x256x256, .f32⟩
  | 117 => ⟨S8x64x256x256, .f32⟩
  | 118 => ⟨S8x64x256x256, .f32⟩
  | 119 => ⟨S8x1x256x256, .f32⟩
  | 120 => ⟨S_, .i32⟩
  | 121 => ⟨S_, .i32⟩
  | 122 => ⟨S_, .i32⟩
  | 123 => ⟨S_, .i32⟩
  | 124 => ⟨S8x64x256x256, .f32⟩
  | 125 => ⟨S_, .i32⟩
  | 126 => ⟨S_, .i32⟩
  | 127 => ⟨S_, .i32⟩
  | _ => ⟨S8x64x256x256, .f32⟩

abbrev hbmTy0_1 (i : Nat) : BufTy := match i % 128 with
  | 0 => ⟨S_, .i32⟩
  | 1 => ⟨S8x1x256x256, .f32⟩
  | 2 => ⟨S8x1x256x256, .i1⟩
  | 3 => ⟨S8x1x256x256, .f32⟩
  | 4 => ⟨S8x64x256x256, .f32⟩
  | 5 => ⟨S8x64x256x256, .f32⟩
  | 6 => ⟨S8x64x256x256, .f32⟩
  | 7 => ⟨S8x1x256x256, .f32⟩
  | 8 => ⟨S_, .i32⟩
  | 9 => ⟨S_, .i32⟩
  | 10 => ⟨S_, .i32⟩
  | 11 => ⟨S_, .i32⟩
  | 12 => ⟨S8x64x256x256, .f32⟩
  | 13 => ⟨S_, .i32⟩
  | 14 => ⟨S_, .i32⟩
  | 15 => ⟨S_, .i32⟩
  | 16 => ⟨S_, .i32⟩
  | 17 => ⟨S8x1x256x256, .f32⟩
  | 18 => ⟨S8x1x256x256, .i1⟩
  | 19 => ⟨S8x1x256x256, .f32⟩
  | 20 => ⟨S8x64x256x256, .f32⟩
  | 21 => ⟨S8x64x256x256, .f32⟩
  | 22 => ⟨S8x64x256x256, .f32⟩
  | 23 => ⟨S8x1x256x256, .f32⟩
  | 24 => ⟨S_, .i32⟩
  | 25 => ⟨S_, .i32⟩
  | 26 => ⟨S_, .i32⟩
  | 27 => ⟨S_, .i32⟩
  | 28 => ⟨S8x64x256x256, .f32⟩
  | 29 => ⟨S_, .i32⟩
  | 30 => ⟨S_, .i32⟩
  | 31 => ⟨S_, .i32⟩
  | 32 => ⟨S_, .i32⟩
  | 33 => ⟨S8x1x256x256, .f32⟩
  | 34 => ⟨S8x1x256x256, .i1⟩
  | 35 => ⟨S8x1x256x256, .f32⟩
  | 36 => ⟨S8x64x256x256, .f32⟩
  | 37 => ⟨S8x64x256x256, .f32⟩
  | 38 => ⟨S8x64x256x256, .f32⟩
  | 39 => ⟨S8x1x256x256, .f32⟩
  | 40 => ⟨S_, .i32⟩
  | 41 => ⟨S_, .i32⟩
  | 42 => ⟨S_, .i32⟩
  | 43 => ⟨S_, .i32⟩
  | 44 => ⟨S8x64x256x256, .f32⟩
  | 45 => ⟨S_, .i32⟩
  | 46 => ⟨S_, .i32⟩
  | 47 => ⟨S_, .i32⟩
  | 48 => ⟨S_, .i32⟩
  | 49 => ⟨S8x1x256x256, .f32⟩
  | 50 => ⟨S8x1x256x256, .i1⟩
  | 51 => ⟨S8x1x256x256, .f32⟩
  | 52 => ⟨S8x64x256x256, .f32⟩
  | 53 => ⟨S8x64x256x256, .f32⟩
  | 54 => ⟨S8x64x256x256, .f32⟩
  | 55 => ⟨S8x1x256x256, .f32⟩
  | 56 => ⟨S_, .i32⟩
  | 57 => ⟨S_, .i32⟩
  | 58 => ⟨S_, .i32⟩
  | 59 => ⟨S_, .i32⟩
  | 60 => ⟨S8x64x256x256, .f32⟩
  | 61 => ⟨S_, .i32⟩
  | 62 => ⟨S_, .i32⟩
  | 63 => ⟨S_, .i32⟩
  | 64 => ⟨S_, .i32⟩
  | 65 => ⟨S8x1x256x256, .f32⟩
  | 66 => ⟨S8x1x256x256, .i1⟩
  | 67 => ⟨S8x1x256x256, .f32⟩
  | 68 => ⟨S8x64x256x256, .f32⟩
  | 69 => ⟨S8x64x256x256, .f32⟩
  | 70 => ⟨S8x64x256x256, .f32⟩
  | 71 => ⟨S8x1x256x256, .f32⟩
  | 72 => ⟨S_, .i32⟩
  | 73 => ⟨S_, .i32⟩
  | 74 => ⟨S_, .i32⟩
  | 75 => ⟨S_, .i32⟩
  | 76 => ⟨S8x64x256x256, .f32⟩
  | 77 => ⟨S_, .i32⟩
  | 78 => ⟨S_, .i32⟩
  | 79 => ⟨S_, .i32⟩
  | 80 => ⟨S_, .i32⟩
  | 81 => ⟨S8x1x256x256, .f32⟩
  | 82 => ⟨S8x1x256x256, .i1⟩
  | 83 => ⟨S8x1x256x256, .f32⟩
  | 84 => ⟨S8x64x256x256, .f32⟩
  | 85 => ⟨S8x64x256x256, .f32⟩
  | 86 => ⟨S8x64x256x256, .f32⟩
  | 87 => ⟨S8x1x256x256, .f32⟩
  | 88 => ⟨S_, .i32⟩
  | 89 => ⟨S_, .i32⟩
  | 90 => ⟨S_, .i32⟩
  | 91 => ⟨S_, .i32⟩
  | 92 => ⟨S8x64x256x256, .f32⟩
  | 93 => ⟨S_, .i32⟩
  | 94 => ⟨S_, .i32⟩
  | 95 => ⟨S_, .i32⟩
  | 96 => ⟨S_, .i32⟩
  | 97 => ⟨S8x1x256x256, .f32⟩
  | 98 => ⟨S8x1x256x256, .i1⟩
  | 99 => ⟨S8x1x256x256, .f32⟩
  | 100 => ⟨S8x64x256x256, .f32⟩
  | 101 => ⟨S8x64x256x256, .f32⟩
  | 102 => ⟨S8x64x256x256, .f32⟩
  | 103 => ⟨S8x1x256x256, .f32⟩
  | 104 => ⟨S_, .i32⟩
  | 105 => ⟨S_, .i32⟩
  | 106 => ⟨S_, .i32⟩
  | 107 => ⟨S_, .i32⟩
  | 108 => ⟨S8x64x256x256, .f32⟩
  | 109 => ⟨S_, .i32⟩
  | 110 => ⟨S_, .i32⟩
  | 111 => ⟨S_, .i32⟩
  | 112 => ⟨S_, .i32⟩
  | 113 => ⟨S8x1x256x256, .f32⟩
  | 114 => ⟨S8x1x256x256, .i1⟩
  | 115 => ⟨S8x1x256x256, .f32⟩
  | 116 => ⟨S8x64x256x256, .f32⟩
  | 117 => ⟨S8x64x256x256, .f32⟩
  | 118 => ⟨S8x64x256x256, .f32⟩
  | 119 => ⟨S8x1x256x256, .f32⟩
  | 120 => ⟨S_, .i32⟩
  | 121 => ⟨S_, .i32⟩
  | 122 => ⟨S_, .i32⟩
  | 123 => ⟨S_, .i32⟩
  | 124 => ⟨S8x64x256x256, .f32⟩
  | 125 => ⟨S_, .i32⟩
  | 126 => ⟨S_, .i32⟩
  | 127 => ⟨S_, .i32⟩
  | _ => ⟨S8x64x256x256, .f32⟩

abbrev hbmTy0_2 (i : Nat) : BufTy := match i % 128 with
  | 0 => ⟨S_, .i32⟩
  | 1 => ⟨S8x1x256x256, .f32⟩
  | 2 => ⟨S8x1x256x256, .i1⟩
  | 3 => ⟨S8x1x256x256, .f32⟩
  | 4 => ⟨S8x64x256x256, .f32⟩
  | 5 => ⟨S8x64x256x256, .f32⟩
  | 6 => ⟨S8x64x256x256, .f32⟩
  | 7 => ⟨S8x1x256x256, .f32⟩
  | 8 => ⟨S_, .i32⟩
  | 9 => ⟨S_, .i32⟩
  | 10 => ⟨S_, .i32⟩
  | 11 => ⟨S_, .i32⟩
  | 12 => ⟨S8x64x256x256, .f32⟩
  | 13 => ⟨S_, .i32⟩
  | 14 => ⟨S_, .i32⟩
  | 15 => ⟨S_, .i32⟩
  | 16 => ⟨S_, .i32⟩
  | 17 => ⟨S8x1x256x256, .f32⟩
  | 18 => ⟨S8x1x256x256, .i1⟩
  | 19 => ⟨S8x1x256x256, .f32⟩
  | 20 => ⟨S8x64x256x256, .f32⟩
  | 21 => ⟨S8x64x256x256, .f32⟩
  | 22 => ⟨S8x64x256x256, .f32⟩
  | 23 => ⟨S8x1x256x256, .f32⟩
  | 24 => ⟨S_, .i32⟩
  | 25 => ⟨S_, .i32⟩
  | 26 => ⟨S_, .i32⟩
  | 27 => ⟨S_, .i32⟩
  | 28 => ⟨S8x64x256x256, .f32⟩
  | 29 => ⟨S_, .i32⟩
  | 30 => ⟨S_, .i32⟩
  | 31 => ⟨S_, .i32⟩
  | 32 => ⟨S_, .i32⟩
  | 33 => ⟨S8x1x256x256, .f32⟩
  | 34 => ⟨S8x1x256x256, .i1⟩
  | 35 => ⟨S8x1x256x256, .f32⟩
  | 36 => ⟨S8x64x256x256, .f32⟩
  | 37 => ⟨S8x64x256x256, .f32⟩
  | 38 => ⟨S8x64x256x256, .f32⟩
  | 39 => ⟨S8x1x256x256, .f32⟩
  | 40 => ⟨S_, .i32⟩
  | 41 => ⟨S_, .i32⟩
  | 42 => ⟨S_, .i32⟩
  | 43 => ⟨S_, .i32⟩
  | 44 => ⟨S8x64x256x256, .f32⟩
  | 45 => ⟨S_, .i32⟩
  | 46 => ⟨S_, .i32⟩
  | 47 => ⟨S_, .i32⟩
  | 48 => ⟨S_, .i32⟩
  | 49 => ⟨S8x1x256x256, .f32⟩
  | 50 => ⟨S8x1x256x256, .i1⟩
  | 51 => ⟨S8x1x256x256, .f32⟩
  | 52 => ⟨S8x64x256x256, .f32⟩
  | 53 => ⟨S8x64x256x256, .f32⟩
  | 54 => ⟨S8x64x256x256, .f32⟩
  | 55 => ⟨S8x1x256x256, .f32⟩
  | 56 => ⟨S_, .i32⟩
  | 57 => ⟨S_, .i32⟩
  | 58 => ⟨S_, .i32⟩
  | 59 => ⟨S_, .i32⟩
  | 60 => ⟨S8x64x256x256, .f32⟩
  | 61 => ⟨S_, .i32⟩
  | 62 => ⟨S_, .i32⟩
  | 63 => ⟨S_, .i32⟩
  | 64 => ⟨S_, .i32⟩
  | 65 => ⟨S8x1x256x256, .f32⟩
  | 66 => ⟨S8x1x256x256, .i1⟩
  | 67 => ⟨S8x1x256x256, .f32⟩
  | 68 => ⟨S8x64x256x256, .f32⟩
  | 69 => ⟨S8x64x256x256, .f32⟩
  | 70 => ⟨S8x64x256x256, .f32⟩
  | 71 => ⟨S8x1x256x256, .f32⟩
  | 72 => ⟨S_, .i32⟩
  | 73 => ⟨S_, .i32⟩
  | 74 => ⟨S_, .i32⟩
  | 75 => ⟨S_, .i32⟩
  | 76 => ⟨S8x64x256x256, .f32⟩
  | 77 => ⟨S_, .i32⟩
  | 78 => ⟨S_, .i32⟩
  | 79 => ⟨S_, .i32⟩
  | 80 => ⟨S_, .i32⟩
  | 81 => ⟨S8x1x256x256, .f32⟩
  | 82 => ⟨S8x1x256x256, .i1⟩
  | 83 => ⟨S8x1x256x256, .f32⟩
  | 84 => ⟨S8x64x256x256, .f32⟩
  | 85 => ⟨S8x64x256x256, .f32⟩
  | 86 => ⟨S8x64x256x256, .f32⟩
  | 87 => ⟨S8x1x256x256, .f32⟩
  | 88 => ⟨S_, .i32⟩
  | 89 => ⟨S_, .i32⟩
  | 90 => ⟨S_, .i32⟩
  | 91 => ⟨S_, .i32⟩
  | 92 => ⟨S8x64x256x256, .f32⟩
  | 93 => ⟨S_, .i32⟩
  | 94 => ⟨S_, .i32⟩
  | 95 => ⟨S_, .i32⟩
  | 96 => ⟨S_, .i32⟩
  | 97 => ⟨S8x1x256x256, .f32⟩
  | 98 => ⟨S8x1x256x256, .i1⟩
  | 99 => ⟨S8x1x256x256, .f32⟩
  | 100 => ⟨S8x64x256x256, .f32⟩
  | 101 => ⟨S8x64x256x256, .f32⟩
  | 102 => ⟨S8x64x256x256, .f32⟩
  | 103 => ⟨S8x1x256x256, .f32⟩
  | 104 => ⟨S_, .i32⟩
  | 105 => ⟨S_, .i32⟩
  | 106 => ⟨S_, .i32⟩
  | 107 => ⟨S_, .i32⟩
  | 108 => ⟨S8x64x256x256, .f32⟩
  | 109 => ⟨S_, .i32⟩
  | 110 => ⟨S_, .i32⟩
  | 111 => ⟨S_, .i32⟩
  | 112 => ⟨S_, .i32⟩
  | 113 => ⟨S8x1x256x256, .f32⟩
  | 114 => ⟨S8x1x256x256, .i1⟩
  | 115 => ⟨S8x1x256x256, .f32⟩
  | 116 => ⟨S8x64x256x256, .f32⟩
  | 117 => ⟨S8x64x256x256, .f32⟩
  | 118 => ⟨S8x64x256x256, .f32⟩
  | 119 => ⟨S8x1x256x256, .f32⟩
  | 120 => ⟨S_, .i32⟩
  | 121 => ⟨S_, .i32⟩
  | 122 => ⟨S_, .i32⟩
  | 123 => ⟨S_, .i32⟩
  | 124 => ⟨S8x64x256x256, .f32⟩
  | 125 => ⟨S_, .i32⟩
  | 126 => ⟨S_, .i32⟩
  | 127 => ⟨S_, .i32⟩
  | _ => ⟨S8x64x256x256, .f32⟩

abbrev hbmTy0_3 (i : Nat) : BufTy := match i % 128 with
  | 0 => ⟨S_, .i32⟩
  | 1 => ⟨S8x1x256x256, .f32⟩
  | 2 => ⟨S8x1x256x256, .i1⟩
  | 3 => ⟨S8x1x256x256, .f32⟩
  | 4 => ⟨S8x64x256x256, .f32⟩
  | 5 => ⟨S8x64x256x256, .f32⟩
  | 6 => ⟨S8x64x256x256, .f32⟩
  | 7 => ⟨S8x1x256x256, .f32⟩
  | 8 => ⟨S_, .i32⟩
  | 9 => ⟨S_, .i32⟩
  | 10 => ⟨S_, .i32⟩
  | 11 => ⟨S_, .i32⟩
  | 12 => ⟨S8x64x256x256, .f32⟩
  | 13 => ⟨S_, .i32⟩
  | 14 => ⟨S_, .i32⟩
  | 15 => ⟨S_, .i32⟩
  | 16 => ⟨S_, .i32⟩
  | 17 => ⟨S8x1x256x256, .f32⟩
  | 18 => ⟨S8x1x256x256, .i1⟩
  | 19 => ⟨S8x1x256x256, .f32⟩
  | 20 => ⟨S8x64x256x256, .f32⟩
  | 21 => ⟨S8x64x256x256, .f32⟩
  | 22 => ⟨S8x64x256x256, .f32⟩
  | 23 => ⟨S8x1x256x256, .f32⟩
  | 24 => ⟨S_, .i32⟩
  | 25 => ⟨S_, .i32⟩
  | 26 => ⟨S_, .i32⟩
  | 27 => ⟨S_, .i32⟩
  | 28 => ⟨S8x64x256x256, .f32⟩
  | 29 => ⟨S_, .i32⟩
  | 30 => ⟨S_, .i32⟩
  | 31 => ⟨S_, .i32⟩
  | 32 => ⟨S_, .i32⟩
  | 33 => ⟨S8x1x256x256, .f32⟩
  | 34 => ⟨S8x1x256x256, .i1⟩
  | 35 => ⟨S8x1x256x256, .f32⟩
  | 36 => ⟨S8x64x256x256, .f32⟩
  | 37 => ⟨S8x64x256x256, .f32⟩
  | 38 => ⟨S8x64x256x256, .f32⟩
  | 39 => ⟨S8x1x256x256, .f32⟩
  | 40 => ⟨S_, .i32⟩
  | 41 => ⟨S_, .i32⟩
  | 42 => ⟨S_, .i32⟩
  | 43 => ⟨S_, .i32⟩
  | 44 => ⟨S8x64x256x256, .f32⟩
  | 45 => ⟨S_, .i32⟩
  | 46 => ⟨S_, .i32⟩
  | 47 => ⟨S_, .i32⟩
  | 48 => ⟨S_, .i32⟩
  | 49 => ⟨S8x1x256x256, .f32⟩
  | 50 => ⟨S8x1x256x256, .i1⟩
  | 51 => ⟨S8x1x256x256, .f32⟩
  | 52 => ⟨S8x64x256x256, .f32⟩
  | 53 => ⟨S8x64x256x256, .f32⟩
  | 54 => ⟨S8x64x256x256, .f32⟩
  | 55 => ⟨S8x1x256x256, .f32⟩
  | 56 => ⟨S_, .f32⟩
  | 57 => ⟨S8x1x256x256, .f32⟩
  | 58 => ⟨S8x1x256x256, .i1⟩
  | 59 => ⟨S_, .f32⟩
  | 60 => ⟨S8x1x256x256, .f32⟩
  | 61 => ⟨S8x1x256x256, .f32⟩
  | 62 => ⟨S8x64x256x256, .f32⟩
  | 63 => ⟨S8x64x256x256, .f32⟩
  | _ => ⟨S8x64x256x256, .f32⟩

abbrev hbmTy (i : Nat) : BufTy := match i / 128 with
  | 0 => hbmTy0_0 i
  | 1 => hbmTy0_1 i
  | 2 => hbmTy0_2 i
  | 3 => hbmTy0_3 i
  | _ => ⟨S8x64x256x256, .f32⟩

abbrev bufTy : (tb : Table) → Fin (tcTables nBuf tb) → BufTy
  | .hbm, ⟨i, _⟩ => hbmTy i
  | _, _ => ⟨S8x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_call0_v13 : Ref sig .tc := ⟨.hbm, 16, rfl⟩
abbrev main_call0_v14 : Ref sig .tc := ⟨.hbm, 17, rfl⟩
abbrev main_v0 : Ref sig .tc := ⟨.hbm, 18, rfl⟩
abbrev main_c_0 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_v12 : Ref sig .tc := ⟨.hbm, 32, rfl⟩
abbrev main_call1_v13 : Ref sig .tc := ⟨.hbm, 33, rfl⟩
abbrev main_call1_v14 : Ref sig .tc := ⟨.hbm, 34, rfl⟩
abbrev main_v1 : Ref sig .tc := ⟨.hbm, 35, rfl⟩
abbrev main_cst : Ref sig .tc := ⟨.hbm, 36, rfl⟩
abbrev main_v2 : Ref sig .tc := ⟨.hbm, 37, rfl⟩
abbrev main_cst_1 : Ref sig .tc := ⟨.hbm, 38, rfl⟩
abbrev main_v3 : Ref sig .tc := ⟨.hbm, 39, rfl⟩
abbrev main_c_2 : Ref sig .tc := ⟨.hbm, 40, rfl⟩
abbrev main_c_3 : Ref sig .tc := ⟨.hbm, 41, rfl⟩
abbrev main_c_4 : Ref sig .tc := ⟨.hbm, 42, rfl⟩
abbrev main_c_5 : Ref sig .tc := ⟨.hbm, 43, rfl⟩
abbrev main_v4 : Ref sig .tc := ⟨.hbm, 44, rfl⟩
abbrev main_c_6 : Ref sig .tc := ⟨.hbm, 45, rfl⟩
abbrev main_c_7 : Ref sig .tc := ⟨.hbm, 46, rfl⟩
abbrev main_c_8 : Ref sig .tc := ⟨.hbm, 47, rfl⟩
abbrev main_c_9 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_c_10 : Ref sig .tc := ⟨.hbm, 56, rfl⟩
abbrev main_c_11 : Ref sig .tc := ⟨.hbm, 57, rfl⟩
abbrev main_c_12 : Ref sig .tc := ⟨.hbm, 58, rfl⟩
abbrev main_c_13 : Ref sig .tc := ⟨.hbm, 59, rfl⟩
abbrev main_v12 : Ref sig .tc := ⟨.hbm, 60, rfl⟩
abbrev main_c_14 : Ref sig .tc := ⟨.hbm, 61, rfl⟩
abbrev main_c_15 : Ref sig .tc := ⟨.hbm, 62, rfl⟩
abbrev main_c_16 : Ref sig .tc := ⟨.hbm, 63, rfl⟩
abbrev main_c_17 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_c_18 : Ref sig .tc := ⟨.hbm, 72, rfl⟩
abbrev main_c_19 : Ref sig .tc := ⟨.hbm, 73, rfl⟩
abbrev main_c_20 : Ref sig .tc := ⟨.hbm, 74, rfl⟩
abbrev main_c_21 : Ref sig .tc := ⟨.hbm, 75, rfl⟩
abbrev main_v20 : Ref sig .tc := ⟨.hbm, 76, rfl⟩
abbrev main_c_22 : Ref sig .tc := ⟨.hbm, 77, rfl⟩
abbrev main_c_23 : Ref sig .tc := ⟨.hbm, 78, rfl⟩
abbrev main_c_24 : Ref sig .tc := ⟨.hbm, 79, rfl⟩
abbrev main_c_25 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_c_26 : Ref sig .tc := ⟨.hbm, 88, rfl⟩
abbrev main_c_27 : Ref sig .tc := ⟨.hbm, 89, rfl⟩
abbrev main_c_28 : Ref sig .tc := ⟨.hbm, 90, rfl⟩
abbrev main_c_29 : Ref sig .tc := ⟨.hbm, 91, rfl⟩
abbrev main_v28 : Ref sig .tc := ⟨.hbm, 92, rfl⟩
abbrev main_c_30 : Ref sig .tc := ⟨.hbm, 93, rfl⟩
abbrev main_c_31 : Ref sig .tc := ⟨.hbm, 94, rfl⟩
abbrev main_c_32 : Ref sig .tc := ⟨.hbm, 95, rfl⟩
abbrev main_c_33 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_c_34 : Ref sig .tc := ⟨.hbm, 104, rfl⟩
abbrev main_c_35 : Ref sig .tc := ⟨.hbm, 105, rfl⟩
abbrev main_c_36 : Ref sig .tc := ⟨.hbm, 106, rfl⟩
abbrev main_c_37 : Ref sig .tc := ⟨.hbm, 107, rfl⟩
abbrev main_v36 : Ref sig .tc := ⟨.hbm, 108, rfl⟩
abbrev main_c_38 : Ref sig .tc := ⟨.hbm, 109, rfl⟩
abbrev main_c_39 : Ref sig .tc := ⟨.hbm, 110, rfl⟩
abbrev main_c_40 : Ref sig .tc := ⟨.hbm, 111, rfl⟩
abbrev main_c_41 : Ref sig .tc := ⟨.hbm, 112, rfl⟩
abbrev main_v37 : Ref sig .tc := ⟨.hbm, 113, rfl⟩
abbrev main_v38 : Ref sig .tc := ⟨.hbm, 114, rfl⟩
abbrev main_v39 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_c_42 : Ref sig .tc := ⟨.hbm, 120, rfl⟩
abbrev main_c_43 : Ref sig .tc := ⟨.hbm, 121, rfl⟩
abbrev main_c_44 : Ref sig .tc := ⟨.hbm, 122, rfl⟩
abbrev main_c_45 : Ref sig .tc := ⟨.hbm, 123, rfl⟩
abbrev main_v44 : Ref sig .tc := ⟨.hbm, 124, rfl⟩
abbrev main_c_46 : Ref sig .tc := ⟨.hbm, 125, rfl⟩
abbrev main_c_47 : Ref sig .tc := ⟨.hbm, 126, rfl⟩
abbrev main_c_48 : Ref sig .tc := ⟨.hbm, 127, rfl⟩
abbrev main_c_49 : Ref sig .tc := ⟨.hbm, 128, rfl⟩
abbrev main_v45 : Ref sig .tc := ⟨.hbm, 129, rfl⟩
abbrev main_v46 : Ref sig .tc := ⟨.hbm, 130, rfl⟩
abbrev main_v47 : Ref sig .tc := ⟨.hbm, 131, rfl⟩
abbrev main_v48 : Ref sig .tc := ⟨.hbm, 132, rfl⟩
abbrev main_v49 : Ref sig .tc := ⟨.hbm, 133, rfl⟩
abbrev main_v50 : Ref sig .tc := ⟨.hbm, 134, rfl⟩
abbrev main_v51 : Ref sig .tc := ⟨.hbm, 135, rfl⟩
abbrev main_c_50 : Ref sig .tc := ⟨.hbm, 136, rfl⟩
abbrev main_c_51 : Ref sig .tc := ⟨.hbm, 137, rfl⟩
abbrev main_c_52 : Ref sig .tc := ⟨.hbm, 138, rfl⟩
abbrev main_c_53 : Ref sig .tc := ⟨.hbm, 139, rfl⟩
abbrev main_v52 : Ref sig .tc := ⟨.hbm, 140, rfl⟩
abbrev main_c_54 : Ref sig .tc := ⟨.hbm, 141, rfl⟩
abbrev main_c_55 : Ref sig .tc := ⟨.hbm, 142, rfl⟩
abbrev main_c_56 : Ref sig .tc := ⟨.hbm, 143, rfl⟩
abbrev main_c_57 : Ref sig .tc := ⟨.hbm, 144, rfl⟩
abbrev main_v53 : Ref sig .tc := ⟨.hbm, 145, rfl⟩
abbrev main_v54 : Ref sig .tc := ⟨.hbm, 146, rfl⟩
abbrev main_v55 : Ref sig .tc := ⟨.hbm, 147, rfl⟩
abbrev main_v56 : Ref sig .tc := ⟨.hbm, 148, rfl⟩
abbrev main_v57 : Ref sig .tc := ⟨.hbm, 149, rfl⟩
abbrev main_v58 : Ref sig .tc := ⟨.hbm, 150, rfl⟩
abbrev main_v59 : Ref sig .tc := ⟨.hbm, 151, rfl⟩
abbrev main_c_58 : Ref sig .tc := ⟨.hbm, 152, rfl⟩
abbrev main_c_59 : Ref sig .tc := ⟨.hbm, 153, rfl⟩
abbrev main_c_60 : Ref sig .tc := ⟨.hbm, 154, rfl⟩
abbrev main_c_61 : Ref sig .tc := ⟨.hbm, 155, rfl⟩
abbrev main_v60 : Ref sig .tc := ⟨.hbm, 156, rfl⟩
abbrev main_c_62 : Ref sig .tc := ⟨.hbm, 157, rfl⟩
abbrev main_c_63 : Ref sig .tc := ⟨.hbm, 158, rfl⟩
abbrev main_c_64 : Ref sig .tc := ⟨.hbm, 159, rfl⟩
abbrev main_c_65 : Ref sig .tc := ⟨.hbm, 160, rfl⟩
abbrev main_v61 : Ref sig .tc := ⟨.hbm, 161, rfl⟩
abbrev main_v62 : Ref sig .tc := ⟨.hbm, 162, rfl⟩
abbrev main_v63 : Ref sig .tc := ⟨.hbm, 163, rfl⟩
abbrev main_v64 : Ref sig .tc := ⟨.hbm, 164, rfl⟩
abbrev main_v65 : Ref sig .tc := ⟨.hbm, 165, rfl⟩
abbrev main_v66 : Ref sig .tc := ⟨.hbm, 166, rfl⟩
abbrev main_v67 : Ref sig .tc := ⟨.hbm, 167, rfl⟩
abbrev main_c_66 : Ref sig .tc := ⟨.hbm, 168, rfl⟩
abbrev main_c_67 : Ref sig .tc := ⟨.hbm, 169, rfl⟩
abbrev main_c_68 : Ref sig .tc := ⟨.hbm, 170, rfl⟩
abbrev main_c_69 : Ref sig .tc := ⟨.hbm, 171, rfl⟩
abbrev main_v68 : Ref sig .tc := ⟨.hbm, 172, rfl⟩
abbrev main_c_70 : Ref sig .tc := ⟨.hbm, 173, rfl⟩
abbrev main_c_71 : Ref sig .tc := ⟨.hbm, 174, rfl⟩
abbrev main_c_72 : Ref sig .tc := ⟨.hbm, 175, rfl⟩
abbrev main_c_73 : Ref sig .tc := ⟨.hbm, 176, rfl⟩
abbrev main_v69 : Ref sig .tc := ⟨.hbm, 177, rfl⟩
abbrev main_v70 : Ref sig .tc := ⟨.hbm, 178, rfl⟩
abbrev main_v71 : Ref sig .tc := ⟨.hbm, 179, rfl⟩
abbrev main_v72 : Ref sig .tc := ⟨.hbm, 180, rfl⟩
abbrev main_v73 : Ref sig .tc := ⟨.hbm, 181, rfl⟩
abbrev main_v74 : Ref sig .tc := ⟨.hbm, 182, rfl⟩
abbrev main_v75 : Ref sig .tc := ⟨.hbm, 183, rfl⟩
abbrev main_c_74 : Ref sig .tc := ⟨.hbm, 184, rfl⟩
abbrev main_c_75 : Ref sig .tc := ⟨.hbm, 185, rfl⟩
abbrev main_c_76 : Ref sig .tc := ⟨.hbm, 186, rfl⟩
abbrev main_c_77 : Ref sig .tc := ⟨.hbm, 187, rfl⟩
abbrev main_v76 : Ref sig .tc := ⟨.hbm, 188, rfl⟩
abbrev main_c_78 : Ref sig .tc := ⟨.hbm, 189, rfl⟩
abbrev main_c_79 : Ref sig .tc := ⟨.hbm, 190, rfl⟩
abbrev main_c_80 : Ref sig .tc := ⟨.hbm, 191, rfl⟩
abbrev main_c_81 : Ref sig .tc := ⟨.hbm, 192, rfl⟩
abbrev main_v77 : Ref sig .tc := ⟨.hbm, 193, rfl⟩
abbrev main_v78 : Ref sig .tc := ⟨.hbm, 194, rfl⟩
abbrev main_v79 : Ref sig .tc := ⟨.hbm, 195, rfl⟩
abbrev main_v80 : Ref sig .tc := ⟨.hbm, 196, rfl⟩
abbrev main_v81 : Ref sig .tc := ⟨.hbm, 197, rfl⟩
abbrev main_v82 : Ref sig .tc := ⟨.hbm, 198, rfl⟩
abbrev main_v83 : Ref sig .tc := ⟨.hbm, 199, rfl⟩
abbrev main_c_82 : Ref sig .tc := ⟨.hbm, 200, rfl⟩
abbrev main_c_83 : Ref sig .tc := ⟨.hbm, 201, rfl⟩
abbrev main_c_84 : Ref sig .tc := ⟨.hbm, 202, rfl⟩
abbrev main_c_85 : Ref sig .tc := ⟨.hbm, 203, rfl⟩
abbrev main_v84 : Ref sig .tc := ⟨.hbm, 204, rfl⟩
abbrev main_c_86 : Ref sig .tc := ⟨.hbm, 205, rfl⟩
abbrev main_c_87 : Ref sig .tc := ⟨.hbm, 206, rfl⟩
abbrev main_c_88 : Ref sig .tc := ⟨.hbm, 207, rfl⟩
abbrev main_c_89 : Ref sig .tc := ⟨.hbm, 208, rfl⟩
abbrev main_v85 : Ref sig .tc := ⟨.hbm, 209, rfl⟩
abbrev main_v86 : Ref sig .tc := ⟨.hbm, 210, rfl⟩
abbrev main_v87 : Ref sig .tc := ⟨.hbm, 211, rfl⟩
abbrev main_v88 : Ref sig .tc := ⟨.hbm, 212, rfl⟩
abbrev main_v89 : Ref sig .tc := ⟨.hbm, 213, rfl⟩
abbrev main_v90 : Ref sig .tc := ⟨.hbm, 214, rfl⟩
abbrev main_v91 : Ref sig .tc := ⟨.hbm, 215, rfl⟩
abbrev main_c_90 : Ref sig .tc := ⟨.hbm, 216, rfl⟩
abbrev main_c_91 : Ref sig .tc := ⟨.hbm, 217, rfl⟩
abbrev main_c_92 : Ref sig .tc := ⟨.hbm, 218, rfl⟩
abbrev main_c_93 : Ref sig .tc := ⟨.hbm, 219, rfl⟩
abbrev main_v92 : Ref sig .tc := ⟨.hbm, 220, rfl⟩
abbrev main_c_94 : Ref sig .tc := ⟨.hbm, 221, rfl⟩
abbrev main_c_95 : Ref sig .tc := ⟨.hbm, 222, rfl⟩
abbrev main_c_96 : Ref sig .tc := ⟨.hbm, 223, rfl⟩
abbrev main_c_97 : Ref sig .tc := ⟨.hbm, 224, rfl⟩
abbrev main_v93 : Ref sig .tc := ⟨.hbm, 225, rfl⟩
abbrev main_v94 : Ref sig .tc := ⟨.hbm, 226, rfl⟩
abbrev main_v95 : Ref sig .tc := ⟨.hbm, 227, rfl⟩
abbrev main_v96 : Ref sig .tc := ⟨.hbm, 228, rfl⟩
abbrev main_v97 : Ref sig .tc := ⟨.hbm, 229, rfl⟩
abbrev main_v98 : Ref sig .tc := ⟨.hbm, 230, rfl⟩
abbrev main_v99 : Ref sig .tc := ⟨.hbm, 231, rfl⟩
abbrev main_c_98 : Ref sig .tc := ⟨.hbm, 232, rfl⟩
abbrev main_c_99 : Ref sig .tc := ⟨.hbm, 233, rfl⟩
abbrev main_c_100 : Ref sig .tc := ⟨.hbm, 234, rfl⟩
abbrev main_c_101 : Ref sig .tc := ⟨.hbm, 235, rfl⟩
abbrev main_v100 : Ref sig .tc := ⟨.hbm, 236, rfl⟩
abbrev main_c_102 : Ref sig .tc := ⟨.hbm, 237, rfl⟩
abbrev main_c_103 : Ref sig .tc := ⟨.hbm, 238, rfl⟩
abbrev main_c_104 : Ref sig .tc := ⟨.hbm, 239, rfl⟩
abbrev main_c_105 : Ref sig .tc := ⟨.hbm, 240, rfl⟩
abbrev main_v101 : Ref sig .tc := ⟨.hbm, 241, rfl⟩
abbrev main_v102 : Ref sig .tc := ⟨.hbm, 242, rfl⟩
abbrev main_v103 : Ref sig .tc := ⟨.hbm, 243, rfl⟩
abbrev main_v104 : Ref sig .tc := ⟨.hbm, 244, rfl⟩
abbrev main_v105 : Ref sig .tc := ⟨.hbm, 245, rfl⟩
abbrev main_v106 : Ref sig .tc := ⟨.hbm, 246, rfl⟩
abbrev main_v107 : Ref sig .tc := ⟨.hbm, 247, rfl⟩
abbrev main_c_106 : Ref sig .tc := ⟨.hbm, 248, rfl⟩
abbrev main_c_107 : Ref sig .tc := ⟨.hbm, 249, rfl⟩
abbrev main_c_108 : Ref sig .tc := ⟨.hbm, 250, rfl⟩
abbrev main_c_109 : Ref sig .tc := ⟨.hbm, 251, rfl⟩
abbrev main_v108 : Ref sig .tc := ⟨.hbm, 252, rfl⟩
abbrev main_c_110 : Ref sig .tc := ⟨.hbm, 253, rfl⟩
abbrev main_c_111 : Ref sig .tc := ⟨.hbm, 254, rfl⟩
abbrev main_c_112 : Ref sig .tc := ⟨.hbm, 255, rfl⟩
abbrev main_c_113 : Ref sig .tc := ⟨.hbm, 256, rfl⟩
abbrev main_v109 : Ref sig .tc := ⟨.hbm, 257, rfl⟩
abbrev main_v110 : Ref sig .tc := ⟨.hbm, 258, rfl⟩
abbrev main_v111 : Ref sig .tc := ⟨.hbm, 259, rfl⟩
abbrev main_v112 : Ref sig .tc := ⟨.hbm, 260, rfl⟩
abbrev main_v113 : Ref sig .tc := ⟨.hbm, 261, rfl⟩
abbrev main_v114 : Ref sig .tc := ⟨.hbm, 262, rfl⟩
abbrev main_v115 : Ref sig .tc := ⟨.hbm, 263, rfl⟩
abbrev main_c_114 : Ref sig .tc := ⟨.hbm, 264, rfl⟩
abbrev main_c_115 : Ref sig .tc := ⟨.hbm, 265, rfl⟩
abbrev main_c_116 : Ref sig .tc := ⟨.hbm, 266, rfl⟩
abbrev main_c_117 : Ref sig .tc := ⟨.hbm, 267, rfl⟩
abbrev main_v116 : Ref sig .tc := ⟨.hbm, 268, rfl⟩
abbrev main_c_118 : Ref sig .tc := ⟨.hbm, 269, rfl⟩
abbrev main_c_119 : Ref sig .tc := ⟨.hbm, 270, rfl⟩
abbrev main_c_120 : Ref sig .tc := ⟨.hbm, 271, rfl⟩
abbrev main_c_121 : Ref sig .tc := ⟨.hbm, 272, rfl⟩
abbrev main_v117 : Ref sig .tc := ⟨.hbm, 273, rfl⟩
abbrev main_v118 : Ref sig .tc := ⟨.hbm, 274, rfl⟩
abbrev main_v119 : Ref sig .tc := ⟨.hbm, 275, rfl⟩
abbrev main_v120 : Ref sig .tc := ⟨.hbm, 276, rfl⟩
abbrev main_v121 : Ref sig .tc := ⟨.hbm, 277, rfl⟩
abbrev main_v122 : Ref sig .tc := ⟨.hbm, 278, rfl⟩
abbrev main_v123 : Ref sig .tc := ⟨.hbm, 279, rfl⟩
abbrev main_c_122 : Ref sig .tc := ⟨.hbm, 280, rfl⟩
abbrev main_c_123 : Ref sig .tc := ⟨.hbm, 281, rfl⟩
abbrev main_c_124 : Ref sig .tc := ⟨.hbm, 282, rfl⟩
abbrev main_c_125 : Ref sig .tc := ⟨.hbm, 283, rfl⟩
abbrev main_v124 : Ref sig .tc := ⟨.hbm, 284, rfl⟩
abbrev main_c_126 : Ref sig .tc := ⟨.hbm, 285, rfl⟩
abbrev main_c_127 : Ref sig .tc := ⟨.hbm, 286, rfl⟩
abbrev main_c_128 : Ref sig .tc := ⟨.hbm, 287, rfl⟩
abbrev main_c_129 : Ref sig .tc := ⟨.hbm, 288, rfl⟩
abbrev main_v125 : Ref sig .tc := ⟨.hbm, 289, rfl⟩
abbrev main_v126 : Ref sig .tc := ⟨.hbm, 290, rfl⟩
abbrev main_v127 : Ref sig .tc := ⟨.hbm, 291, rfl⟩
abbrev main_v128 : Ref sig .tc := ⟨.hbm, 292, rfl⟩
abbrev main_v129 : Ref sig .tc := ⟨.hbm, 293, rfl⟩
abbrev main_v130 : Ref sig .tc := ⟨.hbm, 294, rfl⟩
abbrev main_v131 : Ref sig .tc := ⟨.hbm, 295, rfl⟩
abbrev main_c_130 : Ref sig .tc := ⟨.hbm, 296, rfl⟩
abbrev main_c_131 : Ref sig .tc := ⟨.hbm, 297, rfl⟩
abbrev main_c_132 : Ref sig .tc := ⟨.hbm, 298, rfl⟩
abbrev main_c_133 : Ref sig .tc := ⟨.hbm, 299, rfl⟩
abbrev main_v132 : Ref sig .tc := ⟨.hbm, 300, rfl⟩
abbrev main_c_134 : Ref sig .tc := ⟨.hbm, 301, rfl⟩
abbrev main_c_135 : Ref sig .tc := ⟨.hbm, 302, rfl⟩
abbrev main_c_136 : Ref sig .tc := ⟨.hbm, 303, rfl⟩
abbrev main_c_137 : Ref sig .tc := ⟨.hbm, 304, rfl⟩
abbrev main_v133 : Ref sig .tc := ⟨.hbm, 305, rfl⟩
abbrev main_v134 : Ref sig .tc := ⟨.hbm, 306, rfl⟩
abbrev main_v135 : Ref sig .tc := ⟨.hbm, 307, rfl⟩
abbrev main_v136 : Ref sig .tc := ⟨.hbm, 308, rfl⟩
abbrev main_v137 : Ref sig .tc := ⟨.hbm, 309, rfl⟩
abbrev main_v138 : Ref sig .tc := ⟨.hbm, 310, rfl⟩
abbrev main_v139 : Ref sig .tc := ⟨.hbm, 311, rfl⟩
abbrev main_c_138 : Ref sig .tc := ⟨.hbm, 312, rfl⟩
abbrev main_c_139 : Ref sig .tc := ⟨.hbm, 313, rfl⟩
abbrev main_c_140 : Ref sig .tc := ⟨.hbm, 314, rfl⟩
abbrev main_c_141 : Ref sig .tc := ⟨.hbm, 315, rfl⟩
abbrev main_v140 : Ref sig .tc := ⟨.hbm, 316, rfl⟩
abbrev main_c_142 : Ref sig .tc := ⟨.hbm, 317, rfl⟩
abbrev main_c_143 : Ref sig .tc := ⟨.hbm, 318, rfl⟩
abbrev main_c_144 : Ref sig .tc := ⟨.hbm, 319, rfl⟩
abbrev main_c_145 : Ref sig .tc := ⟨.hbm, 320, rfl⟩
abbrev main_v141 : Ref sig .tc := ⟨.hbm, 321, rfl⟩
abbrev main_v142 : Ref sig .tc := ⟨.hbm, 322, rfl⟩
abbrev main_v143 : Ref sig .tc := ⟨.hbm, 323, rfl⟩
abbrev main_v144 : Ref sig .tc := ⟨.hbm, 324, rfl⟩
abbrev main_v145 : Ref sig .tc := ⟨.hbm, 325, rfl⟩
abbrev main_v146 : Ref sig .tc := ⟨.hbm, 326, rfl⟩
abbrev main_v147 : Ref sig .tc := ⟨.hbm, 327, rfl⟩
abbrev main_c_146 : Ref sig .tc := ⟨.hbm, 328, rfl⟩
abbrev main_c_147 : Ref sig .tc := ⟨.hbm, 329, rfl⟩
abbrev main_c_148 : Ref sig .tc := ⟨.hbm, 330, rfl⟩
abbrev main_c_149 : Ref sig .tc := ⟨.hbm, 331, rfl⟩
abbrev main_v148 : Ref sig .tc := ⟨.hbm, 332, rfl⟩
abbrev main_c_150 : Ref sig .tc := ⟨.hbm, 333, rfl⟩
abbrev main_c_151 : Ref sig .tc := ⟨.hbm, 334, rfl⟩
abbrev main_c_152 : Ref sig .tc := ⟨.hbm, 335, rfl⟩
abbrev main_c_153 : Ref sig .tc := ⟨.hbm, 336, rfl⟩
abbrev main_v149 : Ref sig .tc := ⟨.hbm, 337, rfl⟩
abbrev main_v150 : Ref sig .tc := ⟨.hbm, 338, rfl⟩
abbrev main_v151 : Ref sig .tc := ⟨.hbm, 339, rfl⟩
abbrev main_v152 : Ref sig .tc := ⟨.hbm, 340, rfl⟩
abbrev main_v153 : Ref sig .tc := ⟨.hbm, 341, rfl⟩
abbrev main_v154 : Ref sig .tc := ⟨.hbm, 342, rfl⟩
abbrev main_v155 : Ref sig .tc := ⟨.hbm, 343, rfl⟩
abbrev main_c_154 : Ref sig .tc := ⟨.hbm, 344, rfl⟩
abbrev main_c_155 : Ref sig .tc := ⟨.hbm, 345, rfl⟩
abbrev main_c_156 : Ref sig .tc := ⟨.hbm, 346, rfl⟩
abbrev main_c_157 : Ref sig .tc := ⟨.hbm, 347, rfl⟩
abbrev main_v156 : Ref sig .tc := ⟨.hbm, 348, rfl⟩
abbrev main_c_158 : Ref sig .tc := ⟨.hbm, 349, rfl⟩
abbrev main_c_159 : Ref sig .tc := ⟨.hbm, 350, rfl⟩
abbrev main_c_160 : Ref sig .tc := ⟨.hbm, 351, rfl⟩
abbrev main_c_161 : Ref sig .tc := ⟨.hbm, 352, rfl⟩
abbrev main_v157 : Ref sig .tc := ⟨.hbm, 353, rfl⟩
abbrev main_v158 : Ref sig .tc := ⟨.hbm, 354, rfl⟩
abbrev main_v159 : Ref sig .tc := ⟨.hbm, 355, rfl⟩
abbrev main_v160 : Ref sig .tc := ⟨.hbm, 356, rfl⟩
abbrev main_v161 : Ref sig .tc := ⟨.hbm, 357, rfl⟩
abbrev main_v162 : Ref sig .tc := ⟨.hbm, 358, rfl⟩
abbrev main_v163 : Ref sig .tc := ⟨.hbm, 359, rfl⟩
abbrev main_c_162 : Ref sig .tc := ⟨.hbm, 360, rfl⟩
abbrev main_c_163 : Ref sig .tc := ⟨.hbm, 361, rfl⟩
abbrev main_c_164 : Ref sig .tc := ⟨.hbm, 362, rfl⟩
abbrev main_c_165 : Ref sig .tc := ⟨.hbm, 363, rfl⟩
abbrev main_v164 : Ref sig .tc := ⟨.hbm, 364, rfl⟩
abbrev main_c_166 : Ref sig .tc := ⟨.hbm, 365, rfl⟩
abbrev main_c_167 : Ref sig .tc := ⟨.hbm, 366, rfl⟩
abbrev main_c_168 : Ref sig .tc := ⟨.hbm, 367, rfl⟩
abbrev main_c_169 : Ref sig .tc := ⟨.hbm, 368, rfl⟩
abbrev main_v165 : Ref sig .tc := ⟨.hbm, 369, rfl⟩
abbrev main_v166 : Ref sig .tc := ⟨.hbm, 370, rfl⟩
abbrev main_v167 : Ref sig .tc := ⟨.hbm, 371, rfl⟩
abbrev main_v168 : Ref sig .tc := ⟨.hbm, 372, rfl⟩
abbrev main_v169 : Ref sig .tc := ⟨.hbm, 373, rfl⟩
abbrev main_v170 : Ref sig .tc := ⟨.hbm, 374, rfl⟩
abbrev main_v171 : Ref sig .tc := ⟨.hbm, 375, rfl⟩
abbrev main_c_170 : Ref sig .tc := ⟨.hbm, 376, rfl⟩
abbrev main_c_171 : Ref sig .tc := ⟨.hbm, 377, rfl⟩
abbrev main_c_172 : Ref sig .tc := ⟨.hbm, 378, rfl⟩
abbrev main_c_173 : Ref sig .tc := ⟨.hbm, 379, rfl⟩
abbrev main_v172 : Ref sig .tc := ⟨.hbm, 380, rfl⟩
abbrev main_c_174 : Ref sig .tc := ⟨.hbm, 381, rfl⟩
abbrev main_c_175 : Ref sig .tc := ⟨.hbm, 382, rfl⟩
abbrev main_c_176 : Ref sig .tc := ⟨.hbm, 383, rfl⟩
abbrev main_c_177 : Ref sig .tc := ⟨.hbm, 384, rfl⟩
abbrev main_v173 : Ref sig .tc := ⟨.hbm, 385, rfl⟩
abbrev main_v174 : Ref sig .tc := ⟨.hbm, 386, rfl⟩
abbrev main_v175 : Ref sig .tc := ⟨.hbm, 387, rfl⟩
abbrev main_v176 : Ref sig .tc := ⟨.hbm, 388, rfl⟩
abbrev main_v177 : Ref sig .tc := ⟨.hbm, 389, rfl⟩
abbrev main_v178 : Ref sig .tc := ⟨.hbm, 390, rfl⟩
abbrev main_v179 : Ref sig .tc := ⟨.hbm, 391, rfl⟩
abbrev main_c_178 : Ref sig .tc := ⟨.hbm, 392, rfl⟩
abbrev main_c_179 : Ref sig .tc := ⟨.hbm, 393, rfl⟩
abbrev main_c_180 : Ref sig .tc := ⟨.hbm, 394, rfl⟩
abbrev main_c_181 : Ref sig .tc := ⟨.hbm, 395, rfl⟩
abbrev main_v180 : Ref sig .tc := ⟨.hbm, 396, rfl⟩
abbrev main_c_182 : Ref sig .tc := ⟨.hbm, 397, rfl⟩
abbrev main_c_183 : Ref sig .tc := ⟨.hbm, 398, rfl⟩
abbrev main_c_184 : Ref sig .tc := ⟨.hbm, 399, rfl⟩
abbrev main_c_185 : Ref sig .tc := ⟨.hbm, 400, rfl⟩
abbrev main_v181 : Ref sig .tc := ⟨.hbm, 401, rfl⟩
abbrev main_v182 : Ref sig .tc := ⟨.hbm, 402, rfl⟩
abbrev main_v183 : Ref sig .tc := ⟨.hbm, 403, rfl⟩
abbrev main_v184 : Ref sig .tc := ⟨.hbm, 404, rfl⟩
abbrev main_v185 : Ref sig .tc := ⟨.hbm, 405, rfl⟩
abbrev main_v186 : Ref sig .tc := ⟨.hbm, 406, rfl⟩
abbrev main_v187 : Ref sig .tc := ⟨.hbm, 407, rfl⟩
abbrev main_c_186 : Ref sig .tc := ⟨.hbm, 408, rfl⟩
abbrev main_c_187 : Ref sig .tc := ⟨.hbm, 409, rfl⟩
abbrev main_c_188 : Ref sig .tc := ⟨.hbm, 410, rfl⟩
abbrev main_c_189 : Ref sig .tc := ⟨.hbm, 411, rfl⟩
abbrev main_v188 : Ref sig .tc := ⟨.hbm, 412, rfl⟩
abbrev main_c_190 : Ref sig .tc := ⟨.hbm, 413, rfl⟩
abbrev main_c_191 : Ref sig .tc := ⟨.hbm, 414, rfl⟩
abbrev main_c_192 : Ref sig .tc := ⟨.hbm, 415, rfl⟩
abbrev main_c_193 : Ref sig .tc := ⟨.hbm, 416, rfl⟩
abbrev main_v189 : Ref sig .tc := ⟨.hbm, 417, rfl⟩
abbrev main_v190 : Ref sig .tc := ⟨.hbm, 418, rfl⟩
abbrev main_v191 : Ref sig .tc := ⟨.hbm, 419, rfl⟩
abbrev main_v192 : Ref sig .tc := ⟨.hbm, 420, rfl⟩
abbrev main_v193 : Ref sig .tc := ⟨.hbm, 421, rfl⟩
abbrev main_v194 : Ref sig .tc := ⟨.hbm, 422, rfl⟩
abbrev main_v195 : Ref sig .tc := ⟨.hbm, 423, rfl⟩
abbrev main_c_194 : Ref sig .tc := ⟨.hbm, 424, rfl⟩
abbrev main_c_195 : Ref sig .tc := ⟨.hbm, 425, rfl⟩
abbrev main_c_196 : Ref sig .tc := ⟨.hbm, 426, rfl⟩
abbrev main_c_197 : Ref sig .tc := ⟨.hbm, 427, rfl⟩
abbrev main_v196 : Ref sig .tc := ⟨.hbm, 428, rfl⟩
abbrev main_c_198 : Ref sig .tc := ⟨.hbm, 429, rfl⟩
abbrev main_c_199 : Ref sig .tc := ⟨.hbm, 430, rfl⟩
abbrev main_c_200 : Ref sig .tc := ⟨.hbm, 431, rfl⟩
abbrev main_c_201 : Ref sig .tc := ⟨.hbm, 432, rfl⟩
abbrev main_v197 : Ref sig .tc := ⟨.hbm, 433, rfl⟩
abbrev main_v198 : Ref sig .tc := ⟨.hbm, 434, rfl⟩
abbrev main_v199 : Ref sig .tc := ⟨.hbm, 435, rfl⟩
abbrev main_v200 : Ref sig .tc := ⟨.hbm, 436, rfl⟩
abbrev main_v201 : Ref sig .tc := ⟨.hbm, 437, rfl⟩
abbrev main_v202 : Ref sig .tc := ⟨.hbm, 438, rfl⟩
abbrev main_v203 : Ref sig .tc := ⟨.hbm, 439, rfl⟩
abbrev main_cst_202 : Ref sig .tc := ⟨.hbm, 440, rfl⟩
abbrev main_v204 : Ref sig .tc := ⟨.hbm, 441, rfl⟩
abbrev main_v205 : Ref sig .tc := ⟨.hbm, 442, rfl⟩
abbrev main_cst_203 : Ref sig .tc := ⟨.hbm, 443, rfl⟩
abbrev main_v206 : Ref sig .tc := ⟨.hbm, 444, rfl⟩
abbrev main_v207 : Ref sig .tc := ⟨.hbm, 445, rfl⟩
abbrev main_v208 : Ref sig .tc := ⟨.hbm, 446, rfl⟩
abbrev main_v209 : Ref sig .tc := ⟨.hbm, 447, rfl⟩

abbrev nD : Nat := 1
abbrev τ : Topo := Topo.v7x

variable {F : FTy → Type} [FloatOps F]

class Facts₀ : Prop where
  slices_S8x64x256x256_S8x64x1x256_0_0_0_0 : S8x64x256x256.Slices ![0, 0, 0, 0] S8x64x1x256
  slices_S8x64x256x256_S8x64x4x256_0_0_1_0 : S8x64x256x256.Slices ![0, 0, 1, 0] S8x64x4x256
  concatenates_S8x64x4x256_S8x64x256x256_S8x64x260x256_d2 : Shape.Concatenates [S8x64x4x256, S8x64x256x256] S8x64x260x256 2
  slices_S8x64x260x256_S8x64x1x256_0_0_259_0 : S8x64x260x256.Slices ![0, 0, 259, 0] S8x64x1x256
  slices_S8x64x260x256_S8x64x4x256_0_0_255_0 : S8x64x260x256.Slices ![0, 0, 255, 0] S8x64x4x256
  concatenates_S8x64x260x256_S8x64x4x256_S8x64x264x256_d2 : Shape.Concatenates [S8x64x260x256, S8x64x4x256] S8x64x264x256 2
  slices_S8x64x264x256_S8x64x264x1_0_0_0_0 : S8x64x264x256.Slices ![0, 0, 0, 0] S8x64x264x1
  slices_S8x64x264x256_S8x64x264x4_0_0_0_1 : S8x64x264x256.Slices ![0, 0, 0, 1] S8x64x264x4
  concatenates_S8x64x264x4_S8x64x264x256_S8x64x264x260_d3 : Shape.Concatenates [S8x64x264x4, S8x64x264x256] S8x64x264x260 3
  slices_S8x64x264x260_S8x64x264x1_0_0_0_259 : S8x64x264x260.Slices ![0, 0, 0, 259] S8x64x264x1
  slices_S8x64x264x260_S8x64x264x4_0_0_0_255 : S8x64x264x260.Slices ![0, 0, 0, 255] S8x64x264x4
  concatenates_S8x64x264x260_S8x64x264x4_S8x64x264x264_d3 : Shape.Concatenates [S8x64x264x260, S8x64x264x4] S8x64x264x264 3
  slices_S8x1x256x256_S8x1x1x256_0_0_0_0 : S8x1x256x256.Slices ![0, 0, 0, 0] S8x1x1x256
  slices_S8x1x256x256_S8x1x4x256_0_0_1_0 : S8x1x256x256.Slices ![0, 0, 1, 0] S8x1x4x256
  concatenates_S8x1x4x256_S8x1x256x256_S8x1x260x256_d2 : Shape.Concatenates [S8x1x4x256, S8x1x256x256] S8x1x260x256 2
  slices_S8x1x260x256_S8x1x1x256_0_0_259_0 : S8x1x260x256.Slices ![0, 0, 259, 0] S8x1x1x256
  slices_S8x1x260x256_S8x1x4x256_0_0_255_0 : S8x1x260x256.Slices ![0, 0, 255, 0] S8x1x4x256
  concatenates_S8x1x260x256_S8x1x4x256_S8x1x264x256_d2 : Shape.Concatenates [S8x1x260x256, S8x1x4x256] S8x1x264x256 2
  slices_S8x1x264x256_S8x1x264x1_0_0_0_0 : S8x1x264x256.Slices ![0, 0, 0, 0] S8x1x264x1
  slices_S8x1x264x256_S8x1x264x4_0_0_0_1 : S8x1x264x256.Slices ![0, 0, 0, 1] S8x1x264x4
  concatenates_S8x1x264x4_S8x1x264x256_S8x1x264x260_d3 : Shape.Concatenates [S8x1x264x4, S8x1x264x256] S8x1x264x260 3
  slices_S8x1x264x260_S8x1x264x1_0_0_0_259 : S8x1x264x260.Slices ![0, 0, 0, 259] S8x1x264x1
  slices_S8x1x264x260_S8x1x264x4_0_0_0_255 : S8x1x264x260.Slices ![0, 0, 0, 255] S8x1x264x4
  concatenates_S8x1x264x260_S8x1x264x4_S8x1x264x264_d3 : Shape.Concatenates [S8x1x264x260, S8x1x264x4] S8x1x264x264 3
  bcast_S_S8x64x256x256 : S_.BroadcastsInDim S8x64x256x256 (![] : Fin 0 → Fin S8x64x256x256.rank)
  bcast_S_S8x1x256x256 : S_.BroadcastsInDim S8x1x256x256 (![] : Fin 0 → Fin S8x1x256x256.rank)
  sliceFits_S8x64x264x264_S8x64x256x256 : S8x64x264x264.Slices (fun _ => 0) S8x64x256x256
  h_S_ : 0 < S_.numel
  sliceFits_S8x1x264x264_S8x1x256x256 : S8x1x264x264.Slices (fun _ => 0) S8x1x256x256
  bcast_S8x1x256x256_S8x64x256x256_0_1_2_3 : S8x1x256x256.BroadcastsInDim S8x64x256x256 (![0, 1, 2, 3] : Fin 4 → Fin S8x64x256x256.rank)

variable [Facts₀]

class Facts : Prop extends Facts₀ where

variable [Facts]
-- ==== Proof.Spec.lean ====
/-
  Masked mean pooling over a 5×5 window dilated by 2, on a reflect-padded image: the specification both programs meet.

  An image `x : [8, 64, 256, 256]` and a mask `mask : [8, 1, 256, 256]` are each padded by 4 rows and 4 columns on
  every side by reflection (the row above the first is row 1, and so on), giving `P : [8, 64, 264, 264]` and
  `Q : [8, 1, 264, 264]`. At pixel `(b, ch, r, c)` the 25 taps are the padded positions `(r + oi, c + oj)`,
  `oi, oj ∈ {0, 2, 4, 6, 8}`; a tap counts when the padded mask there equals the mask's value `Mk` at the pixel itself.
  The result is the sum of the padded image over the taps that count, divided by their number (by one when none
  counts). The sums run over the taps in row-major order from zero, every step one addition on the extended reals.
-/
import Idealize.ShloMosaic.PureOps.Ideal
import Idealize.ShloMosaic.Lib.ValueIdx

noncomputable section

namespace Cert.SelPool

open Idealize.ShloMosaic Idealize.ShloMosaic.ValueIdx

/-- The image's shape, the mask's, and their padded shapes. -/
abbrev SX : Shape := ⟨4, ![8, 64, 256, 256]⟩
abbrev SM : Shape := ⟨4, ![8, 1, 256, 256]⟩
abbrev SXP : Shape := ⟨4, ![8, 64, 264, 264]⟩
abbrev SMP : Shape := ⟨4, ![8, 1, 264, 264]⟩

/-- A row or column of the image moved `o ≤ 8` places into the padded image. -/
abbrev shift (r : Fin 256) (o : Nat) (h : o ≤ 8 := by decide) : Fin 264 := ⟨r.val + o, by omega⟩

/-- The two float literals of the programs: zero and one. -/
abbrev zero : EReal := Ideal.ofBits .f32 0x00000000#32
abbrev one : EReal := Ideal.ofBits .f32 0x3F800000#32

/-- One where the two mask values are equal, zero where they are not: the comparison's bit read as a number. -/
def hit (q mk : EReal) : EReal := (((Ideal.cmp .oeq q mk).toNat : ℝ) : EReal)

section Pixel

variable (P : SXP.Idx → EReal) (Q : SMP.Idx → EReal) (Mk : SM.Idx → EReal)
variable (b : Fin 8) (ch : Fin 64) (r c : Fin 256)

/-- Whether the tap at offsets `(oi, oj)` counts at pixel `(b, r, c)`: the padded mask there against the pixel's own mask value. -/
def tapHit (oi oj : Nat) (hi : oi ≤ 8 := by decide) (hj : oj ≤ 8 := by decide) : EReal :=
  hit (Q (ix4 b (0 : Fin 1) (shift r oi hi) (shift c oj hj))) (Mk (ix4 b (0 : Fin 1) r c))

/-- That tap's contribution to the sum: the padded image there, where the tap counts. -/
def tapVal (oi oj : Nat) (hi : oi ≤ 8 := by decide) (hj : oj ≤ 8 := by decide) : EReal :=
  tapHit Q Mk b r c oi oj hi hj * P (ix4 b ch (shift r oi hi) (shift c oj hj))

/-- The sum of the padded image over the taps that count, in row-major order of the taps from zero. -/
def acc : EReal :=
  zero + tapVal P Q Mk b ch r c 0 0 + tapVal P Q Mk b ch r c 0 2 + tapVal P Q Mk b ch r c 0 4 + tapVal P Q Mk b ch r c 0 6 + tapVal P Q Mk b ch r c 0 8 + tapVal P Q Mk b ch r c 2 0 + tapVal P Q Mk b ch r c 2 2 + tapVal P Q Mk b ch r c 2 4 + tapVal P Q Mk b ch r c 2 6 + tapVal P Q Mk b ch r c 2 8 + tapVal P Q Mk b ch r c 4 0 + tapVal P Q Mk b ch r c 4 2 + tapVal P Q Mk b ch r c 4 4 + tapVal P Q Mk b ch r c 4 6 + tapVal P Q Mk b ch r c 4 8 + tapVal P Q Mk b ch r c 6 0 + tapVal P Q Mk b ch r c 6 2 + tapVal P Q Mk b ch r c 6 4 + tapVal P Q Mk b ch r c 6 6 + tapVal P Q Mk b ch r c 6 8 + tapVal P Q Mk b ch r c 8 0 + tapVal P Q Mk b ch r c 8 2 + tapVal P Q Mk b ch r c 8 4 + tapVal P Q Mk b ch r c 8 6 + tapVal P Q Mk b ch r c 8 8

/-- The number of taps that count, summed in the same order. -/
def cnt : EReal :=
  zero + tapHit Q Mk b r c 0 0 + tapHit Q Mk b r c 0 2 + tapHit Q Mk b r c 0 4 + tapHit Q Mk b r c 0 6 + tapHit Q Mk b r c 0 8 + tapHit Q Mk b r c 2 0 + tapHit Q Mk b r c 2 2 + tapHit Q Mk b r c 2 4 + tapHit Q Mk b r c 2 6 + tapHit Q Mk b r c 2 8 + tapHit Q Mk b r c 4 0 + tapHit Q Mk b r c 4 2 + tapHit Q Mk b r c 4 4 + tapHit Q Mk b r c 4 6 + tapHit Q Mk b r c 4 8 + tapHit Q Mk b r c 6 0 + tapHit Q Mk b r c 6 2 + tapHit Q Mk b r c 6 4 + tapHit Q Mk b r c 6 6 + tapHit Q Mk b r c 6 8 + tapHit Q Mk b r c 8 0 + tapHit Q Mk b r c 8 2 + tapHit Q Mk b r c 8 4 + tapHit Q Mk b r c 8 6 + tapHit Q Mk b r c 8 8

/-- The divisor: the count, or one where no tap counts. -/
def denom : EReal := Scalar.select (Ideal.cmp .oeq (cnt Q Mk b r c) zero) one (cnt Q Mk b r c)

/-- The pooled value at the pixel. -/
def outAt : EReal := Ideal.div (acc P Q Mk b ch r c) (denom Q Mk b r c)

end Pixel

/-- The pooled image from a padded image, a padded mask and the mask. -/
def pooled (P : SXP.Idx → EReal) (Q : SMP.Idx → EReal) (Mk : SM.Idx → EReal) : SX.Idx → EReal :=
  fun i => outAt P Q Mk (i 0) (i 1) (i 2) (i 3)

theorem pooled_apply (P : SXP.Idx → EReal) (Q : SMP.Idx → EReal) (Mk : SM.Idx → EReal) (b : Fin 8) (ch : Fin 64) (r c : Fin 256) :
    pooled P Q Mk (ix4 b ch r c) = outAt P Q Mk b ch r c := rfl

end Cert.SelPool

end
-- ==== Proof.KernelBody.lean ====
/-
  The kernel body's stored block read at one entry. The body loads a padded image block `[1, 16, 264, 264]` and a
  padded mask block `[1, 1, 264, 264]`; for each of the 25 taps it compares the mask slice at the tap's offsets with the
  slice at offsets (4, 4) — the block's centre —, turns the bit into a number, multiplies the image slice at the tap's
  offsets by it and adds, summing the numbers beside; it stores the first sum over the second, the second replaced by
  one where it is zero. Entry `(0, k, r, c)` of the stored block is therefore the pooled value of the specification, of
  any padded image and mask whose blocks these are, against the padded mask's own centre.
-/
import proofs.«181392_j37838661878408_1_alg».proof.Proof.Gen.KernelIdeal.Frame
import proofs.«181392_j37838661878408_1_alg».proof.Proof.Spec
import Idealize.ShloMosaic.Lib.ValueIdx
import Idealize.ShloMosaic.Lib.ValueLayout
import Idealize.ShloMosaic.Lib.Pipeline.Value

noncomputable section

namespace Cert.KernelSide

open Cert.KernelIdeal Cert.KernelIdeal.Gen Idealize.ShloMosaic Idealize.ShloMosaic.ValueIdx Cert.SelPool

/-! ## Words and layout operations at an entry -/

/-- A comparison's bit, widened to 32 bits and read as a signed integer, is the bit read as a natural number. -/
theorem bit_as_number (w : BitVec 1) : (((w.setWidth 32).toInt : ℝ) : EReal) = ((w.toNat : ℝ) : EReal) := by
  rcases BitVec.eq_zero_or_eq_one w with rfl | rfl <;> simp

/-- The padded mask block without its two unit axes, at `(a, b)`. -/
theorem mask_cast_apply {α : Type} (x1 : S1x1x264x264.Idx → α) (h : S1x1x264x264.ShapeCasts S264x264) (a b : Fin 264) :
    shapeCast S264x264 x1 h (ix2 a b) = x1 (ix4 (0 : Fin 1) (0 : Fin 1) a b) :=
  shapeCast_apply x1 h _ _ (by
    rw [Shape.rowMajor_val_four, Shape.rowMajor_val_two]
    show ((0 * 1 + 0) * 264 + a.val) * 264 + b.val = a.val * 264 + b.val
    omega)

/-- A 256 × 256 window of a 264 × 264 array at offsets `(oi, oj)`, at `(r, c)`. -/
theorem window2_apply {α : Type} (oi oj : Nat) (v : S264x264.Idx → α) (h : S264x264.Slices ![oi, oj] S256x256) (r c : Fin 256) :
    extractStridedSlice S256x256 ![oi, oj] v h (ix2 r c)
      = v (ix2 (⟨r.val + oi, by have := h.2 0; simp at this; omega⟩ : Fin 264) (⟨c.val + oj, by have := h.2 1; simp at this; omega⟩ : Fin 264)) :=
  extractStridedSlice_apply _ v h _ _ fun a => match a with
    | ⟨0, _⟩ => by show r.val + oi = oi + r.val; omega
    | ⟨1, _⟩ => by show c.val + oj = oj + c.val; omega

/-- The same window of every channel of a `[16, 264, 264]` array, at `(k, r, c)`. -/
theorem window3_apply {α : Type} (oi oj : Nat) (v : S16x264x264.Idx → α) (h : S16x264x264.Slices ![0, oi, oj] S16x256x256)
    (k : Fin 16) (r c : Fin 256) :
    extractStridedSlice S16x256x256 ![0, oi, oj] v h (ix3 k r c)
      = v (ix3 k (⟨r.val + oi, by have := h.2 1; simp at this; omega⟩ : Fin 264) (⟨c.val + oj, by have := h.2 2; simp at this; omega⟩ : Fin 264)) :=
  extractStridedSlice_apply _ v h _ _ fun a => match a with
    | ⟨0, _⟩ => by show k.val = 0 + k.val; omega
    | ⟨1, _⟩ => by show r.val + oi = oi + r.val; omega
    | ⟨2, _⟩ => by show c.val + oj = oj + c.val; omega

/-- A 256 × 256 array given a leading unit axis and spread over the 16 channels, at `(k, r, c)`. -/
theorem spread_apply {α : Type} (u : S256x256.Idx → α) (h1 : S256x256.ShapeCasts S1x256x256) (h2 : S1x256x256.Broadcasts S16x256x256)
    (k : Fin 16) (r c : Fin 256) :
    broadcastTo S16x256x256 (shapeCast S1x256x256 u h1) h2 (ix3 k r c) = u (ix2 r c) :=
  (broadcastTo_apply _ h2 _ (ix3 (0 : Fin 1) r c) fun a => match a with
    | ⟨0, _⟩ => rfl | ⟨1, _⟩ => rfl | ⟨2, _⟩ => rfl).trans (shapeCast_ab_1ab_apply u h1 0 r c)

/-! ## One tap, and the block's centre -/

/-- The offsets of a whole-block load or store, all zero. -/
theorem hz4 : (![0, 0, 0, 0] : Fin 4 → Nat) = fun _ => 0 := funext fun a => by fin_cases a <;> rfl

/-- The padded mask's centre, as a mask: entry `(b, 0, r, c)` is the padded entry `(b, 0, r + 4, c + 4)`. -/
def centre (Q : SMP.Idx → EReal) : SM.Idx → EReal :=
  fun i => Q (ix4 (i 0) (0 : Fin 1) (shift (i 2) 4) (shift (i 3) 4))

/-- A channel of the image from its block of 16 and its place in the block. -/
abbrev chan (cb : Fin 4) (k : Fin 16) : Fin 64 := ⟨cb.val * 16 + k.val, by omega⟩

/-- One tap's number at `(r, c)`: the mask window at the tap's offsets compared with the centre window, the bit widened
    and converted — one where the two mask values are equal, zero where they are not. -/
theorem hit_apply (oi oj : Nat) (v1 : FVec Ideal S264x264 .f32) (v4 : FVec Ideal S256x256 .f32)
    (h : S264x264.Slices ![oi, oj] S256x256) (hlt : 1 < 32) (r c : Fin 256) :
    (sitofp .f32 (extui 32 (cmpf .oeq (extractStridedSlice S256x256 ![oi, oj] v1 h) v4) hlt) : FVec Ideal S256x256 .f32) (ix2 r c)
      = hit (v1 (ix2 (⟨r.val + oi, by have := h.2 0; simp at this; omega⟩ : Fin 264) (⟨c.val + oj, by have := h.2 1; simp at this; omega⟩ : Fin 264)))
          (v4 (ix2 r c)) := by
  show ((((Ideal.cmp .oeq (extractStridedSlice S256x256 ![oi, oj] v1 h (ix2 r c)) (v4 (ix2 r c))).setWidth 32).toInt : ℝ) : EReal) = _
  rw [bit_as_number, window2_apply]
  rfl

/-! ## The stored block at an entry -/

set_option maxHeartbeats 2000000 in
/-- Entry `(0, k, r, c)` of the block the body stores, from blocks that are block `(b, cb)` of a padded image `P` and
    block `b` of a padded mask `Q`: the pooled value at pixel `(b, 16 cb + k, r, c)` against the padded mask's centre. -/
theorem body_at (x0 : Vec Ideal S1x16x264x264 .f32) (x1 : Vec Ideal S1x1x264x264 .f32)
    (P : SXP.Idx → EReal) (Q : SMP.Idx → EReal) (b : Fin 8) (cb : Fin 4)
    (hP : ∀ (k : Fin 16) (a b' : Fin 264), x0 (ix4 (0 : Fin 1) k a b') = P (ix4 b (chan cb k) a b'))
    (hQ : ∀ (a b' : Fin 264), x1 (ix4 (0 : Fin 1) (0 : Fin 1) a b') = Q (ix4 b (0 : Fin 1) a b'))
    (k : Fin 16) (r c : Fin 256) :
    out0_2 (F := Ideal) x0 x1 (ix4 (0 : Fin 1) k r c) = outAt P Q (centre Q) b (chan cb k) r c := by
  unfold out0_2
  rw [View.canon_unit_zero hz4]
  simp only [View.ld_unit_zero (S := S1x1x264x264) hz4, View.ld_unit_zero (S := S1x16x264x264) hz4]
  simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38]
  simp only [shapeCast_abc_1abc_apply, divf_apply, spread_apply, select_apply, cmpf_apply, broadcast_apply, addf_apply, mulf_apply,
    hit_apply, window2_apply, window3_apply, k0_pay2, k0_pay3, mask_cast_apply, shapeCast_1abc_abc_apply, hP, hQ]
  rfl

/-- The same at any entry of the stored block. -/
theorem body_at_idx (x0 : Vec Ideal S1x16x264x264 .f32) (x1 : Vec Ideal S1x1x264x264 .f32)
    (P : SXP.Idx → EReal) (Q : SMP.Idx → EReal) (b : Fin 8) (cb : Fin 4)
    (hP : ∀ (k : Fin 16) (a b' : Fin 264), x0 (ix4 (0 : Fin 1) k a b') = P (ix4 b (chan cb k) a b'))
    (hQ : ∀ (a b' : Fin 264), x1 (ix4 (0 : Fin 1) (0 : Fin 1) a b') = Q (ix4 b (0 : Fin 1) a b'))
    (y : S1x16x256x256.Idx) :
    out0_2 (F := Ideal) x0 x1 y = outAt P Q (centre Q) b (chan cb (y 1)) (y 2) (y 3) := by
  obtain ⟨u, k, r, c, rfl⟩ : ∃ (u : Fin 1) (k : Fin 16) (r c : Fin 256), y = ix4 u k r c := ⟨y 0, y 1, y 2, y 3, eq_ix4 y⟩
  obtain rfl : u = 0 := Subsingleton.elim _ _
  exact body_at x0 x1 P Q b cb hP hQ k r c

end Cert.KernelSide

end
-- ==== Proof.Pad.lean ====
/-
  Reflect padding by 4 on the two image axes, as a composition of slices, reversals and joins, and the one fact
  the comparison needs of it: the padded array's centre is the array itself.
-/
import proofs.«181392_j37838661878408_1_alg».proof.Proof.Spec
import Idealize.ShloMosaic.PureOps.ShapeOps
import Idealize.ShloMosaic.PureOps.Vector
import Idealize.ShloMosaic.Lib.Pipeline.Value

noncomputable section

namespace Cert.SelPool

open Idealize.ShloMosaic Idealize.ShloMosaic.ValueIdx

/-- The image padded by reflection: 4 rows above and below, then 4 columns left and right. -/
def padX (x : (⟨4, ![8, 64, 256, 256]⟩ : Shape).Idx → EReal) : (⟨4, ![8, 64, 264, 264]⟩ : Shape).Idx → EReal :=
  -- four rows above: rows 1 … 4, in reverse
  let top : (⟨4, ![8, 64, 4, 256]⟩ : Shape).Idx → EReal :=
    Host.reverse [2] (extractStridedSlice ⟨4, ![8, 64, 4, 256]⟩ ![0, 0, 1, 0] x (by decide))
  let v3 : (⟨4, ![8, 64, 260, 256]⟩ : Shape).Idx → EReal :=
    concatenate ⟨4, ![8, 64, 260, 256]⟩ 2 [⟨⟨4, ![8, 64, 4, 256]⟩, top⟩, ⟨⟨4, ![8, 64, 256, 256]⟩, x⟩] (by decide : Shape.Concatenates [⟨4, ![8, 64, 4, 256]⟩, ⟨4, ![8, 64, 256, 256]⟩] ⟨4, ![8, 64, 260, 256]⟩ 2)
  -- four rows below: the last four before the last, in reverse
  let bot : (⟨4, ![8, 64, 4, 256]⟩ : Shape).Idx → EReal :=
    Host.reverse [2] (extractStridedSlice ⟨4, ![8, 64, 4, 256]⟩ ![0, 0, 255, 0] v3 (by decide))
  let v7 : (⟨4, ![8, 64, 264, 256]⟩ : Shape).Idx → EReal :=
    concatenate ⟨4, ![8, 64, 264, 256]⟩ 2 [⟨⟨4, ![8, 64, 260, 256]⟩, v3⟩, ⟨⟨4, ![8, 64, 4, 256]⟩, bot⟩] (by decide : Shape.Concatenates [⟨4, ![8, 64, 260, 256]⟩, ⟨4, ![8, 64, 4, 256]⟩] ⟨4, ![8, 64, 264, 256]⟩ 2)
  -- four columns to the left, then four to the right, likewise
  let left : (⟨4, ![8, 64, 264, 4]⟩ : Shape).Idx → EReal :=
    Host.reverse [3] (extractStridedSlice ⟨4, ![8, 64, 264, 4]⟩ ![0, 0, 0, 1] v7 (by decide))
  let v11 : (⟨4, ![8, 64, 264, 260]⟩ : Shape).Idx → EReal :=
    concatenate ⟨4, ![8, 64, 264, 260]⟩ 3 [⟨⟨4, ![8, 64, 264, 4]⟩, left⟩, ⟨⟨4, ![8, 64, 264, 256]⟩, v7⟩] (by decide : Shape.Concatenates [⟨4, ![8, 64, 264, 4]⟩, ⟨4, ![8, 64, 264, 256]⟩] ⟨4, ![8, 64, 264, 260]⟩ 3)
  let right : (⟨4, ![8, 64, 264, 4]⟩ : Shape).Idx → EReal :=
    Host.reverse [3] (extractStridedSlice ⟨4, ![8, 64, 264, 4]⟩ ![0, 0, 0, 255] v11 (by decide))
  concatenate ⟨4, ![8, 64, 264, 264]⟩ 3 [⟨⟨4, ![8, 64, 264, 260]⟩, v11⟩, ⟨⟨4, ![8, 64, 264, 4]⟩, right⟩] (by decide : Shape.Concatenates [⟨4, ![8, 64, 264, 260]⟩, ⟨4, ![8, 64, 264, 4]⟩] ⟨4, ![8, 64, 264, 264]⟩ 3)

/-- The mask padded in the same way. -/
def padM (x : (⟨4, ![8, 1, 256, 256]⟩ : Shape).Idx → EReal) : (⟨4, ![8, 1, 264, 264]⟩ : Shape).Idx → EReal :=
  -- four rows above: rows 1 … 4, in reverse
  let top : (⟨4, ![8, 1, 4, 256]⟩ : Shape).Idx → EReal :=
    Host.reverse [2] (extractStridedSlice ⟨4, ![8, 1, 4, 256]⟩ ![0, 0, 1, 0] x (by decide))
  let v3 : (⟨4, ![8, 1, 260, 256]⟩ : Shape).Idx → EReal :=
    concatenate ⟨4, ![8, 1, 260, 256]⟩ 2 [⟨⟨4, ![8, 1, 4, 256]⟩, top⟩, ⟨⟨4, ![8, 1, 256, 256]⟩, x⟩] (by decide : Shape.Concatenates [⟨4, ![8, 1, 4, 256]⟩, ⟨4, ![8, 1, 256, 256]⟩] ⟨4, ![8, 1, 260, 256]⟩ 2)
  -- four rows below: the last four before the last, in reverse
  let bot : (⟨4, ![8, 1, 4, 256]⟩ : Shape).Idx → EReal :=
    Host.reverse [2] (extractStridedSlice ⟨4, ![8, 1, 4, 256]⟩ ![0, 0, 255, 0] v3 (by decide))
  let v7 : (⟨4, ![8, 1, 264, 256]⟩ : Shape).Idx → EReal :=
    concatenate ⟨4, ![8, 1, 264, 256]⟩ 2 [⟨⟨4, ![8, 1, 260, 256]⟩, v3⟩, ⟨⟨4, ![8, 1, 4, 256]⟩, bot⟩] (by decide : Shape.Concatenates [⟨4, ![8, 1, 260, 256]⟩, ⟨4, ![8, 1, 4, 256]⟩] ⟨4, ![8, 1, 264, 256]⟩ 2)
  -- four columns to the left, then four to the right, likewise
  let left : (⟨4, ![8, 1, 264, 4]⟩ : Shape).Idx → EReal :=
    Host.reverse [3] (extractStridedSlice ⟨4, ![8, 1, 264, 4]⟩ ![0, 0, 0, 1] v7 (by decide))
  let v11 : (⟨4, ![8, 1, 264, 260]⟩ : Shape).Idx → EReal :=
    concatenate ⟨4, ![8, 1, 264, 260]⟩ 3 [⟨⟨4, ![8, 1, 264, 4]⟩, left⟩, ⟨⟨4, ![8, 1, 264, 256]⟩, v7⟩] (by decide : Shape.Concatenates [⟨4, ![8, 1, 264, 4]⟩, ⟨4, ![8, 1, 264, 256]⟩] ⟨4, ![8, 1, 264, 260]⟩ 3)
  let right : (⟨4, ![8, 1, 264, 4]⟩ : Shape).Idx → EReal :=
    Host.reverse [3] (extractStridedSlice ⟨4, ![8, 1, 264, 4]⟩ ![0, 0, 0, 255] v11 (by decide))
  concatenate ⟨4, ![8, 1, 264, 264]⟩ 3 [⟨⟨4, ![8, 1, 264, 260]⟩, v11⟩, ⟨⟨4, ![8, 1, 264, 4]⟩, right⟩] (by decide : Shape.Concatenates [⟨4, ![8, 1, 264, 260]⟩, ⟨4, ![8, 1, 264, 4]⟩] ⟨4, ![8, 1, 264, 264]⟩ 3)

/-- THE SPECIFICATION: the pooled image of the padded image and padded mask against the mask itself. -/
def G (x : SX.Idx → EReal) (mask : SM.Idx → EReal) : SX.Idx → EReal := pooled (padX x) (padM mask) mask

end Cert.SelPool

end
-- ==== Proof.KernelHost.lean ====
/-
  What the kernel's two padded operands hold when the launch begins: the host side of the kernel program pads the
  image and the mask by reflection before the call, with the same slices, reversals and joins as the specification's
  `padX` and `padM`. Each equation is by computation: the host operations' fold unrolled, every operation's result
  read at the buffer it writes, the slices, reversals and joins themselves kept folded.
-/
import proofs.«181392_j37838661878408_1_alg».proof.Proof.Gen.KernelIdeal.Frame
import proofs.«181392_j37838661878408_1_alg».proof.Proof.Pad
import Idealize.ShloMosaic.Lib.StableHlo.Run

noncomputable section

namespace Cert.KernelSide

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

attribute [local irreducible] concatenate extractStridedSlice Host.reverse in
set_option maxRecDepth 8192 in
set_option maxHeartbeats 1000000 in
/-- The first operand of the call is the image padded by reflection. -/
theorem V_main_v0 (c : Dev nD) :
    (V (F := Ideal) m c main_v0 : S8x64x264x264.Idx → EReal) = Cert.SelPool.padX (m ((c : Thread nD τ).loc main_arg0)) := by
  dsimp only [Gen.V]
  simp only [hostOps0, hostOps0_1, hostOps0_2, hostOps0_3, List.flatten_cons, List.flatten_nil, List.append_nil, List.cons_append,
    List.nil_append]
  simp only [after_cons, after_nil]
  rfl

attribute [local irreducible] concatenate extractStridedSlice Host.reverse in
set_option maxRecDepth 8192 in
set_option maxHeartbeats 1000000 in
/-- The second operand of the call is the mask padded by reflection. -/
theorem V_main_v1 (c : Dev nD) :
    (V (F := Ideal) m c main_v1 : S8x1x264x264.Idx → EReal) = Cert.SelPool.padM (m ((c : Thread nD τ).loc main_arg1)) := by
  dsimp only [Gen.V]
  simp only [hostOps0, hostOps0_1, hostOps0_2, hostOps0_3, List.flatten_cons, List.flatten_nil, List.append_nil, List.cons_append,
    List.nil_append]
  simp only [after_cons, after_nil]
  rfl

end Cert.KernelSide

end
-- ==== Proof.PadCentre.lean ====
/-
  The centre of the reflect-padded mask is the mask: entry (b, 0, r + 4, c + 4) of the padded array lies, at each of
  the four joins, in the piece that carries the original rows and columns.
-/
import proofs.«181392_j37838661878408_1_alg».proof.Proof.Pad

noncomputable section

namespace Cert.SelPool

open Idealize.ShloMosaic Idealize.ShloMosaic.ValueIdx

/-- Entry `(b, 0, r + 4, c + 4)` of the padded mask is entry `(b, 0, r, c)` of the mask. -/
theorem padM_centre (mask : SM.Idx → EReal) (b : Fin 8) (r c : Fin 256) :
    padM mask (ix4 b (0 : Fin 1) (shift r 4) (shift c 4)) = mask (ix4 b (0 : Fin 1) r c) := by
  unfold padM
  dsimp only
  -- the last join, along the columns: column c + 4 is among the first 260
  refine (concatenate_pair_apply_left (t := ⟨4, ![8, 1, 264, 264]⟩) (s₁ := ⟨4, ![8, 1, 264, 260]⟩) (s₂ := ⟨4, ![8, 1, 264, 4]⟩) (3 : Fin 4) _ _ _
    (ix4 b (0 : Fin 1) (shift r 4) (shift c 4)) rfl
    (ix4 b (0 : Fin 1) (shift r 4) (⟨c.val + 4, by omega⟩ : Fin 260))
    (fun a => match a with | ⟨0, _⟩ => rfl | ⟨1, _⟩ => rfl | ⟨2, _⟩ => rfl | ⟨3, _⟩ => rfl)).trans ?_
  -- the join before it: column c + 4 is past the four reflected columns
  refine (concatenate_pair_apply_right (t := ⟨4, ![8, 1, 264, 260]⟩) (s₁ := ⟨4, ![8, 1, 264, 4]⟩) (s₂ := ⟨4, ![8, 1, 264, 256]⟩) (3 : Fin 4) _ _ _
    (ix4 b (0 : Fin 1) (shift r 4) (⟨c.val + 4, by omega⟩ : Fin 260)) rfl rfl
    (ix4 b (0 : Fin 1) (shift r 4) c)
    (fun a ha => match a, ha with
      | ⟨0, _⟩, _ => rfl | ⟨1, _⟩, _ => rfl | ⟨2, _⟩, _ => rfl | ⟨3, _⟩, ha => absurd (Fin.ext rfl) ha)
    rfl).trans ?_
  -- the second join along the rows: row r + 4 is among the first 260
  refine (concatenate_pair_apply_left (t := ⟨4, ![8, 1, 264, 256]⟩) (s₁ := ⟨4, ![8, 1, 260, 256]⟩) (s₂ := ⟨4, ![8, 1, 4, 256]⟩) (2 : Fin 4) _ _ _
    (ix4 b (0 : Fin 1) (shift r 4) c) rfl
    (ix4 b (0 : Fin 1) (⟨r.val + 4, by omega⟩ : Fin 260) c)
    (fun a => match a with | ⟨0, _⟩ => rfl | ⟨1, _⟩ => rfl | ⟨2, _⟩ => rfl | ⟨3, _⟩ => rfl)).trans ?_
  -- the first join: row r + 4 is past the four reflected rows
  exact concatenate_pair_apply_right (t := ⟨4, ![8, 1, 260, 256]⟩) (s₁ := ⟨4, ![8, 1, 4, 256]⟩) (s₂ := ⟨4, ![8, 1, 256, 256]⟩) (2 : Fin 4) _ _ _
    (ix4 b (0 : Fin 1) (⟨r.val + 4, by omega⟩ : Fin 260) c) rfl rfl
    (ix4 b (0 : Fin 1) r c)
    (fun a ha => match a, ha with
      | ⟨0, _⟩, _ => rfl | ⟨1, _⟩, _ => rfl | ⟨2, _⟩, ha => absurd (Fin.ext rfl) ha | ⟨3, _⟩, _ => rfl)
    rfl

end Cert.SelPool

end
-- ==== Proof.KernelArray.lean ====
/-
  From the blocks to the whole array. The grid has 8 × 4 points; point `t = 4 b + cb` loads block `(b, cb)` of the padded
  image (16 channels, whole 264 × 264 planes) and block `b` of the padded mask, and writes back block `(b, cb)` of the
  result (16 channels, whole 256 × 256 planes). What it writes back is that block of the pooled image of the two padded
  operands against the padded mask's centre; the 32 blocks tile the result; the centre of the padded mask is the mask.
  So the result array ends holding the specification's `G` of the two arguments.
-/
import proofs.«181392_j37838661878408_1_alg».proof.Proof.KernelBody
import proofs.«181392_j37838661878408_1_alg».proof.Proof.KernelHost
import proofs.«181392_j37838661878408_1_alg».proof.Proof.PadCentre
import Idealize.ShloMosaic.Lib.Pipeline.Value

noncomputable section

namespace Cert.KernelSide

open Cert.KernelIdeal Cert.KernelIdeal.Gen Idealize.ShloMosaic Idealize.ShloMosaic.TcCoe Idealize.SL.Sem
open Idealize.ShloMosaic.ValueIdx Cert.SelPool
open Idealize.ShloMosaic.Pipeline (Dat)

variable (m : (ℓ : Loc nD τ sig) → Buf (Elt Ideal) ℓ) (ρ : Dev nD → PrngReg)

/-- The three windows' block indices at point `t`: the image and the result move with `(t / 4, t % 4)`, the mask with
    `t / 4` alone; no window moves along the rows or the columns. Decided over the 32 points. -/
theorem index_facts : ∀ t : Fin cfg0.N,
    win0_0.index t (0 : Fin 4) = t.val / 4 ∧ win0_0.index t (1 : Fin 4) = t.val % 4
    ∧ win0_0.index t (2 : Fin 4) = 0 ∧ win0_0.index t (3 : Fin 4) = 0
    ∧ win0_1.index t (0 : Fin 4) = t.val / 4 ∧ win0_1.index t (1 : Fin 4) = 0
    ∧ win0_1.index t (2 : Fin 4) = 0 ∧ win0_1.index t (3 : Fin 4) = 0
    ∧ win0_2.index t (0 : Fin 4) = t.val / 4 ∧ win0_2.index t (1 : Fin 4) = t.val % 4
    ∧ win0_2.index t (2 : Fin 4) = 0 ∧ win0_2.index t (3 : Fin 4) = 0 :=
  (by decide +kernel : ∀ t : Fin grid0.N, _)

/-- WHAT POINT `t` WRITES BACK is block `t` of the pooled image of the padded operands, as the launch finds them,
    against the padded mask's centre. -/
theorem flushed_eq (c : Dev nD) (t : Fin cfg0.N) :
    (dats m 0 c).flushed 2 t = ((cfg0.win 2).blk t).view.read (Elt Ideal)
      (pooled (V m c main_v0) (V m c main_v1) (centre (V m c main_v1))) := by
  show (cfg0.win 2).cut (grid0.coords t) ((dats m 0 c).after 2 t) = _
  rw [after0_2]
  obtain ⟨e00, e01, e02, e03, e10, e11, e12, e13, e20, e21, e22, e23⟩ := index_facts t
  have htN : t.val < 32 := by have h := t.isLt; have hN : cfg0.N = 32 := N_0; omega
  funext y
  show out0_2 (iblk m c 0 t) (iblk m c 1 t) y
    = pooled (V m c main_v0) (V m c main_v1) (centre (V m c main_v1)) (((cfg0.win 2).blk t).view.emb y)
  refine (body_at_idx (iblk m c 0 t) (iblk m c 1 t) (V m c main_v0) (V m c main_v1)
    ⟨t.val / 4, by omega⟩ ⟨t.val % 4, by omega⟩ ?_ ?_ y).trans ?_
  · -- the image block's entry (0, k, a, b') is the padded image's entry (t / 4, 16 (t % 4) + k, a, b')
    intro k a b'
    show V m c main_v0 (((cfg0.win 0).blk t).view.emb (ix4 (0 : Fin 1) k a b')) = V m c main_v0 _
    refine congrArg (V m c main_v0) (funext fun ax => Fin.ext ?_)
    match ax with
    | ⟨0, _⟩ => show win0_0.index t (0 : Fin 4) * 1 + 1 * 0 = t.val / 4; omega
    | ⟨1, _⟩ => show win0_0.index t (1 : Fin 4) * 16 + 1 * k.val = t.val % 4 * 16 + k.val; omega
    | ⟨2, _⟩ => show win0_0.index t (2 : Fin 4) * 264 + 1 * a.val = a.val; omega
    | ⟨3, _⟩ => show win0_0.index t (3 : Fin 4) * 264 + 1 * b'.val = b'.val; omega
  · -- the mask block's entry (0, 0, a, b') is the padded mask's entry (t / 4, 0, a, b')
    intro a b'
    show V m c main_v1 (((cfg0.win 1).blk t).view.emb (ix4 (0 : Fin 1) (0 : Fin 1) a b')) = V m c main_v1 _
    refine congrArg (V m c main_v1) (funext fun ax => Fin.ext ?_)
    match ax with
    | ⟨0, _⟩ => show win0_1.index t (0 : Fin 4) * 1 + 1 * 0 = t.val / 4; omega
    | ⟨1, _⟩ => show win0_1.index t (1 : Fin 4) * 1 + 1 * 0 = 0; omega
    | ⟨2, _⟩ => show win0_1.index t (2 : Fin 4) * 264 + 1 * a.val = a.val; omega
    | ⟨3, _⟩ => show win0_1.index t (3 : Fin 4) * 264 + 1 * b'.val = b'.val; omega
  · -- the result block's entry y is the result's entry (t / 4, 16 (t % 4) + y 1, y 2, y 3)
    have hy0 : (y 0).val < 1 := (y 0).isLt
    have he : ((cfg0.win 2).blk t).view.emb y
        = ix4 (⟨t.val / 4, by omega⟩ : Fin 8) (chan ⟨t.val % 4, by omega⟩ (y 1)) (y 2) (y 3) := by
      funext ax; apply Fin.ext
      match ax with
      | ⟨0, _⟩ => show win0_2.index t (0 : Fin 4) * 1 + 1 * (y 0).val = t.val / 4; omega
      | ⟨1, _⟩ => show win0_2.index t (1 : Fin 4) * 16 + 1 * (y 1).val = t.val % 4 * 16 + (y 1).val; omega
      | ⟨2, _⟩ => show win0_2.index t (2 : Fin 4) * 256 + 1 * (y 2).val = (y 2).val; omega
      | ⟨3, _⟩ => show win0_2.index t (3 : Fin 4) * 256 + 1 * (y 3).val = (y 3).val; omega
    rw [he]
    rfl

/-- An entry of the result is in point `t`'s block iff each coordinate is in the block's range on its axis. -/
theorem mem_blk (t : Fin cfg0.N) (i : S8x64x256x256.Idx) :
    i ∈ ((cfg0.win 2).blk t).view.set ↔ ∀ a : Fin 4, win0_2.index t a * S1x16x256x256.size a ≤ (i a).val
      ∧ (i a).val < win0_2.index t a * S1x16x256x256.size a + S1x16x256x256.size a := by
  show i ∈ ((View.whole main_v2).slice (win0_2.rect t)).set ↔ _
  rw [View.set_slice_whole, Rect.mem_set_unit]
  exact Iff.rfl

/-- THE COVER: entry `(b, ch, r, c)` of the result is in the block of point `4 b + ch / 16`. -/
theorem cover (i : S8x64x256x256.Idx) :
    ∃ t : Fin cfg0.N, (cfg0.win 2).flush t = true ∧ i ∈ ((cfg0.win 2).blk t).view.set := by
  have h0 : (i 0).val < 8 := (i 0).isLt
  have h1 : (i 1).val < 64 := (i 1).isLt
  have h2 : (i 2).val < 256 := (i 2).isLt
  have h3 : (i 3).val < 256 := (i 3).isLt
  obtain ⟨t, ht⟩ : ∃ t : Fin cfg0.N, t.val = (i 0).val * 4 + (i 1).val / 16 :=
    ⟨⟨(i 0).val * 4 + (i 1).val / 16, by have hN : cfg0.N = 32 := N_0; omega⟩, rfl⟩
  obtain ⟨-, -, -, -, -, -, -, -, e20, e21, e22, e23⟩ := index_facts t
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 16 ≤ (i 1).val ∧ (i 1).val < win0_2.index t (1 : Fin 4) * 16 + 16; omega
  | ⟨2, _⟩ => show win0_2.index t (2 : Fin 4) * 256 ≤ (i 2).val ∧ (i 2).val < win0_2.index t (2 : Fin 4) * 256 + 256; omega
  | ⟨3, _⟩ => show win0_2.index t (3 : Fin 4) * 256 ≤ (i 3).val ∧ (i 3).val < win0_2.index t (3 : Fin 4) * 256 + 256; omega

/-- The centre of the reflect-padded mask, as a mask, is the mask. -/
theorem centre_padM (mask : SM.Idx → EReal) : centre (padM mask) = mask := by
  funext i
  obtain ⟨b, z, r, c, rfl⟩ : ∃ (b : Fin 8) (z : Fin 1) (r c : Fin 256), i = ix4 b z r c := ⟨i 0, i 1, i 2, i 3, eq_ix4 i⟩
  obtain rfl : z = 0 := Subsingleton.elim _ _
  exact padM_centre mask b r c

/-- THE RESULT ARRAY after the run is the specification's `G` of the two arguments. -/
theorem final (c : Dev nD) :
    (dats m 0 c).arrAt 2 cfg0.N = G (m ((c : Thread nD τ).loc main_arg0)) (m ((c : Thread nD τ).loc main_arg1)) := by
  rw [(dats m 0 c).arrAt_eq_of_cover 2 (pooled (V m c main_v0) (V m c main_v1) (centre (V m c main_v1)))
    (fun t _ => flushed_eq m c t) cover]
  rw [V_main_v0, V_main_v1, centre_padM]
  rfl

/-- The kernel's run, read: every weakly fair execution ends with the result array at `G` of the arguments and the
    arguments unchanged. -/
theorem run : θ_run defs (onTc (τ := τ) (main (F := Ideal))) ⟨m, fun _ => 0, ρ⟩ fun r => ∀ c : Dev nD,
      r.2.mem ((c : Thread nD τ).loc main_v2) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.KernelSide

end
-- ==== Proof.RefOps.lean ====
/-
  The reference program's operations, in order, as lists: the two reflect pads and the two zero arrays; then, for each of
  the 25 taps, the sixteen operations that slice the padded image and the padded mask at the tap's offsets, compare the
  mask slice with the mask, and add the selected image values and the match indicator to the running sums; then the
  division by the count (or by one where the count is zero).
-/
import proofs.«181392_j37838661878408_1_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]
/-- Both reflect pads (slices, reversals, joins) and the two zero arrays the sums start from. -/
abbrev headOps : List (HloOp τ sig (Elt F)) :=
  [ StableHlo.nullary main_c (constantI S_ 32 0#32),
    StableHlo.TRef.unary (.of main_arg0 : StableHlo.TRef sig ⟨S8x64x256x256, .f32⟩) main_call0.v0 (extractStridedSlice S8x64x1x256 ![0, 0, 0, 0] · slices_S8x64x256x256_S8x64x1x256_0_0_0_0),
    StableHlo.TRef.unary (.of main_arg0 : StableHlo.TRef sig ⟨S8x64x256x256, .f32⟩) main_call0.v1 (extractStridedSlice S8x64x4x256 ![0, 0, 1, 0] · slices_S8x64x256x256_S8x64x4x256_0_0_1_0),
    StableHlo.TRef.unary main_call0.v1 main_call0.call0.v0 (Host.reverse [2]),
    StableHlo.TRef.binary main_call0.call0.v0 (.of main_arg0 : StableHlo.TRef sig ⟨S8x64x256x256, .f32⟩) main_call0.v3 (fun a b => concatenate S8x64x260x256 2 [⟨S8x64x4x256, a⟩, ⟨S8x64x256x256, b⟩] concatenates_S8x64x4x256_S8x64x256x256_S8x64x260x256_d2),
    StableHlo.TRef.unary main_call0.v3 main_call0.v4 (extractStridedSlice S8x64x1x256 ![0, 0, 259, 0] · slices_S8x64x260x256_S8x64x1x256_0_0_259_0),
    StableHlo.TRef.unary main_call0.v3 main_call0.v5 (extractStridedSlice S8x64x4x256 ![0, 0, 255, 0] · slices_S8x64x260x256_S8x64x4x256_0_0_255_0),
    StableHlo.TRef.unary main_call0.v5 main_call0.call1.v0 (Host.reverse [2]),
    StableHlo.TRef.binary main_call0.v3 main_call0.call1.v0 main_call0.v7 (fun a b => concatenate S8x64x264x256 2 [⟨S8x64x260x256, a⟩, ⟨S8x64x4x256, b⟩] concatenates_S8x64x260x256_S8x64x4x256_S8x64x264x256_d2),
    StableHlo.TRef.unary main_call0.v7 main_call0.v8 (extractStridedSlice S8x64x264x1 ![0, 0, 0, 0] · slices_S8x64x264x256_S8x64x264x1_0_0_0_0),
    StableHlo.TRef.unary main_call0.v7 main_call0.v9 (extractStridedSlice S8x64x264x4 ![0, 0, 0, 1] · slices_S8x64x264x256_S8x64x264x4_0_0_0_1),
    StableHlo.TRef.unary main_call0.v9 main_call0.call2.v0 (Host.reverse [3]),
    StableHlo.TRef.binary main_call0.call2.v0 main_call0.v7 main_call0.v11 (fun a b => concatenate S8x64x264x260 3 [⟨S8x64x264x4, a⟩, ⟨S8x64x264x256, b⟩] concatenates_S8x64x264x4_S8x64x264x256_S8x64x264x260_d3),
    StableHlo.TRef.unary main_call0.v11 main_call0.v12 (extractStridedSlice S8x64x264x1 ![0, 0, 0, 259] · slices_S8x64x264x260_S8x64x264x1_0_0_0_259),
    StableHlo.TRef.unary main_call0.v11 main_call0.v13 (extractStridedSlice S8x64x264x4 ![0, 0, 0, 255] · slices_S8x64x264x260_S8x64x264x4_0_0_0_255),
    StableHlo.TRef.unary main_call0.v13 main_call0.call3.v0 (Host.reverse [3]),
    StableHlo.TRef.binary main_call0.v11 main_call0.call3.v0 main_call0.v15 (fun a b => concatenate S8x64x264x264 3 [⟨S8x64x264x260, a⟩, ⟨S8x64x264x4, b⟩] concatenates_S8x64x264x260_S8x64x264x4_S8x64x264x264_d3),
    StableHlo.nullary main_c_0 (constantI S_ 32 0#32),
    StableHlo.TRef.unary (.of main_arg1 : StableHlo.TRef sig ⟨S8x1x256x256, .f32⟩) main_call1.v0 (extractStridedSlice S8x1x1x256 ![0, 0, 0, 0] · slices_S8x1x256x256_S8x1x1x256_0_0_0_0),
    StableHlo.TRef.unary (.of main_arg1 : StableHlo.TRef sig ⟨S8x1x256x256, .f32⟩) main_call1.v1 (extractStridedSlice S8x1x4x256 ![0, 0, 1, 0] · slices_S8x1x256x256_S8x1x4x256_0_0_1_0),
    StableHlo.TRef.unary main_call1.v1 main_call1.call0.v0 (Host.reverse [2]),
    StableHlo.TRef.binary main_call1.call0.v0 (.of main_arg1 : StableHlo.TRef sig ⟨S8x1x256x256, .f32⟩) main_call1.v3 (fun a b => concatenate S8x1x260x256 2 [⟨S8x1x4x256, a⟩, ⟨S8x1x256x256, b⟩] concatenates_S8x1x4x256_S8x1x256x256_S8x1x260x256_d2),
    StableHlo.TRef.unary main_call1.v3 main_call1.v4 (extractStridedSlice S8x1x1x256 ![0, 0, 259, 0] · slices_S8x1x260x256_S8x1x1x256_0_0_259_0),
    StableHlo.TRef.unary main_call1.v3 main_call1.v5 (extractStridedSlice S8x1x4x256 ![0, 0, 255, 0] · slices_S8x1x260x256_S8x1x4x256_0_0_255_0),
    StableHlo.TRef.unary main_call1.v5 main_call1.call1.v0 (Host.reverse [2]),
    StableHlo.TRef.binary main_call1.v3 main_call1.call1.v0 main_call1.v7 (fun a b => concatenate S8x1x264x256 2 [⟨S8x1x260x256, a⟩, ⟨S8x1x4x256, b⟩] concatenates_S8x1x260x256_S8x1x4x256_S8x1x264x256_d2),
    StableHlo.TRef.unary main_call1.v7 main_call1.v8 (extractStridedSlice S8x1x264x1 ![0, 0, 0, 0] · slices_S8x1x264x256_S8x1x264x1_0_0_0_0),
    StableHlo.TRef.unary main_call1.v7 main_call1.v9 (extractStridedSlice S8x1x264x4 ![0, 0, 0, 1] · slices_S8x1x264x256_S8x1x264x4_0_0_0_1),
    StableHlo.TRef.unary main_call1.v9 main_call1.call2.v0 (Host.reverse [3]),
    StableHlo.TRef.binary main_call1.call2.v0 main_call1.v7 main_call1.v11 (fun a b => concatenate S8x1x264x260 3 [⟨S8x1x264x4, a⟩, ⟨S8x1x264x256, b⟩] concatenates_S8x1x264x4_S8x1x264x256_S8x1x264x260_d3),
    StableHlo.TRef.unary main_call1.v11 main_call1.v12 (extractStridedSlice S8x1x264x1 ![0, 0, 0, 259] · slices_S8x1x264x260_S8x1x264x1_0_0_0_259),
    StableHlo.TRef.unary main_call1.v11 main_call1.v13 (extractStridedSlice S8x1x264x4 ![0, 0, 0, 255] · slices_S8x1x264x260_S8x1x264x4_0_0_0_255),
    StableHlo.TRef.unary main_call1.v13 main_call1.call3.v0 (Host.reverse [3]),
    StableHlo.TRef.binary main_call1.v11 main_call1.call3.v0 main_call1.v15 (fun a b => concatenate S8x1x264x264 3 [⟨S8x1x264x260, a⟩, ⟨S8x1x264x4, b⟩] concatenates_S8x1x264x260_S8x1x264x4_S8x1x264x264_d3),
    StableHlo.nullary main_cst (constant S_ .f32 0x00000000#32),
    StableHlo.unary main_cst main_v2 (broadcastInDim S8x64x256x256 ![] bcast_S_S8x64x256x256 : (⟨S_, .f32⟩ : BufTy).Contents (Elt F) → (⟨S8x64x256x256, .f32⟩ : BufTy).Contents (Elt F)),
    StableHlo.nullary main_cst_1 (constant S_ .f32 0x00000000#32),
    StableHlo.unary main_cst_1 main_v3 (broadcastInDim S8x1x256x256 ![] bcast_S_S8x1x256x256 : (⟨S_, .f32⟩ : BufTy).Contents (Elt F) → (⟨S8x1x256x256, .f32⟩ : BufTy).Contents (Elt F)) ]

/-- Tap 0: offsets (0, 0). -/
abbrev tapOps0 : List (HloOp τ sig (Elt F)) :=
  [ StableHlo.nullary main_c_2 (constantI S_ 32 0#32),
    StableHlo.nullary main_c_3 (constantI S_ 32 0#32),
    StableHlo.nullary main_c_4 (constantI S_ 32 0#32),
    StableHlo.nullary main_c_5 (constantI S_ 32 0#32),
    StableHlo.unaryIndexed main_v0 ![main_c_2, main_c_3, main_c_4, main_c_5] ⟨S_, .i32⟩ main_v4 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_6 (constantI S_ 32 0#32),
    StableHlo.nullary main_c_7 (constantI S_ 32 0#32),
    StableHlo.nullary main_c_8 (constantI S_ 32 0#32),
    StableHlo.nullary main_c_9 (constantI S_ 32 0#32),
    StableHlo.unaryIndexed main_v1 ![main_c_6, main_c_7, main_c_8, main_c_9] ⟨S_, .i32⟩ main_v5 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v5 main_arg1 main_v6 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v6 main_v7 (uitofp .f32 : (⟨S8x1x256x256, .i1⟩ : BufTy).Contents (Elt F) → (⟨S8x1x256x256, .f32⟩ : BufTy).Contents (Elt F)),
    StableHlo.unary main_v7 main_v8 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v8 main_v4 main_v9 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v2 main_v9 main_v10 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v3 main_v7 main_v11 (addf : (⟨S8x1x256x256, .f32⟩ : BufTy).Contents (Elt F) → (⟨S8x1x256x256, .f32⟩ : BufTy).Contents (Elt F) → (⟨S8x1x256x256, .f32⟩ : BufTy).Contents (Elt F)) ]

/-- Tap 1: offsets (0, 2). -/
abbrev tapOps1 : List (HloOp τ sig (Elt F)) :=
  [ StableHlo.nullary main_c_10 (constantI S_ 32 0#32),
    StableHlo.nullary main_c_11 (constantI S_ 32 0#32),
    StableHlo.nullary main_c_12 (constantI S_ 32 0#32),
    StableHlo.nullary main_c_13 (constantI S_ 32 2#32),
    StableHlo.unaryIndexed main_v0 ![main_c_10, main_c_11, main_c_12, main_c_13] ⟨S_, .i32⟩ main_v12 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_14 (constantI S_ 32 0#32),
    StableHlo.nullary main_c_15 (constantI S_ 32 0#32),
    StableHlo.nullary main_c_16 (constantI S_ 32 0#32),
    StableHlo.nullary main_c_17 (constantI S_ 32 2#32),
    StableHlo.unaryIndexed main_v1 ![main_c_14, main_c_15, main_c_16, main_c_17] ⟨S_, .i32⟩ main_v13 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v13 main_arg1 main_v14 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v14 main_v15 (uitofp .f32 : (⟨S8x1x256x256, .i1⟩ : BufTy).Contents (Elt F) → (⟨S8x1x256x256, .f32⟩ : BufTy).Contents (Elt F)),
    StableHlo.unary main_v15 main_v16 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v16 main_v12 main_v17 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v10 main_v17 main_v18 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v11 main_v15 main_v19 (addf : (⟨S8x1x256x256, .f32⟩ : BufTy).Contents (Elt F) → (⟨S8x1x256x256, .f32⟩ : BufTy).Contents (Elt F) → (⟨S8x1x256x256, .f32⟩ : BufTy).Contents (Elt F)) ]

/-- Tap 2: offsets (0, 4). -/
abbrev tapOps2 : List (HloOp τ sig (Elt F)) :=
  [ StableHlo.nullary main_c_18 (constantI S_ 32 0#32),
    StableHlo.nullary main_c_19 (constantI S_ 32 0#32),
    StableHlo.nullary main_c_20 (constantI S_ 32 0#32),
    StableHlo.nullary main_c_21 (constantI S_ 32 4#32),
    StableHlo.unaryIndexed main_v0 ![main_c_18, main_c_19, main_c_20, main_c_21] ⟨S_, .i32⟩ main_v20 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_22 (constantI S_ 32 0#32),
    StableHlo.nullary main_c_23 (constantI S_ 32 0#32),
    StableHlo.nullary main_c_24 (constantI S_ 32 0#32),
    StableHlo.nullary main_c_25 (constantI S_ 32 4#32),
    StableHlo.unaryIndexed main_v1 ![main_c_22, main_c_23, main_c_24, main_c_25] ⟨S_, .i32⟩ main_v21 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v21 main_arg1 main_v22 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v22 main_v23 (uitofp .f32 : (⟨S8x1x256x256, .i1⟩ : BufTy).Contents (Elt F) → (⟨S8x1x256x256, .f32⟩ : BufTy).Contents (Elt F)),
    StableHlo.unary main_v23 main_v24 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v24 main_v20 main_v25 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v18 main_v25 main_v26 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v19 main_v23 main_v27 (addf : (⟨S8x1x256x256, .f32⟩ : BufTy).Contents (Elt F) → (⟨S8x1x256x256, .f32⟩ : BufTy).Contents (Elt F) → (⟨S8x1x256x256, .f32⟩ : BufTy).Contents (Elt F)) ]

/-- Tap 3: offsets (0, 6). -/
abbrev tapOps3 : List (HloOp τ sig (Elt F)) :=
  [ StableHlo.nullary main_c_26 (constantI S_ 32 0#32),
    StableHlo.nullary main_c_27 (constantI S_ 32 0#32),
    StableHlo.nullary main_c_28 (constantI S_ 32 0#32),
    StableHlo.nullary main_c_29 (constantI S_ 32 6#32),
    StableHlo.unaryIndexed main_v0 ![main_c_26, main_c_27, main_c_28, main_c_29] ⟨S_, .i32⟩ main_v28 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_30 (constantI S_ 32 0#32),
    StableHlo.nullary main_c_31 (constantI S_ 32 0#32),
    StableHlo.nullary main_c_32 (constantI S_ 32 0#32),
    StableHlo.nullary main_c_33 (constantI S_ 32 6#32),
    StableHlo.unaryIndexed main_v1 ![main_c_30, main_c_31, main_c_32, main_c_33] ⟨S_, .i32⟩ main_v29 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v29 main_arg1 main_v30 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v30 main_v31 (uitofp .f32 : (⟨S8x1x256x256, .i1⟩ : BufTy).Contents (Elt F) → (⟨S8x1x256x256, .f32⟩ : BufTy).Contents (Elt F)),
    StableHlo.unary main_v31 main_v32 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v32 main_v28 main_v33 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v26 main_v33 main_v34 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v27 main_v31 main_v35 (addf : (⟨S8x1x256x256, .f32⟩ : BufTy).Contents (Elt F) → (⟨S8x1x256x256, .f32⟩ : BufTy).Contents (Elt F) → (⟨S8x1x256x256, .f32⟩ : BufTy).Contents (Elt F)) ]

/-- Tap 4: offsets (0, 8). -/
abbrev tapOps4 : List (HloOp τ sig (Elt F)) :=
  [ StableHlo.nullary main_c_34 (constantI S_ 32 0#32),
    StableHlo.nullary main_c_35 (constantI S_ 32 0#32),
    StableHlo.nullary main_c_36 (constantI S_ 32 0#32),
    StableHlo.nullary main_c_37 (constantI S_ 32 8#32),
    StableHlo.unaryIndexed main_v0 ![main_c_34, main_c_35, main_c_36, main_c_37] ⟨S_, .i32⟩ main_v36 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_38 (constantI S_ 32 0#32),
    StableHlo.nullary main_c_39 (constantI S_ 32 0#32),
    StableHlo.nullary main_c_40 (constantI S_ 32 0#32),
    StableHlo.nullary main_c_41 (constantI S_ 32 8#32),
    StableHlo.unaryIndexed main_v1 ![main_c_38, main_c_39, main_c_40, main_c_41] ⟨S_, .i32⟩ main_v37 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v37 main_arg1 main_v38 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v38 main_v39 (uitofp .f32 : (⟨S8x1x256x256, .i1⟩ : BufTy).Contents (Elt F) → (⟨S8x1x256x256, .f32⟩ : BufTy).Contents (Elt F)),
    StableHlo.unary main_v39 main_v40 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v40 main_v36 main_v41 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v34 main_v41 main_v42 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v35 main_v39 main_v43 (addf : (⟨S8x1x256x256, .f32⟩ : BufTy).Contents (Elt F) → (⟨S8x1x256x256, .f32⟩ : BufTy).Contents (Elt F) → (⟨S8x1x256x256, .f32⟩ : BufTy).Contents (Elt F)) ]

/-- Tap 5: offsets (2, 0). -/
abbrev tapOps5 : List (HloOp τ sig (Elt F)) :=
  [ StableHlo.nullary main_c_42 (constantI S_ 32 0#32),
    StableHlo.nullary main_c_43 (constantI S_ 32 0#32),
    StableHlo.nullary main_c_44 (constantI S_ 32 2#32),
    StableHlo.nullary main_c_45 (constantI S_ 32 0#32),
    StableHlo.unaryIndexed main_v0 ![main_c_42, main_c_43, main_c_44, main_c_45] ⟨S_, .i32⟩ main_v44 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_46 (constantI S_ 32 0#32),
    StableHlo.nullary main_c_47 (constantI S_ 32 0#32),
    StableHlo.nullary main_c_48 (constantI S_ 32 2#32),
    StableHlo.nullary main_c_49 (constantI S_ 32 0#32),
    StableHlo.unaryIndexed main_v1 ![main_c_46, main_c_47, main_c_48, main_c_49] ⟨S_, .i32⟩ main_v45 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v45 main_arg1 main_v46 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v46 main_v47 (uitofp .f32 : (⟨S8x1x256x256, .i1⟩ : BufTy).Contents (Elt F) → (⟨S8x1x256x256, .f32⟩ : BufTy).Contents (Elt F)),
    StableHlo.unary main_v47 main_v48 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v48 main_v44 main_v49 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v42 main_v49 main_v50 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v43 main_v47 main_v51 (addf : (⟨S8x1x256x256, .f32⟩ : BufTy).Contents (Elt F) → (⟨S8x1x256x256, .f32⟩ : BufTy).Contents (Elt F) → (⟨S8x1x256x256, .f32⟩ : BufTy).Contents (Elt F)) ]

/-- Tap 6: offsets (2, 2). -/
abbrev tapOps6 : List (HloOp τ sig (Elt F)) :=
  [ StableHlo.nullary main_c_50 (constantI S_ 32 0#32),
    StableHlo.nullary main_c_51 (constantI S_ 32 0#32),
    StableHlo.nullary main_c_52 (constantI S_ 32 2#32),
    StableHlo.nullary main_c_53 (constantI S_ 32 2#32),
    StableHlo.unaryIndexed main_v0 ![main_c_50, main_c_51, main_c_52, main_c_53] ⟨S_, .i32⟩ main_v52 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_54 (constantI S_ 32 0#32),
    StableHlo.nullary main_c_55 (constantI S_ 32 0#32),
    StableHlo.nullary main_c_56 (constantI S_ 32 2#32),
    StableHlo.nullary main_c_57 (constantI S_ 32 2#32),
    StableHlo.unaryIndexed main_v1 ![main_c_54, main_c_55, main_c_56, main_c_57] ⟨S_, .i32⟩ main_v53 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v53 main_arg1 main_v54 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v54 main_v55 (uitofp .f32 : (⟨S8x1x256x256, .i1⟩ : BufTy).Contents (Elt F) → (⟨S8x1x256x256, .f32⟩ : BufTy).Contents (Elt F)),
    StableHlo.unary main_v55 main_v56 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v56 main_v52 main_v57 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v50 main_v57 main_v58 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v51 main_v55 main_v59 (addf : (⟨S8x1x256x256, .f32⟩ : BufTy).Contents (Elt F) → (⟨S8x1x256x256, .f32⟩ : BufTy).Contents (Elt F) → (⟨S8x1x256x256, .f32⟩ : BufTy).Contents (Elt F)) ]

/-- Tap 7: offsets (2, 4). -/
abbrev tapOps7 : List (HloOp τ sig (Elt F)) :=
  [ StableHlo.nullary main_c_58 (constantI S_ 32 0#32),
    StableHlo.nullary main_c_59 (constantI S_ 32 0#32),
    StableHlo.nullary main_c_60 (constantI S_ 32 2#32),
    StableHlo.nullary main_c_61 (constantI S_ 32 4#32),
    StableHlo.unaryIndexed main_v0 ![main_c_58, main_c_59, main_c_60, main_c_61] ⟨S_, .i32⟩ main_v60 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_62 (constantI S_ 32 0#32),
    StableHlo.nullary main_c_63 (constantI S_ 32 0#32),
    StableHlo.nullary main_c_64 (constantI S_ 32 2#32),
    StableHlo.nullary main_c_65 (constantI S_ 32 4#32),
    StableHlo.unaryIndexed main_v1 ![main_c_62, main_c_63, main_c_64, main_c_65] ⟨S_, .i32⟩ main_v61 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v61 main_arg1 main_v62 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v62 main_v63 (uitofp .f32 : (⟨S8x1x256x256, .i1⟩ : BufTy).Contents (Elt F) → (⟨S8x1x256x256, .f32⟩ : BufTy).Contents (Elt F)),
    StableHlo.unary main_v63 main_v64 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v64 main_v60 main_v65 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v58 main_v65 main_v66 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v59 main_v63 main_v67 (addf : (⟨S8x1x256x256, .f32⟩ : BufTy).Contents (Elt F) → (⟨S8x1x256x256, .f32⟩ : BufTy).Contents (Elt F) → (⟨S8x1x256x256, .f32⟩ : BufTy).Contents (Elt F)) ]

/-- Tap 8: offsets (2, 6). -/
abbrev tapOps8 : List (HloOp τ sig (Elt F)) :=
  [ StableHlo.nullary main_c_66 (constantI S_ 32 0#32),
    StableHlo.nullary main_c_67 (constantI S_ 32 0#32),
    StableHlo.nullary main_c_68 (constantI S_ 32 2#32),
    StableHlo.nullary main_c_69 (constantI S_ 32 6#32),
    StableHlo.unaryIndexed main_v0 ![main_c_66, main_c_67, main_c_68, main_c_69] ⟨S_, .i32⟩ main_v68 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_70 (constantI S_ 32 0#32),
    StableHlo.nullary main_c_71 (constantI S_ 32 0#32),
    StableHlo.nullary main_c_72 (constantI S_ 32 2#32),
    StableHlo.nullary main_c_73 (constantI S_ 32 6#32),
    StableHlo.unaryIndexed main_v1 ![main_c_70, main_c_71, main_c_72, main_c_73] ⟨S_, .i32⟩ main_v69 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v69 main_arg1 main_v70 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v70 main_v71 (uitofp .f32 : (⟨S8x1x256x256, .i1⟩ : BufTy).Contents (Elt F) → (⟨S8x1x256x256, .f32⟩ : BufTy).Contents (Elt F)),
    StableHlo.unary main_v71 main_v72 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v72 main_v68 main_v73 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v66 main_v73 main_v74 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v67 main_v71 main_v75 (addf : (⟨S8x1x256x256, .f32⟩ : BufTy).Contents (Elt F) → (⟨S8x1x256x256, .f32⟩ : BufTy).Contents (Elt F) → (⟨S8x1x256x256, .f32⟩ : BufTy).Contents (Elt F)) ]

/-- Tap 9: offsets (2, 8). -/
abbrev tapOps9 : List (HloOp τ sig (Elt F)) :=
  [ StableHlo.nullary main_c_74 (constantI S_ 32 0#32),
    StableHlo.nullary main_c_75 (constantI S_ 32 0#32),
    StableHlo.nullary main_c_76 (constantI S_ 32 2#32),
    StableHlo.nullary main_c_77 (constantI S_ 32 8#32),
    StableHlo.unaryIndexed main_v0 ![main_c_74, main_c_75, main_c_76, main_c_77] ⟨S_, .i32⟩ main_v76 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_78 (constantI S_ 32 0#32),
    StableHlo.nullary main_c_79 (constantI S_ 32 0#32),
    StableHlo.nullary main_c_80 (constantI S_ 32 2#32),
    StableHlo.nullary main_c_81 (constantI S_ 32 8#32),
    StableHlo.unaryIndexed main_v1 ![main_c_78, main_c_79, main_c_80, main_c_81] ⟨S_, .i32⟩ main_v77 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v77 main_arg1 main_v78 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v78 main_v79 (uitofp .f32 : (⟨S8x1x256x256, .i1⟩ : BufTy).Contents (Elt F) → (⟨S8x1x256x256, .f32⟩ : BufTy).Contents (Elt F)),
    StableHlo.unary main_v79 main_v80 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v80 main_v76 main_v81 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v74 main_v81 main_v82 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v75 main_v79 main_v83 (addf : (⟨S8x1x256x256, .f32⟩ : BufTy).Contents (Elt F) → (⟨S8x1x256x256, .f32⟩ : BufTy).Contents (Elt F) → (⟨S8x1x256x256, .f32⟩ : BufTy).Contents (Elt F)) ]

/-- Tap 10: offsets (4, 0). -/
abbrev tapOps10 : List (HloOp τ sig (Elt F)) :=
  [ StableHlo.nullary main_c_82 (constantI S_ 32 0#32),
    StableHlo.nullary main_c_83 (constantI S_ 32 0#32),
    StableHlo.nullary main_c_84 (constantI S_ 32 4#32),
    StableHlo.nullary main_c_85 (constantI S_ 32 0#32),
    StableHlo.unaryIndexed main_v0 ![main_c_82, main_c_83, main_c_84, main_c_85] ⟨S_, .i32⟩ main_v84 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_86 (constantI S_ 32 0#32),
    StableHlo.nullary main_c_87 (constantI S_ 32 0#32),
    StableHlo.nullary main_c_88 (constantI S_ 32 4#32),
    StableHlo.nullary main_c_89 (constantI S_ 32 0#32),
    StableHlo.unaryIndexed main_v1 ![main_c_86, main_c_87, main_c_88, main_c_89] ⟨S_, .i32⟩ main_v85 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v85 main_arg1 main_v86 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v86 main_v87 (uitofp .f32 : (⟨S8x1x256x256, .i1⟩ : BufTy).Contents (Elt F) → (⟨S8x1x256x256, .f32⟩ : BufTy).Contents (Elt F)),
    StableHlo.unary main_v87 main_v88 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v88 main_v84 main_v89 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v82 main_v89 main_v90 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v83 main_v87 main_v91 (addf : (⟨S8x1x256x256, .f32⟩ : BufTy).Contents (Elt F) → (⟨S8x1x256x256, .f32⟩ : BufTy).Contents (Elt F) → (⟨S8x1x256x256, .f32⟩ : BufTy).Contents (Elt F)) ]

/-- Tap 11: offsets (4, 2). -/
abbrev tapOps11 : List (HloOp τ sig (Elt F)) :=
  [ StableHlo.nullary main_c_90 (constantI S_ 32 0#32),
    StableHlo.nullary main_c_91 (constantI S_ 32 0#32),
    StableHlo.nullary main_c_92 (constantI S_ 32 4#32),
    StableHlo.nullary main_c_93 (constantI S_ 32 2#32),
    StableHlo.unaryIndexed main_v0 ![main_c_90, main_c_91, main_c_92, main_c_93] ⟨S_, .i32⟩ main_v92 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_94 (constantI S_ 32 0#32),
    StableHlo.nullary main_c_95 (constantI S_ 32 0#32),
    StableHlo.nullary main_c_96 (constantI S_ 32 4#32),
    StableHlo.nullary main_c_97 (constantI S_ 32 2#32),
    StableHlo.unaryIndexed main_v1 ![main_c_94, main_c_95, main_c_96, main_c_97] ⟨S_, .i32⟩ main_v93 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v93 main_arg1 main_v94 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v94 main_v95 (uitofp .f32 : (⟨S8x1x256x256, .i1⟩ : BufTy).Contents (Elt F) → (⟨S8x1x256x256, .f32⟩ : BufTy).Contents (Elt F)),
    StableHlo.unary main_v95 main_v96 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v96 main_v92 main_v97 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v90 main_v97 main_v98 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v91 main_v95 main_v99 (addf : (⟨S8x1x256x256, .f32⟩ : BufTy).Contents (Elt F) → (⟨S8x1x256x256, .f32⟩ : BufTy).Contents (Elt F) → (⟨S8x1x256x256, .f32⟩ : BufTy).Contents (Elt F)) ]

/-- Tap 12: offsets (4, 4). -/
abbrev tapOps12 : List (HloOp τ sig (Elt F)) :=
  [ StableHlo.nullary main_c_98 (constantI S_ 32 0#32),
    StableHlo.nullary main_c_99 (constantI S_ 32 0#32),
    StableHlo.nullary main_c_100 (constantI S_ 32 4#32),
    StableHlo.nullary main_c_101 (constantI S_ 32 4#32),
    StableHlo.unaryIndexed main_v0 ![main_c_98, main_c_99, main_c_100, main_c_101] ⟨S_, .i32⟩ main_v100 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_102 (constantI S_ 32 0#32),
    StableHlo.nullary main_c_103 (constantI S_ 32 0#32),
    StableHlo.nullary main_c_104 (constantI S_ 32 4#32),
    StableHlo.nullary main_c_105 (constantI S_ 32 4#32),
    StableHlo.unaryIndexed main_v1 ![main_c_102, main_c_103, main_c_104, main_c_105] ⟨S_, .i32⟩ main_v101 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v101 main_arg1 main_v102 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v102 main_v103 (uitofp .f32 : (⟨S8x1x256x256, .i1⟩ : BufTy).Contents (Elt F) → (⟨S8x1x256x256, .f32⟩ : BufTy).Contents (Elt F)),
    StableHlo.unary main_v103 main_v104 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v104 main_v100 main_v105 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v98 main_v105 main_v106 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v99 main_v103 main_v107 (addf : (⟨S8x1x256x256, .f32⟩ : BufTy).Contents (Elt F) → (⟨S8x1x256x256, .f32⟩ : BufTy).Contents (Elt F) → (⟨S8x1x256x256, .f32⟩ : BufTy).Contents (Elt F)) ]

/-- Tap 13: offsets (4, 6). -/
abbrev tapOps13 : List (HloOp τ sig (Elt F)) :=
  [ StableHlo.nullary main_c_106 (constantI S_ 32 0#32),
    StableHlo.nullary main_c_107 (constantI S_ 32 0#32),
    StableHlo.nullary main_c_108 (constantI S_ 32 4#32),
    StableHlo.nullary main_c_109 (constantI S_ 32 6#32),
    StableHlo.unaryIndexed main_v0 ![main_c_106, main_c_107, main_c_108, main_c_109] ⟨S_, .i32⟩ main_v108 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_110 (constantI S_ 32 0#32),
    StableHlo.nullary main_c_111 (constantI S_ 32 0#32),
    StableHlo.nullary main_c_112 (constantI S_ 32 4#32),
    StableHlo.nullary main_c_113 (constantI S_ 32 6#32),
    StableHlo.unaryIndexed main_v1 ![main_c_110, main_c_111, main_c_112, main_c_113] ⟨S_, .i32⟩ main_v109 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v109 main_arg1 main_v110 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v110 main_v111 (uitofp .f32 : (⟨S8x1x256x256, .i1⟩ : BufTy).Contents (Elt F) → (⟨S8x1x256x256, .f32⟩ : BufTy).Contents (Elt F)),
    StableHlo.unary main_v111 main_v112 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v112 main_v108 main_v113 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v106 main_v113 main_v114 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v107 main_v111 main_v115 (addf : (⟨S8x1x256x256, .f32⟩ : BufTy).Contents (Elt F) → (⟨S8x1x256x256, .f32⟩ : BufTy).Contents (Elt F) → (⟨S8x1x256x256, .f32⟩ : BufTy).Contents (Elt F)) ]

/-- Tap 14: offsets (4, 8). -/
abbrev tapOps14 : List (HloOp τ sig (Elt F)) :=
  [ StableHlo.nullary main_c_114 (constantI S_ 32 0#32),
    StableHlo.nullary main_c_115 (constantI S_ 32 0#32),
    StableHlo.nullary main_c_116 (constantI S_ 32 4#32),
    StableHlo.nullary main_c_117 (constantI S_ 32 8#32),
    StableHlo.unaryIndexed main_v0 ![main_c_114, main_c_115, main_c_116, main_c_117] ⟨S_, .i32⟩ main_v116 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_118 (constantI S_ 32 0#32),
    StableHlo.nullary main_c_119 (constantI S_ 32 0#32),
    StableHlo.nullary main_c_120 (constantI S_ 32 4#32),
    StableHlo.nullary main_c_121 (constantI S_ 32 8#32),
    StableHlo.unaryIndexed main_v1 ![main_c_118, main_c_119, main_c_120, main_c_121] ⟨S_, .i32⟩ main_v117 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v117 main_arg1 main_v118 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v118 main_v119 (uitofp .f32 : (⟨S8x1x256x256, .i1⟩ : BufTy).Contents (Elt F) → (⟨S8x1x256x256, .f32⟩ : BufTy).Contents (Elt F)),
    StableHlo.unary main_v119 main_v120 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v120 main_v116 main_v121 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v114 main_v121 main_v122 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v115 main_v119 main_v123 (addf : (⟨S8x1x256x256, .f32⟩ : BufTy).Contents (Elt F) → (⟨S8x1x256x256, .f32⟩ : BufTy).Contents (Elt F) → (⟨S8x1x256x256, .f32⟩ : BufTy).Contents (Elt F)) ]

/-- Tap 15: offsets (6, 0). -/
abbrev tapOps15 : List (HloOp τ sig (Elt F)) :=
  [ StableHlo.nullary main_c_122 (constantI S_ 32 0#32),
    StableHlo.nullary main_c_123 (constantI S_ 32 0#32),
    StableHlo.nullary main_c_124 (constantI S_ 32 6#32),
    StableHlo.nullary main_c_125 (constantI S_ 32 0#32),
    StableHlo.unaryIndexed main_v0 ![main_c_122, main_c_123, main_c_124, main_c_125] ⟨S_, .i32⟩ main_v124 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_126 (constantI S_ 32 0#32),
    StableHlo.nullary main_c_127 (constantI S_ 32 0#32),
    StableHlo.nullary main_c_128 (constantI S_ 32 6#32),
    StableHlo.nullary main_c_129 (constantI S_ 32 0#32),
    StableHlo.unaryIndexed main_v1 ![main_c_126, main_c_127, main_c_128, main_c_129] ⟨S_, .i32⟩ main_v125 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v125 main_arg1 main_v126 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v126 main_v127 (uitofp .f32 : (⟨S8x1x256x256, .i1⟩ : BufTy).Contents (Elt F) → (⟨S8x1x256x256, .f32⟩ : BufTy).Contents (Elt F)),
    StableHlo.unary main_v127 main_v128 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v128 main_v124 main_v129 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v122 main_v129 main_v130 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v123 main_v127 main_v131 (addf : (⟨S8x1x256x256, .f32⟩ : BufTy).Contents (Elt F) → (⟨S8x1x256x256, .f32⟩ : BufTy).Contents (Elt F) → (⟨S8x1x256x256, .f32⟩ : BufTy).Contents (Elt F)) ]

/-- Tap 16: offsets (6, 2). -/
abbrev tapOps16 : List (HloOp τ sig (Elt F)) :=
  [ StableHlo.nullary main_c_130 (constantI S_ 32 0#32),
    StableHlo.nullary main_c_131 (constantI S_ 32 0#32),
    StableHlo.nullary main_c_132 (constantI S_ 32 6#32),
    StableHlo.nullary main_c_133 (constantI S_ 32 2#32),
    StableHlo.unaryIndexed main_v0 ![main_c_130, main_c_131, main_c_132, main_c_133] ⟨S_, .i32⟩ main_v132 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_134 (constantI S_ 32 0#32),
    StableHlo.nullary main_c_135 (constantI S_ 32 0#32),
    StableHlo.nullary main_c_136 (constantI S_ 32 6#32),
    StableHlo.nullary main_c_137 (constantI S_ 32 2#32),
    StableHlo.unaryIndexed main_v1 ![main_c_134, main_c_135, main_c_136, main_c_137] ⟨S_, .i32⟩ main_v133 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v133 main_arg1 main_v134 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v134 main_v135 (uitofp .f32 : (⟨S8x1x256x256, .i1⟩ : BufTy).Contents (Elt F) → (⟨S8x1x256x256, .f32⟩ : BufTy).Contents (Elt F)),
    StableHlo.unary main_v135 main_v136 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v136 main_v132 main_v137 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v130 main_v137 main_v138 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v131 main_v135 main_v139 (addf : (⟨S8x1x256x256, .f32⟩ : BufTy).Contents (Elt F) → (⟨S8x1x256x256, .f32⟩ : BufTy).Contents (Elt F) → (⟨S8x1x256x256, .f32⟩ : BufTy).Contents (Elt F)) ]

/-- Tap 17: offsets (6, 4). -/
abbrev tapOps17 : List (HloOp τ sig (Elt F)) :=
  [ StableHlo.nullary main_c_138 (constantI S_ 32 0#32),
    StableHlo.nullary main_c_139 (constantI S_ 32 0#32),
    StableHlo.nullary main_c_140 (constantI S_ 32 6#32),
    StableHlo.nullary main_c_141 (constantI S_ 32 4#32),
    StableHlo.unaryIndexed main_v0 ![main_c_138, main_c_139, main_c_140, main_c_141] ⟨S_, .i32⟩ main_v140 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_142 (constantI S_ 32 0#32),
    StableHlo.nullary main_c_143 (constantI S_ 32 0#32),
    StableHlo.nullary main_c_144 (constantI S_ 32 6#32),
    StableHlo.nullary main_c_145 (constantI S_ 32 4#32),
    StableHlo.unaryIndexed main_v1 ![main_c_142, main_c_143, main_c_144, main_c_145] ⟨S_, .i32⟩ main_v141 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v141 main_arg1 main_v142 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v142 main_v143 (uitofp .f32 : (⟨S8x1x256x256, .i1⟩ : BufTy).Contents (Elt F) → (⟨S8x1x256x256, .f32⟩ : BufTy).Contents (Elt F)),
    StableHlo.unary main_v143 main_v144 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v144 main_v140 main_v145 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v138 main_v145 main_v146 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v139 main_v143 main_v147 (addf : (⟨S8x1x256x256, .f32⟩ : BufTy).Contents (Elt F) → (⟨S8x1x256x256, .f32⟩ : BufTy).Contents (Elt F) → (⟨S8x1x256x256, .f32⟩ : BufTy).Contents (Elt F)) ]

/-- Tap 18: offsets (6, 6). -/
abbrev tapOps18 : List (HloOp τ sig (Elt F)) :=
  [ StableHlo.nullary main_c_146 (constantI S_ 32 0#32),
    StableHlo.nullary main_c_147 (constantI S_ 32 0#32),
    StableHlo.nullary main_c_148 (constantI S_ 32 6#32),
    StableHlo.nullary main_c_149 (constantI S_ 32 6#32),
    StableHlo.unaryIndexed main_v0 ![main_c_146, main_c_147, main_c_148, main_c_149] ⟨S_, .i32⟩ main_v148 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_150 (constantI S_ 32 0#32),
    StableHlo.nullary main_c_151 (constantI S_ 32 0#32),
    StableHlo.nullary main_c_152 (constantI S_ 32 6#32),
    StableHlo.nullary main_c_153 (constantI S_ 32 6#32),
    StableHlo.unaryIndexed main_v1 ![main_c_150, main_c_151, main_c_152, main_c_153] ⟨S_, .i32⟩ main_v149 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v149 main_arg1 main_v150 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v150 main_v151 (uitofp .f32 : (⟨S8x1x256x256, .i1⟩ : BufTy).Contents (Elt F) → (⟨S8x1x256x256, .f32⟩ : BufTy).Contents (Elt F)),
    StableHlo.unary main_v151 main_v152 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v152 main_v148 main_v153 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v146 main_v153 main_v154 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v147 main_v151 main_v155 (addf : (⟨S8x1x256x256, .f32⟩ : BufTy).Contents (Elt F) → (⟨S8x1x256x256, .f32⟩ : BufTy).Contents (Elt F) → (⟨S8x1x256x256, .f32⟩ : BufTy).Contents (Elt F)) ]

/-- Tap 19: offsets (6, 8). -/
abbrev tapOps19 : List (HloOp τ sig (Elt F)) :=
  [ StableHlo.nullary main_c_154 (constantI S_ 32 0#32),
    StableHlo.nullary main_c_155 (constantI S_ 32 0#32),
    StableHlo.nullary main_c_156 (constantI S_ 32 6#32),
    StableHlo.nullary main_c_157 (constantI S_ 32 8#32),
    StableHlo.unaryIndexed main_v0 ![main_c_154, main_c_155, main_c_156, main_c_157] ⟨S_, .i32⟩ main_v156 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_158 (constantI S_ 32 0#32),
    StableHlo.nullary main_c_159 (constantI S_ 32 0#32),
    StableHlo.nullary main_c_160 (constantI S_ 32 6#32),
    StableHlo.nullary main_c_161 (constantI S_ 32 8#32),
    StableHlo.unaryIndexed main_v1 ![main_c_158, main_c_159, main_c_160, main_c_161] ⟨S_, .i32⟩ main_v157 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v157 main_arg1 main_v158 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v158 main_v159 (uitofp .f32 : (⟨S8x1x256x256, .i1⟩ : BufTy).Contents (Elt F) → (⟨S8x1x256x256, .f32⟩ : BufTy).Contents (Elt F)),
    StableHlo.unary main_v159 main_v160 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v160 main_v156 main_v161 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v154 main_v161 main_v162 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v155 main_v159 main_v163 (addf : (⟨S8x1x256x256, .f32⟩ : BufTy).Contents (Elt F) → (⟨S8x1x256x256, .f32⟩ : BufTy).Contents (Elt F) → (⟨S8x1x256x256, .f32⟩ : BufTy).Contents (Elt F)) ]

/-- Tap 20: offsets (8, 0). -/
abbrev tapOps20 : List (HloOp τ sig (Elt F)) :=
  [ StableHlo.nullary main_c_162 (constantI S_ 32 0#32),
    StableHlo.nullary main_c_163 (constantI S_ 32 0#32),
    StableHlo.nullary main_c_164 (constantI S_ 32 8#32),
    StableHlo.nullary main_c_165 (constantI S_ 32 0#32),
    StableHlo.unaryIndexed main_v0 ![main_c_162, main_c_163, main_c_164, main_c_165] ⟨S_, .i32⟩ main_v164 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_166 (constantI S_ 32 0#32),
    StableHlo.nullary main_c_167 (constantI S_ 32 0#32),
    StableHlo.nullary main_c_168 (constantI S_ 32 8#32),
    StableHlo.nullary main_c_169 (constantI S_ 32 0#32),
    StableHlo.unaryIndexed main_v1 ![main_c_166, main_c_167, main_c_168, main_c_169] ⟨S_, .i32⟩ main_v165 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v165 main_arg1 main_v166 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v166 main_v167 (uitofp .f32 : (⟨S8x1x256x256, .i1⟩ : BufTy).Contents (Elt F) → (⟨S8x1x256x256, .f32⟩ : BufTy).Contents (Elt F)),
    StableHlo.unary main_v167 main_v168 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v168 main_v164 main_v169 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v162 main_v169 main_v170 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v163 main_v167 main_v171 (addf : (⟨S8x1x256x256, .f32⟩ : BufTy).Contents (Elt F) → (⟨S8x1x256x256, .f32⟩ : BufTy).Contents (Elt F) → (⟨S8x1x256x256, .f32⟩ : BufTy).Contents (Elt F)) ]

/-- Tap 21: offsets (8, 2). -/
abbrev tapOps21 : List (HloOp τ sig (Elt F)) :=
  [ StableHlo.nullary main_c_170 (constantI S_ 32 0#32),
    StableHlo.nullary main_c_171 (constantI S_ 32 0#32),
    StableHlo.nullary main_c_172 (constantI S_ 32 8#32),
    StableHlo.nullary main_c_173 (constantI S_ 32 2#32),
    StableHlo.unaryIndexed main_v0 ![main_c_170, main_c_171, main_c_172, main_c_173] ⟨S_, .i32⟩ main_v172 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_174 (constantI S_ 32 0#32),
    StableHlo.nullary main_c_175 (constantI S_ 32 0#32),
    StableHlo.nullary main_c_176 (constantI S_ 32 8#32),
    StableHlo.nullary main_c_177 (constantI S_ 32 2#32),
    StableHlo.unaryIndexed main_v1 ![main_c_174, main_c_175, main_c_176, main_c_177] ⟨S_, .i32⟩ main_v173 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v173 main_arg1 main_v174 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v174 main_v175 (uitofp .f32 : (⟨S8x1x256x256, .i1⟩ : BufTy).Contents (Elt F) → (⟨S8x1x256x256, .f32⟩ : BufTy).Contents (Elt F)),
    StableHlo.unary main_v175 main_v176 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v176 main_v172 main_v177 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v170 main_v177 main_v178 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v171 main_v175 main_v179 (addf : (⟨S8x1x256x256, .f32⟩ : BufTy).Contents (Elt F) → (⟨S8x1x256x256, .f32⟩ : BufTy).Contents (Elt F) → (⟨S8x1x256x256, .f32⟩ : BufTy).Contents (Elt F)) ]

/-- Tap 22: offsets (8, 4). -/
abbrev tapOps22 : List (HloOp τ sig (Elt F)) :=
  [ StableHlo.nullary main_c_178 (constantI S_ 32 0#32),
    StableHlo.nullary main_c_179 (constantI S_ 32 0#32),
    StableHlo.nullary main_c_180 (constantI S_ 32 8#32),
    StableHlo.nullary main_c_181 (constantI S_ 32 4#32),
    StableHlo.unaryIndexed main_v0 ![main_c_178, main_c_179, main_c_180, main_c_181] ⟨S_, .i32⟩ main_v180 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_182 (constantI S_ 32 0#32),
    StableHlo.nullary main_c_183 (constantI S_ 32 0#32),
    StableHlo.nullary main_c_184 (constantI S_ 32 8#32),
    StableHlo.nullary main_c_185 (constantI S_ 32 4#32),
    StableHlo.unaryIndexed main_v1 ![main_c_182, main_c_183, main_c_184, main_c_185] ⟨S_, .i32⟩ main_v181 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v181 main_arg1 main_v182 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v182 main_v183 (uitofp .f32 : (⟨S8x1x256x256, .i1⟩ : BufTy).Contents (Elt F) → (⟨S8x1x256x256, .f32⟩ : BufTy).Contents (Elt F)),
    StableHlo.unary main_v183 main_v184 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v184 main_v180 main_v185 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v178 main_v185 main_v186 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v179 main_v183 main_v187 (addf : (⟨S8x1x256x256, .f32⟩ : BufTy).Contents (Elt F) → (⟨S8x1x256x256, .f32⟩ : BufTy).Contents (Elt F) → (⟨S8x1x256x256, .f32⟩ : BufTy).Contents (Elt F)) ]

/-- Tap 23: offsets (8, 6). -/
abbrev tapOps23 : List (HloOp τ sig (Elt F)) :=
  [ StableHlo.nullary main_c_186 (constantI S_ 32 0#32),
    StableHlo.nullary main_c_187 (constantI S_ 32 0#32),
    StableHlo.nullary main_c_188 (constantI S_ 32 8#32),
    StableHlo.nullary main_c_189 (constantI S_ 32 6#32),
    StableHlo.unaryIndexed main_v0 ![main_c_186, main_c_187, main_c_188, main_c_189] ⟨S_, .i32⟩ main_v188 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_190 (constantI S_ 32 0#32),
    StableHlo.nullary main_c_191 (constantI S_ 32 0#32),
    StableHlo.nullary main_c_192 (constantI S_ 32 8#32),
    StableHlo.nullary main_c_193 (constantI S_ 32 6#32),
    StableHlo.unaryIndexed main_v1 ![main_c_190, main_c_191, main_c_192, main_c_193] ⟨S_, .i32⟩ main_v189 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v189 main_arg1 main_v190 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v190 main_v191 (uitofp .f32 : (⟨S8x1x256x256, .i1⟩ : BufTy).Contents (Elt F) → (⟨S8x1x256x256, .f32⟩ : BufTy).Contents (Elt F)),
    StableHlo.unary main_v191 main_v192 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v192 main_v188 main_v193 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v186 main_v193 main_v194 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v187 main_v191 main_v195 (addf : (⟨S8x1x256x256, .f32⟩ : BufTy).Contents (Elt F) → (⟨S8x1x256x256, .f32⟩ : BufTy).Contents (Elt F) → (⟨S8x1x256x256, .f32⟩ : BufTy).Contents (Elt F)) ]

/-- Tap 24: offsets (8, 8). -/
abbrev tapOps24 : List (HloOp τ sig (Elt F)) :=
  [ StableHlo.nullary main_c_194 (constantI S_ 32 0#32),
    StableHlo.nullary main_c_195 (constantI S_ 32 0#32),
    StableHlo.nullary main_c_196 (constantI S_ 32 8#32),
    StableHlo.nullary main_c_197 (constantI S_ 32 8#32),
    StableHlo.unaryIndexed main_v0 ![main_c_194, main_c_195, main_c_196, main_c_197] ⟨S_, .i32⟩ main_v196 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_198 (constantI S_ 32 0#32),
    StableHlo.nullary main_c_199 (constantI S_ 32 0#32),
    StableHlo.nullary main_c_200 (constantI S_ 32 8#32),
    StableHlo.nullary main_c_201 (constantI S_ 32 8#32),
    StableHlo.unaryIndexed main_v1 ![main_c_198, main_c_199, main_c_200, main_c_201] ⟨S_, .i32⟩ main_v197 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v197 main_arg1 main_v198 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v198 main_v199 (uitofp .f32 : (⟨S8x1x256x256, .i1⟩ : BufTy).Contents (Elt F) → (⟨S8x1x256x256, .f32⟩ : BufTy).Contents (Elt F)),
    StableHlo.unary main_v199 main_v200 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v200 main_v196 main_v201 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v194 main_v201 main_v202 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v195 main_v199 main_v203 (addf : (⟨S8x1x256x256, .f32⟩ : BufTy).Contents (Elt F) → (⟨S8x1x256x256, .f32⟩ : BufTy).Contents (Elt F) → (⟨S8x1x256x256, .f32⟩ : BufTy).Contents (Elt F)) ]

/-- The divisor (the count, or one where it is zero) and the quotient. -/
abbrev tailOps : List (HloOp τ sig (Elt F)) :=
  [ StableHlo.nullary main_cst_202 (constant S_ .f32 0x00000000#32),
    StableHlo.unary main_cst_202 main_v204 (broadcastInDim S8x1x256x256 ![] bcast_S_S8x1x256x256 : (⟨S_, .f32⟩ : BufTy).Contents (Elt F) → (⟨S8x1x256x256, .f32⟩ : BufTy).Contents (Elt F)),
    StableHlo.binary main_v203 main_v204 main_v205 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.nullary main_cst_203 (constant S_ .f32 0x3F800000#32),
    StableHlo.unary main_cst_203 main_v206 (broadcastInDim S8x1x256x256 ![] bcast_S_S8x1x256x256 : (⟨S_, .f32⟩ : BufTy).Contents (Elt F) → (⟨S8x1x256x256, .f32⟩ : BufTy).Contents (Elt F)),
    StableHlo.TRef.ternary (.of main_v205 : StableHlo.TRef sig ⟨S8x1x256x256, .i1⟩) (.of main_v206 : StableHlo.TRef sig ⟨S8x1x256x256, .f32⟩) (.of main_v203 : StableHlo.TRef sig ⟨S8x1x256x256, .f32⟩) main_call2.v0 select,
    StableHlo.unary main_v207 main_v208 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v202 main_v208 main_v209 (Host.divf : (⟨S8x64x256x256, .f32⟩ : BufTy).Contents (Elt F) → (⟨S8x64x256x256, .f32⟩ : BufTy).Contents (Elt F) → (⟨S8x64x256x256, .f32⟩ : BufTy).Contents (Elt F)) ]

/-- All the operations: the pads and zeros, the 25 taps in row-major order, the division. -/
abbrev allOps : List (HloOp τ sig (Elt F)) :=
  headOps ++ (tapOps0 ++ (tapOps1 ++ (tapOps2 ++ (tapOps3 ++ (tapOps4 ++ (tapOps5 ++ (tapOps6 ++ (tapOps7 ++ (tapOps8 ++ (tapOps9 ++ (tapOps10 ++ (tapOps11 ++ (tapOps12 ++ (tapOps13 ++ (tapOps14 ++ (tapOps15 ++ (tapOps16 ++ (tapOps17 ++ (tapOps18 ++ (tapOps19 ++ (tapOps20 ++ (tapOps21 ++ (tapOps22 ++ (tapOps23 ++ (tapOps24 ++ tailOps)))))))))))))))))))))))))

end Cert.RefSide

end
-- ==== Proof.RefWin.lean ====
/-
  The reference program as the straight line of its operations: each of the seven stretches @main is printed in is the
  sequence of its operations (the called functions' operations in place of the calls), and the seven in order are the
  whole list.
-/
import proofs.«181392_j37838661878408_1_alg».proof.Proof.RefOps

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]
/-- The operations of @main's stretch 0. -/
abbrev win0 : List (HloOp τ sig (Elt F)) :=
  [ StableHlo.nullary main_c (constantI S_ 32 0#32),
    StableHlo.TRef.unary (.of main_arg0 : StableHlo.TRef sig ⟨S8x64x256x256, .f32⟩) main_call0.v0 (extractStridedSlice S8x64x1x256 ![0, 0, 0, 0] · slices_S8x64x256x256_S8x64x1x256_0_0_0_0),
    StableHlo.TRef.unary (.of main_arg0 : StableHlo.TRef sig ⟨S8x64x256x256, .f32⟩) main_call0.v1 (extractStridedSlice S8x64x4x256 ![0, 0, 1, 0] · slices_S8x64x256x256_S8x64x4x256_0_0_1_0),
    StableHlo.TRef.unary main_call0.v1 main_call0.call0.v0 (Host.reverse [2]),
    StableHlo.TRef.binary main_call0.call0.v0 (.of main_arg0 : StableHlo.TRef sig ⟨S8x64x256x256, .f32⟩) main_call0.v3 (fun a b => concatenate S8x64x260x256 2 [⟨S8x64x4x256, a⟩, ⟨S8x64x256x256, b⟩] concatenates_S8x64x4x256_S8x64x256x256_S8x64x260x256_d2),
    StableHlo.TRef.unary main_call0.v3 main_call0.v4 (extractStridedSlice S8x64x1x256 ![0, 0, 259, 0] · slices_S8x64x260x256_S8x64x1x256_0_0_259_0),
    StableHlo.TRef.unary main_call0.v3 main_call0.v5 (extractStridedSlice S8x64x4x256 ![0, 0, 255, 0] · slices_S8x64x260x256_S8x64x4x256_0_0_255_0),
    StableHlo.TRef.unary main_call0.v5 main_call0.call1.v0 (Host.reverse [2]),
    StableHlo.TRef.binary main_call0.v3 main_call0.call1.v0 main_call0.v7 (fun a b => concatenate S8x64x264x256 2 [⟨S8x64x260x256, a⟩, ⟨S8x64x4x256, b⟩] concatenates_S8x64x260x256_S8x64x4x256_S8x64x264x256_d2),
    StableHlo.TRef.unary main_call0.v7 main_call0.v8 (extractStridedSlice S8x64x264x1 ![0, 0, 0, 0] · slices_S8x64x264x256_S8x64x264x1_0_0_0_0),
    StableHlo.TRef.unary main_call0.v7 main_call0.v9 (extractStridedSlice S8x64x264x4 ![0, 0, 0, 1] · slices_S8x64x264x256_S8x64x264x4_0_0_0_1),
    StableHlo.TRef.unary main_call0.v9 main_call0.call2.v0 (Host.reverse [3]),
    StableHlo.TRef.binary main_call0.call2.v0 main_call0.v7 main_call0.v11 (fun a b => concatenate S8x64x264x260 3 [⟨S8x64x264x4, a⟩, ⟨S8x64x264x256, b⟩] concatenates_S8x64x264x4_S8x64x264x256_S8x64x264x260_d3),
    StableHlo.TRef.unary main_call0.v11 main_call0.v12 (extractStridedSlice S8x64x264x1 ![0, 0, 0, 259] · slices_S8x64x264x260_S8x64x264x1_0_0_0_259),
    StableHlo.TRef.unary main_call0.v11 main_call0.v13 (extractStridedSlice S8x64x264x4 ![0, 0, 0, 255] · slices_S8x64x264x260_S8x64x264x4_0_0_0_255),
    StableHlo.TRef.unary main_call0.v13 main_call0.call3.v0 (Host.reverse [3]),
    StableHlo.TRef.binary main_call0.v11 main_call0.call3.v0 main_call0.v15 (fun a b => concatenate S8x64x264x264 3 [⟨S8x64x264x260, a⟩, ⟨S8x64x264x4, b⟩] concatenates_S8x64x264x260_S8x64x264x4_S8x64x264x264_d3),
    StableHlo.nullary main_c_0 (constantI S_ 32 0#32),
    StableHlo.TRef.unary (.of main_arg1 : StableHlo.TRef sig ⟨S8x1x256x256, .f32⟩) main_call1.v0 (extractStridedSlice S8x1x1x256 ![0, 0, 0, 0] · slices_S8x1x256x256_S8x1x1x256_0_0_0_0),
    StableHlo.TRef.unary (.of main_arg1 : StableHlo.TRef sig ⟨S8x1x256x256, .f32⟩) main_call1.v1 (extractStridedSlice S8x1x4x256 ![0, 0, 1, 0] · slices_S8x1x256x256_S8x1x4x256_0_0_1_0),
    StableHlo.TRef.unary main_call1.v1 main_call1.call0.v0 (Host.reverse [2]),
    StableHlo.TRef.binary main_call1.call0.v0 (.of main_arg1 : StableHlo.TRef sig ⟨S8x1x256x256, .f32⟩) main_call1.v3 (fun a b => concatenate S8x1x260x256 2 [⟨S8x1x4x256, a⟩, ⟨S8x1x256x256, b⟩] concatenates_S8x1x4x256_S8x1x256x256_S8x1x260x256_d2),
    StableHlo.TRef.unary main_call1.v3 main_call1.v4 (extractStridedSlice S8x1x1x256 ![0, 0, 259, 0] · slices_S8x1x260x256_S8x1x1x256_0_0_259_0),
    StableHlo.TRef.unary main_call1.v3 main_call1.v5 (extractStridedSlice S8x1x4x256 ![0, 0, 255, 0] · slices_S8x1x260x256_S8x1x4x256_0_0_255_0),
    StableHlo.TRef.unary main_call1.v5 main_call1.call1.v0 (Host.reverse [2]),
    StableHlo.TRef.binary main_call1.v3 main_call1.call1.v0 main_call1.v7 (fun a b => concatenate S8x1x264x256 2 [⟨S8x1x260x256, a⟩, ⟨S8x1x4x256, b⟩] concatenates_S8x1x260x256_S8x1x4x256_S8x1x264x256_d2),
    StableHlo.TRef.unary main_call1.v7 main_call1.v8 (extractStridedSlice S8x1x264x1 ![0, 0, 0, 0] · slices_S8x1x264x256_S8x1x264x1_0_0_0_0),
    StableHlo.TRef.unary main_call1.v7 main_call1.v9 (extractStridedSlice S8x1x264x4 ![0, 0, 0, 1] · slices_S8x1x264x256_S8x1x264x4_0_0_0_1),
    StableHlo.TRef.unary main_call1.v9 main_call1.call2.v0 (Host.reverse [3]),
    StableHlo.TRef.binary main_call1.call2.v0 main_call1.v7 main_call1.v11 (fun a b => concatenate S8x1x264x260 3 [⟨S8x1x264x4, a⟩, ⟨S8x1x264x256, b⟩] concatenates_S8x1x264x4_S8x1x264x256_S8x1x264x260_d3),
    StableHlo.TRef.unary main_call1.v11 main_call1.v12 (extractStridedSlice S8x1x264x1 ![0, 0, 0, 259] · slices_S8x1x264x260_S8x1x264x1_0_0_0_259),
    StableHlo.TRef.unary main_call1.v11 main_call1.v13 (extractStridedSlice S8x1x264x4 ![0, 0, 0, 255] · slices_S8x1x264x260_S8x1x264x4_0_0_0_255),
    StableHlo.TRef.unary main_call1.v13 main_call1.call3.v0 (Host.reverse [3]),
    StableHlo.TRef.binary main_call1.v11 main_call1.call3.v0 main_call1.v15 (fun a b => concatenate S8x1x264x264 3 [⟨S8x1x264x260, a⟩, ⟨S8x1x264x4, b⟩] concatenates_S8x1x264x260_S8x1x264x4_S8x1x264x264_d3),
    StableHlo.nullary main_cst (constant S_ .f32 0x00000000#32),
    StableHlo.unary main_cst main_v2 (broadcastInDim S8x64x256x256 ![] bcast_S_S8x64x256x256 : (⟨S_, .f32⟩ : BufTy).Contents (Elt F) → (⟨S8x64x256x256, .f32⟩ : BufTy).Contents (Elt F)),
    StableHlo.nullary main_cst_1 (constant S_ .f32 0x00000000#32),
    StableHlo.unary main_cst_1 main_v3 (broadcastInDim S8x1x256x256 ![] bcast_S_S8x1x256x256 : (⟨S_, .f32⟩ : BufTy).Contents (Elt F) → (⟨S8x1x256x256, .f32⟩ : BufTy).Contents (Elt F)),
    StableHlo.nullary main_c_2 (constantI S_ 32 0#32),
    StableHlo.nullary main_c_3 (constantI S_ 32 0#32),
    StableHlo.nullary main_c_4 (constantI S_ 32 0#32),
    StableHlo.nullary main_c_5 (constantI S_ 32 0#32),
    StableHlo.unaryIndexed main_v0 ![main_c_2, main_c_3, main_c_4, main_c_5] ⟨S_, .i32⟩ main_v4 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_6 (constantI S_ 32 0#32),
    StableHlo.nullary main_c_7 (constantI S_ 32 0#32),
    StableHlo.nullary main_c_8 (constantI S_ 32 0#32),
    StableHlo.nullary main_c_9 (constantI S_ 32 0#32),
    StableHlo.unaryIndexed main_v1 ![main_c_6, main_c_7, main_c_8, main_c_9] ⟨S_, .i32⟩ main_v5 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v5 main_arg1 main_v6 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v6 main_v7 (uitofp .f32 : (⟨S8x1x256x256, .i1⟩ : BufTy).Contents (Elt F) → (⟨S8x1x256x256, .f32⟩ : BufTy).Contents (Elt F)),
    StableHlo.unary main_v7 main_v8 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v8 main_v4 main_v9 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v2 main_v9 main_v10 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v3 main_v7 main_v11 (addf : (⟨S8x1x256x256, .f32⟩ : BufTy).Contents (Elt F) → (⟨S8x1x256x256, .f32⟩ : BufTy).Contents (Elt F) → (⟨S8x1x256x256, .f32⟩ : BufTy).Contents (Elt F)),
    StableHlo.nullary main_c_10 (constantI S_ 32 0#32),
    StableHlo.nullary main_c_11 (constantI S_ 32 0#32),
    StableHlo.nullary main_c_12 (constantI S_ 32 0#32),
    StableHlo.nullary main_c_13 (constantI S_ 32 2#32),
    StableHlo.unaryIndexed main_v0 ![main_c_10, main_c_11, main_c_12, main_c_13] ⟨S_, .i32⟩ main_v12 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_14 (constantI S_ 32 0#32),
    StableHlo.nullary main_c_15 (constantI S_ 32 0#32),
    StableHlo.nullary main_c_16 (constantI S_ 32 0#32),
    StableHlo.nullary main_c_17 (constantI S_ 32 2#32),
    StableHlo.unaryIndexed main_v1 ![main_c_14, main_c_15, main_c_16, main_c_17] ⟨S_, .i32⟩ main_v13 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v13 main_arg1 main_v14 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v14 main_v15 (uitofp .f32 : (⟨S8x1x256x256, .i1⟩ : BufTy).Contents (Elt F) → (⟨S8x1x256x256, .f32⟩ : BufTy).Contents (Elt F)),
    StableHlo.unary main_v15 main_v16 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v16 main_v12 main_v17 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v10 main_v17 main_v18 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v11 main_v15 main_v19 (addf : (⟨S8x1x256x256, .f32⟩ : BufTy).Contents (Elt F) → (⟨S8x1x256x256, .f32⟩ : BufTy).Contents (Elt F) → (⟨S8x1x256x256, .f32⟩ : BufTy).Contents (Elt F)),
    StableHlo.nullary main_c_18 (constantI S_ 32 0#32),
    StableHlo.nullary main_c_19 (constantI S_ 32 0#32),
    StableHlo.nullary main_c_20 (constantI S_ 32 0#32),
    StableHlo.nullary main_c_21 (constantI S_ 32 4#32),
    StableHlo.unaryIndexed main_v0 ![main_c_18, main_c_19, main_c_20, main_c_21] ⟨S_, .i32⟩ main_v20 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_22 (constantI S_ 32 0#32),
    StableHlo.nullary main_c_23 (constantI S_ 32 0#32),
    StableHlo.nullary main_c_24 (constantI S_ 32 0#32),
    StableHlo.nullary main_c_25 (constantI S_ 32 4#32),
    StableHlo.unaryIndexed main_v1 ![main_c_22, main_c_23, main_c_24, main_c_25] ⟨S_, .i32⟩ main_v21 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v21 main_arg1 main_v22 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v22 main_v23 (uitofp .f32 : (⟨S8x1x256x256, .i1⟩ : BufTy).Contents (Elt F) → (⟨S8x1x256x256, .f32⟩ : BufTy).Contents (Elt F)),
    StableHlo.unary main_v23 main_v24 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v24 main_v20 main_v25 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v18 main_v25 main_v26 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v19 main_v23 main_v27 (addf : (⟨S8x1x256x256, .f32⟩ : BufTy).Contents (Elt F) → (⟨S8x1x256x256, .f32⟩ : BufTy).Contents (Elt F) → (⟨S8x1x256x256, .f32⟩ : BufTy).Contents (Elt F)),
    StableHlo.nullary main_c_26 (constantI S_ 32 0#32),
    StableHlo.nullary main_c_27 (constantI S_ 32 0#32),
    StableHlo.nullary main_c_28 (constantI S_ 32 0#32),
    StableHlo.nullary main_c_29 (constantI S_ 32 6#32) ]

/-- The operations of @main's stretch 1. -/
abbrev win1 : List (HloOp τ sig (Elt F)) :=
  [ StableHlo.unaryIndexed main_v0 ![main_c_26, main_c_27, main_c_28, main_c_29] ⟨S_, .i32⟩ main_v28 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_30 (constantI S_ 32 0#32),
    StableHlo.nullary main_c_31 (constantI S_ 32 0#32),
    StableHlo.nullary main_c_32 (constantI S_ 32 0#32),
    StableHlo.nullary main_c_33 (constantI S_ 32 6#32),
    StableHlo.unaryIndexed main_v1 ![main_c_30, main_c_31, main_c_32, main_c_33] ⟨S_, .i32⟩ main_v29 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v29 main_arg1 main_v30 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v30 main_v31 (uitofp .f32 : (⟨S8x1x256x256, .i1⟩ : BufTy).Contents (Elt F) → (⟨S8x1x256x256, .f32⟩ : BufTy).Contents (Elt F)),
    StableHlo.unary main_v31 main_v32 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v32 main_v28 main_v33 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v26 main_v33 main_v34 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v27 main_v31 main_v35 (addf : (⟨S8x1x256x256, .f32⟩ : BufTy).Contents (Elt F) → (⟨S8x1x256x256, .f32⟩ : BufTy).Contents (Elt F) → (⟨S8x1x256x256, .f32⟩ : BufTy).Contents (Elt F)),
    StableHlo.nullary main_c_34 (constantI S_ 32 0#32),
    StableHlo.nullary main_c_35 (constantI S_ 32 0#32),
    StableHlo.nullary main_c_36 (constantI S_ 32 0#32),
    StableHlo.nullary main_c_37 (constantI S_ 32 8#32),
    StableHlo.unaryIndexed main_v0 ![main_c_34, main_c_35, main_c_36, main_c_37] ⟨S_, .i32⟩ main_v36 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_38 (constantI S_ 32 0#32),
    StableHlo.nullary main_c_39 (constantI S_ 32 0#32),
    StableHlo.nullary main_c_40 (constantI S_ 32 0#32),
    StableHlo.nullary main_c_41 (constantI S_ 32 8#32),
    StableHlo.unaryIndexed main_v1 ![main_c_38, main_c_39, main_c_40, main_c_41] ⟨S_, .i32⟩ main_v37 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v37 main_arg1 main_v38 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v38 main_v39 (uitofp .f32 : (⟨S8x1x256x256, .i1⟩ : BufTy).Contents (Elt F) → (⟨S8x1x256x256, .f32⟩ : BufTy).Contents (Elt F)),
    StableHlo.unary main_v39 main_v40 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v40 main_v36 main_v41 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v34 main_v41 main_v42 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v35 main_v39 main_v43 (addf : (⟨S8x1x256x256, .f32⟩ : BufTy).Contents (Elt F) → (⟨S8x1x256x256, .f32⟩ : BufTy).Contents (Elt F) → (⟨S8x1x256x256, .f32⟩ : BufTy).Contents (Elt F)),
    StableHlo.nullary main_c_42 (constantI S_ 32 0#32),
    StableHlo.nullary main_c_43 (constantI S_ 32 0#32),
    StableHlo.nullary main_c_44 (constantI S_ 32 2#32),
    StableHlo.nullary main_c_45 (constantI S_ 32 0#32),
    StableHlo.unaryIndexed main_v0 ![main_c_42, main_c_43, main_c_44, main_c_45] ⟨S_, .i32⟩ main_v44 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_46 (constantI S_ 32 0#32),
    StableHlo.nullary main_c_47 (constantI S_ 32 0#32),
    StableHlo.nullary main_c_48 (constantI S_ 32 2#32),
    StableHlo.nullary main_c_49 (constantI S_ 32 0#32),
    StableHlo.unaryIndexed main_v1 ![main_c_46, main_c_47, main_c_48, main_c_49] ⟨S_, .i32⟩ main_v45 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v45 main_arg1 main_v46 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v46 main_v47 (uitofp .f32 : (⟨S8x1x256x256, .i1⟩ : BufTy).Contents (Elt F) → (⟨S8x1x256x256, .f32⟩ : BufTy).Contents (Elt F)),
    StableHlo.unary main_v47 main_v48 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v48 main_v44 main_v49 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v42 main_v49 main_v50 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v43 main_v47 main_v51 (addf : (⟨S8x1x256x256, .f32⟩ : BufTy).Contents (Elt F) → (⟨S8x1x256x256, .f32⟩ : BufTy).Contents (Elt F) → (⟨S8x1x256x256, .f32⟩ : BufTy).Contents (Elt F)),
    StableHlo.nullary main_c_50 (constantI S_ 32 0#32),
    StableHlo.nullary main_c_51 (constantI S_ 32 0#32),
    StableHlo.nullary main_c_52 (constantI S_ 32 2#32),
    StableHlo.nullary main_c_53 (constantI S_ 32 2#32),
    StableHlo.unaryIndexed main_v0 ![main_c_50, main_c_51, main_c_52, main_c_53] ⟨S_, .i32⟩ main_v52 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_54 (constantI S_ 32 0#32),
    StableHlo.nullary main_c_55 (constantI S_ 32 0#32),
    StableHlo.nullary main_c_56 (constantI S_ 32 2#32),
    StableHlo.nullary main_c_57 (constantI S_ 32 2#32),
    StableHlo.unaryIndexed main_v1 ![main_c_54, main_c_55, main_c_56, main_c_57] ⟨S_, .i32⟩ main_v53 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v53 main_arg1 main_v54 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v54 main_v55 (uitofp .f32 : (⟨S8x1x256x256, .i1⟩ : BufTy).Contents (Elt F) → (⟨S8x1x256x256, .f32⟩ : BufTy).Contents (Elt F)),
    StableHlo.unary main_v55 main_v56 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v56 main_v52 main_v57 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v50 main_v57 main_v58 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v51 main_v55 main_v59 (addf : (⟨S8x1x256x256, .f32⟩ : BufTy).Contents (Elt F) → (⟨S8x1x256x256, .f32⟩ : BufTy).Contents (Elt F) → (⟨S8x1x256x256, .f32⟩ : BufTy).Contents (Elt F)) ]

/-- The operations of @main's stretch 2. -/
abbrev win2 : List (HloOp τ sig (Elt F)) :=
  [ StableHlo.nullary main_c_58 (constantI S_ 32 0#32),
    StableHlo.nullary main_c_59 (constantI S_ 32 0#32),
    StableHlo.nullary main_c_60 (constantI S_ 32 2#32),
    StableHlo.nullary main_c_61 (constantI S_ 32 4#32),
    StableHlo.unaryIndexed main_v0 ![main_c_58, main_c_59, main_c_60, main_c_61] ⟨S_, .i32⟩ main_v60 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_62 (constantI S_ 32 0#32),
    StableHlo.nullary main_c_63 (constantI S_ 32 0#32),
    StableHlo.nullary main_c_64 (constantI S_ 32 2#32),
    StableHlo.nullary main_c_65 (constantI S_ 32 4#32),
    StableHlo.unaryIndexed main_v1 ![main_c_62, main_c_63, main_c_64, main_c_65] ⟨S_, .i32⟩ main_v61 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v61 main_arg1 main_v62 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v62 main_v63 (uitofp .f32 : (⟨S8x1x256x256, .i1⟩ : BufTy).Contents (Elt F) → (⟨S8x1x256x256, .f32⟩ : BufTy).Contents (Elt F)),
    StableHlo.unary main_v63 main_v64 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v64 main_v60 main_v65 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v58 main_v65 main_v66 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v59 main_v63 main_v67 (addf : (⟨S8x1x256x256, .f32⟩ : BufTy).Contents (Elt F) → (⟨S8x1x256x256, .f32⟩ : BufTy).Contents (Elt F) → (⟨S8x1x256x256, .f32⟩ : BufTy).Contents (Elt F)),
    StableHlo.nullary main_c_66 (constantI S_ 32 0#32),
    StableHlo.nullary main_c_67 (constantI S_ 32 0#32),
    StableHlo.nullary main_c_68 (constantI S_ 32 2#32),
    StableHlo.nullary main_c_69 (constantI S_ 32 6#32),
    StableHlo.unaryIndexed main_v0 ![main_c_66, main_c_67, main_c_68, main_c_69] ⟨S_, .i32⟩ main_v68 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_70 (constantI S_ 32 0#32),
    StableHlo.nullary main_c_71 (constantI S_ 32 0#32),
    StableHlo.nullary main_c_72 (constantI S_ 32 2#32),
    StableHlo.nullary main_c_73 (constantI S_ 32 6#32),
    StableHlo.unaryIndexed main_v1 ![main_c_70, main_c_71, main_c_72, main_c_73] ⟨S_, .i32⟩ main_v69 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v69 main_arg1 main_v70 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v70 main_v71 (uitofp .f32 : (⟨S8x1x256x256, .i1⟩ : BufTy).Contents (Elt F) → (⟨S8x1x256x256, .f32⟩ : BufTy).Contents (Elt F)),
    StableHlo.unary main_v71 main_v72 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v72 main_v68 main_v73 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v66 main_v73 main_v74 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v67 main_v71 main_v75 (addf : (⟨S8x1x256x256, .f32⟩ : BufTy).Contents (Elt F) → (⟨S8x1x256x256, .f32⟩ : BufTy).Contents (Elt F) → (⟨S8x1x256x256, .f32⟩ : BufTy).Contents (Elt F)),
    StableHlo.nullary main_c_74 (constantI S_ 32 0#32),
    StableHlo.nullary main_c_75 (constantI S_ 32 0#32),
    StableHlo.nullary main_c_76 (constantI S_ 32 2#32),
    StableHlo.nullary main_c_77 (constantI S_ 32 8#32),
    StableHlo.unaryIndexed main_v0 ![main_c_74, main_c_75, main_c_76, main_c_77] ⟨S_, .i32⟩ main_v76 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_78 (constantI S_ 32 0#32),
    StableHlo.nullary main_c_79 (constantI S_ 32 0#32),
    StableHlo.nullary main_c_80 (constantI S_ 32 2#32),
    StableHlo.nullary main_c_81 (constantI S_ 32 8#32),
    StableHlo.unaryIndexed main_v1 ![main_c_78, main_c_79, main_c_80, main_c_81] ⟨S_, .i32⟩ main_v77 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v77 main_arg1 main_v78 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v78 main_v79 (uitofp .f32 : (⟨S8x1x256x256, .i1⟩ : BufTy).Contents (Elt F) → (⟨S8x1x256x256, .f32⟩ : BufTy).Contents (Elt F)),
    StableHlo.unary main_v79 main_v80 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v80 main_v76 main_v81 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v74 main_v81 main_v82 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v75 main_v79 main_v83 (addf : (⟨S8x1x256x256, .f32⟩ : BufTy).Contents (Elt F) → (⟨S8x1x256x256, .f32⟩ : BufTy).Contents (Elt F) → (⟨S8x1x256x256, .f32⟩ : BufTy).Contents (Elt F)),
    StableHlo.nullary main_c_82 (constantI S_ 32 0#32),
    StableHlo.nullary main_c_83 (constantI S_ 32 0#32),
    StableHlo.nullary main_c_84 (constantI S_ 32 4#32),
    StableHlo.nullary main_c_85 (constantI S_ 32 0#32),
    StableHlo.unaryIndexed main_v0 ![main_c_82, main_c_83, main_c_84, main_c_85] ⟨S_, .i32⟩ main_v84 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_86 (constantI S_ 32 0#32),
    StableHlo.nullary main_c_87 (constantI S_ 32 0#32),
    StableHlo.nullary main_c_88 (constantI S_ 32 4#32),
    StableHlo.nullary main_c_89 (constantI S_ 32 0#32),
    StableHlo.unaryIndexed main_v1 ![main_c_86, main_c_87, main_c_88, main_c_89] ⟨S_, .i32⟩ main_v85 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v85 main_arg1 main_v86 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v86 main_v87 (uitofp .f32 : (⟨S8x1x256x256, .i1⟩ : BufTy).Contents (Elt F) → (⟨S8x1x256x256, .f32⟩ : BufTy).Contents (Elt F)) ]

/-- The operations of @main's stretch 3. -/
abbrev win3 : List (HloOp τ sig (Elt F)) :=
  [ StableHlo.unary main_v87 main_v88 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v88 main_v84 main_v89 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v82 main_v89 main_v90 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v83 main_v87 main_v91 (addf : (⟨S8x1x256x256, .f32⟩ : BufTy).Contents (Elt F) → (⟨S8x1x256x256, .f32⟩ : BufTy).Contents (Elt F) → (⟨S8x1x256x256, .f32⟩ : BufTy).Contents (Elt F)),
    StableHlo.nullary main_c_90 (constantI S_ 32 0#32),
    StableHlo.nullary main_c_91 (constantI S_ 32 0#32),
    StableHlo.nullary main_c_92 (constantI S_ 32 4#32),
    StableHlo.nullary main_c_93 (constantI S_ 32 2#32),
    StableHlo.unaryIndexed main_v0 ![main_c_90, main_c_91, main_c_92, main_c_93] ⟨S_, .i32⟩ main_v92 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_94 (constantI S_ 32 0#32),
    StableHlo.nullary main_c_95 (constantI S_ 32 0#32),
    StableHlo.nullary main_c_96 (constantI S_ 32 4#32),
    StableHlo.nullary main_c_97 (constantI S_ 32 2#32),
    StableHlo.unaryIndexed main_v1 ![main_c_94, main_c_95, main_c_96, main_c_97] ⟨S_, .i32⟩ main_v93 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v93 main_arg1 main_v94 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v94 main_v95 (uitofp .f32 : (⟨S8x1x256x256, .i1⟩ : BufTy).Contents (Elt F) → (⟨S8x1x256x256, .f32⟩ : BufTy).Contents (Elt F)),
    StableHlo.unary main_v95 main_v96 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v96 main_v92 main_v97 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v90 main_v97 main_v98 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v91 main_v95 main_v99 (addf : (⟨S8x1x256x256, .f32⟩ : BufTy).Contents (Elt F) → (⟨S8x1x256x256, .f32⟩ : BufTy).Contents (Elt F) → (⟨S8x1x256x256, .f32⟩ : BufTy).Contents (Elt F)),
    StableHlo.nullary main_c_98 (constantI S_ 32 0#32),
    StableHlo.nullary main_c_99 (constantI S_ 32 0#32),
    StableHlo.nullary main_c_100 (constantI S_ 32 4#32),
    StableHlo.nullary main_c_101 (constantI S_ 32 4#32),
    StableHlo.unaryIndexed main_v0 ![main_c_98, main_c_99, main_c_100, main_c_101] ⟨S_, .i32⟩ main_v100 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_102 (constantI S_ 32 0#32),
    StableHlo.nullary main_c_103 (constantI S_ 32 0#32),
    StableHlo.nullary main_c_104 (constantI S_ 32 4#32),
    StableHlo.nullary main_c_105 (constantI S_ 32 4#32),
    StableHlo.unaryIndexed main_v1 ![main_c_102, main_c_103, main_c_104, main_c_105] ⟨S_, .i32⟩ main_v101 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v101 main_arg1 main_v102 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v102 main_v103 (uitofp .f32 : (⟨S8x1x256x256, .i1⟩ : BufTy).Contents (Elt F) → (⟨S8x1x256x256, .f32⟩ : BufTy).Contents (Elt F)),
    StableHlo.unary main_v103 main_v104 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v104 main_v100 main_v105 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v98 main_v105 main_v106 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v99 main_v103 main_v107 (addf : (⟨S8x1x256x256, .f32⟩ : BufTy).Contents (Elt F) → (⟨S8x1x256x256, .f32⟩ : BufTy).Contents (Elt F) → (⟨S8x1x256x256, .f32⟩ : BufTy).Contents (Elt F)),
    StableHlo.nullary main_c_106 (constantI S_ 32 0#32),
    StableHlo.nullary main_c_107 (constantI S_ 32 0#32),
    StableHlo.nullary main_c_108 (constantI S_ 32 4#32),
    StableHlo.nullary main_c_109 (constantI S_ 32 6#32),
    StableHlo.unaryIndexed main_v0 ![main_c_106, main_c_107, main_c_108, main_c_109] ⟨S_, .i32⟩ main_v108 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_110 (constantI S_ 32 0#32),
    StableHlo.nullary main_c_111 (constantI S_ 32 0#32),
    StableHlo.nullary main_c_112 (constantI S_ 32 4#32),
    StableHlo.nullary main_c_113 (constantI S_ 32 6#32),
    StableHlo.unaryIndexed main_v1 ![main_c_110, main_c_111, main_c_112, main_c_113] ⟨S_, .i32⟩ main_v109 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v109 main_arg1 main_v110 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v110 main_v111 (uitofp .f32 : (⟨S8x1x256x256, .i1⟩ : BufTy).Contents (Elt F) → (⟨S8x1x256x256, .f32⟩ : BufTy).Contents (Elt F)),
    StableHlo.unary main_v111 main_v112 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v112 main_v108 main_v113 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v106 main_v113 main_v114 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v107 main_v111 main_v115 (addf : (⟨S8x1x256x256, .f32⟩ : BufTy).Contents (Elt F) → (⟨S8x1x256x256, .f32⟩ : BufTy).Contents (Elt F) → (⟨S8x1x256x256, .f32⟩ : BufTy).Contents (Elt F)),
    StableHlo.nullary main_c_114 (constantI S_ 32 0#32),
    StableHlo.nullary main_c_115 (constantI S_ 32 0#32),
    StableHlo.nullary main_c_116 (constantI S_ 32 4#32),
    StableHlo.nullary main_c_117 (constantI S_ 32 8#32),
    StableHlo.unaryIndexed main_v0 ![main_c_114, main_c_115, main_c_116, main_c_117] ⟨S_, .i32⟩ main_v116 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_118 (constantI S_ 32 0#32),
    StableHlo.nullary main_c_119 (constantI S_ 32 0#32),
    StableHlo.nullary main_c_120 (constantI S_ 32 4#32) ]

/-- The operations of @main's stretch 4. -/
abbrev win4 : List (HloOp τ sig (Elt F)) :=
  [ StableHlo.nullary main_c_121 (constantI S_ 32 8#32),
    StableHlo.unaryIndexed main_v1 ![main_c_118, main_c_119, main_c_120, main_c_121] ⟨S_, .i32⟩ main_v117 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v117 main_arg1 main_v118 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v118 main_v119 (uitofp .f32 : (⟨S8x1x256x256, .i1⟩ : BufTy).Contents (Elt F) → (⟨S8x1x256x256, .f32⟩ : BufTy).Contents (Elt F)),
    StableHlo.unary main_v119 main_v120 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v120 main_v116 main_v121 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v114 main_v121 main_v122 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v115 main_v119 main_v123 (addf : (⟨S8x1x256x256, .f32⟩ : BufTy).Contents (Elt F) → (⟨S8x1x256x256, .f32⟩ : BufTy).Contents (Elt F) → (⟨S8x1x256x256, .f32⟩ : BufTy).Contents (Elt F)),
    StableHlo.nullary main_c_122 (constantI S_ 32 0#32),
    StableHlo.nullary main_c_123 (constantI S_ 32 0#32),
    StableHlo.nullary main_c_124 (constantI S_ 32 6#32),
    StableHlo.nullary main_c_125 (constantI S_ 32 0#32),
    StableHlo.unaryIndexed main_v0 ![main_c_122, main_c_123, main_c_124, main_c_125] ⟨S_, .i32⟩ main_v124 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_126 (constantI S_ 32 0#32),
    StableHlo.nullary main_c_127 (constantI S_ 32 0#32),
    StableHlo.nullary main_c_128 (constantI S_ 32 6#32),
    StableHlo.nullary main_c_129 (constantI S_ 32 0#32),
    StableHlo.unaryIndexed main_v1 ![main_c_126, main_c_127, main_c_128, main_c_129] ⟨S_, .i32⟩ main_v125 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v125 main_arg1 main_v126 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v126 main_v127 (uitofp .f32 : (⟨S8x1x256x256, .i1⟩ : BufTy).Contents (Elt F) → (⟨S8x1x256x256, .f32⟩ : BufTy).Contents (Elt F)),
    StableHlo.unary main_v127 main_v128 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v128 main_v124 main_v129 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v122 main_v129 main_v130 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v123 main_v127 main_v131 (addf : (⟨S8x1x256x256, .f32⟩ : BufTy).Contents (Elt F) → (⟨S8x1x256x256, .f32⟩ : BufTy).Contents (Elt F) → (⟨S8x1x256x256, .f32⟩ : BufTy).Contents (Elt F)),
    StableHlo.nullary main_c_130 (constantI S_ 32 0#32),
    StableHlo.nullary main_c_131 (constantI S_ 32 0#32),
    StableHlo.nullary main_c_132 (constantI S_ 32 6#32),
    StableHlo.nullary main_c_133 (constantI S_ 32 2#32),
    StableHlo.unaryIndexed main_v0 ![main_c_130, main_c_131, main_c_132, main_c_133] ⟨S_, .i32⟩ main_v132 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_134 (constantI S_ 32 0#32),
    StableHlo.nullary main_c_135 (constantI S_ 32 0#32),
    StableHlo.nullary main_c_136 (constantI S_ 32 6#32),
    StableHlo.nullary main_c_137 (constantI S_ 32 2#32),
    StableHlo.unaryIndexed main_v1 ![main_c_134, main_c_135, main_c_136, main_c_137] ⟨S_, .i32⟩ main_v133 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v133 main_arg1 main_v134 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v134 main_v135 (uitofp .f32 : (⟨S8x1x256x256, .i1⟩ : BufTy).Contents (Elt F) → (⟨S8x1x256x256, .f32⟩ : BufTy).Contents (Elt F)),
    StableHlo.unary main_v135 main_v136 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v136 main_v132 main_v137 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v130 main_v137 main_v138 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v131 main_v135 main_v139 (addf : (⟨S8x1x256x256, .f32⟩ : BufTy).Contents (Elt F) → (⟨S8x1x256x256, .f32⟩ : BufTy).Contents (Elt F) → (⟨S8x1x256x256, .f32⟩ : BufTy).Contents (Elt F)),
    StableHlo.nullary main_c_138 (constantI S_ 32 0#32),
    StableHlo.nullary main_c_139 (constantI S_ 32 0#32),
    StableHlo.nullary main_c_140 (constantI S_ 32 6#32),
    StableHlo.nullary main_c_141 (constantI S_ 32 4#32),
    StableHlo.unaryIndexed main_v0 ![main_c_138, main_c_139, main_c_140, main_c_141] ⟨S_, .i32⟩ main_v140 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_142 (constantI S_ 32 0#32),
    StableHlo.nullary main_c_143 (constantI S_ 32 0#32),
    StableHlo.nullary main_c_144 (constantI S_ 32 6#32),
    StableHlo.nullary main_c_145 (constantI S_ 32 4#32),
    StableHlo.unaryIndexed main_v1 ![main_c_142, main_c_143, main_c_144, main_c_145] ⟨S_, .i32⟩ main_v141 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v141 main_arg1 main_v142 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v142 main_v143 (uitofp .f32 : (⟨S8x1x256x256, .i1⟩ : BufTy).Contents (Elt F) → (⟨S8x1x256x256, .f32⟩ : BufTy).Contents (Elt F)),
    StableHlo.unary main_v143 main_v144 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v144 main_v140 main_v145 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v138 main_v145 main_v146 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v139 main_v143 main_v147 (addf : (⟨S8x1x256x256, .f32⟩ : BufTy).Contents (Elt F) → (⟨S8x1x256x256, .f32⟩ : BufTy).Contents (Elt F) → (⟨S8x1x256x256, .f32⟩ : BufTy).Contents (Elt F)),
    StableHlo.nullary main_c_146 (constantI S_ 32 0#32),
    StableHlo.nullary main_c_147 (constantI S_ 32 0#32),
    StableHlo.nullary main_c_148 (constantI S_ 32 6#32),
    StableHlo.nullary main_c_149 (constantI S_ 32 6#32) ]

/-- The operations of @main's stretch 5. -/
abbrev win5 : List (HloOp τ sig (Elt F)) :=
  [ StableHlo.unaryIndexed main_v0 ![main_c_146, main_c_147, main_c_148, main_c_149] ⟨S_, .i32⟩ main_v148 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_150 (constantI S_ 32 0#32),
    StableHlo.nullary main_c_151 (constantI S_ 32 0#32),
    StableHlo.nullary main_c_152 (constantI S_ 32 6#32),
    StableHlo.nullary main_c_153 (constantI S_ 32 6#32),
    StableHlo.unaryIndexed main_v1 ![main_c_150, main_c_151, main_c_152, main_c_153] ⟨S_, .i32⟩ main_v149 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v149 main_arg1 main_v150 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v150 main_v151 (uitofp .f32 : (⟨S8x1x256x256, .i1⟩ : BufTy).Contents (Elt F) → (⟨S8x1x256x256, .f32⟩ : BufTy).Contents (Elt F)),
    StableHlo.unary main_v151 main_v152 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v152 main_v148 main_v153 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v146 main_v153 main_v154 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v147 main_v151 main_v155 (addf : (⟨S8x1x256x256, .f32⟩ : BufTy).Contents (Elt F) → (⟨S8x1x256x256, .f32⟩ : BufTy).Contents (Elt F) → (⟨S8x1x256x256, .f32⟩ : BufTy).Contents (Elt F)),
    StableHlo.nullary main_c_154 (constantI S_ 32 0#32),
    StableHlo.nullary main_c_155 (constantI S_ 32 0#32),
    StableHlo.nullary main_c_156 (constantI S_ 32 6#32),
    StableHlo.nullary main_c_157 (constantI S_ 32 8#32),
    StableHlo.unaryIndexed main_v0 ![main_c_154, main_c_155, main_c_156, main_c_157] ⟨S_, .i32⟩ main_v156 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_158 (constantI S_ 32 0#32),
    StableHlo.nullary main_c_159 (constantI S_ 32 0#32),
    StableHlo.nullary main_c_160 (constantI S_ 32 6#32),
    StableHlo.nullary main_c_161 (constantI S_ 32 8#32),
    StableHlo.unaryIndexed main_v1 ![main_c_158, main_c_159, main_c_160, main_c_161] ⟨S_, .i32⟩ main_v157 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v157 main_arg1 main_v158 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v158 main_v159 (uitofp .f32 : (⟨S8x1x256x256, .i1⟩ : BufTy).Contents (Elt F) → (⟨S8x1x256x256, .f32⟩ : BufTy).Contents (Elt F)),
    StableHlo.unary main_v159 main_v160 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v160 main_v156 main_v161 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v154 main_v161 main_v162 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v155 main_v159 main_v163 (addf : (⟨S8x1x256x256, .f32⟩ : BufTy).Contents (Elt F) → (⟨S8x1x256x256, .f32⟩ : BufTy).Contents (Elt F) → (⟨S8x1x256x256, .f32⟩ : BufTy).Contents (Elt F)),
    StableHlo.nullary main_c_162 (constantI S_ 32 0#32),
    StableHlo.nullary main_c_163 (constantI S_ 32 0#32),
    StableHlo.nullary main_c_164 (constantI S_ 32 8#32),
    StableHlo.nullary main_c_165 (constantI S_ 32 0#32),
    StableHlo.unaryIndexed main_v0 ![main_c_162, main_c_163, main_c_164, main_c_165] ⟨S_, .i32⟩ main_v164 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_166 (constantI S_ 32 0#32),
    StableHlo.nullary main_c_167 (constantI S_ 32 0#32),
    StableHlo.nullary main_c_168 (constantI S_ 32 8#32),
    StableHlo.nullary main_c_169 (constantI S_ 32 0#32),
    StableHlo.unaryIndexed main_v1 ![main_c_166, main_c_167, main_c_168, main_c_169] ⟨S_, .i32⟩ main_v165 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v165 main_arg1 main_v166 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v166 main_v167 (uitofp .f32 : (⟨S8x1x256x256, .i1⟩ : BufTy).Contents (Elt F) → (⟨S8x1x256x256, .f32⟩ : BufTy).Contents (Elt F)),
    StableHlo.unary main_v167 main_v168 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v168 main_v164 main_v169 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v162 main_v169 main_v170 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v163 main_v167 main_v171 (addf : (⟨S8x1x256x256, .f32⟩ : BufTy).Contents (Elt F) → (⟨S8x1x256x256, .f32⟩ : BufTy).Contents (Elt F) → (⟨S8x1x256x256, .f32⟩ : BufTy).Contents (Elt F)),
    StableHlo.nullary main_c_170 (constantI S_ 32 0#32),
    StableHlo.nullary main_c_171 (constantI S_ 32 0#32),
    StableHlo.nullary main_c_172 (constantI S_ 32 8#32),
    StableHlo.nullary main_c_173 (constantI S_ 32 2#32),
    StableHlo.unaryIndexed main_v0 ![main_c_170, main_c_171, main_c_172, main_c_173] ⟨S_, .i32⟩ main_v172 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_174 (constantI S_ 32 0#32),
    StableHlo.nullary main_c_175 (constantI S_ 32 0#32),
    StableHlo.nullary main_c_176 (constantI S_ 32 8#32),
    StableHlo.nullary main_c_177 (constantI S_ 32 2#32),
    StableHlo.unaryIndexed main_v1 ![main_c_174, main_c_175, main_c_176, main_c_177] ⟨S_, .i32⟩ main_v173 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v173 main_arg1 main_v174 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v174 main_v175 (uitofp .f32 : (⟨S8x1x256x256, .i1⟩ : BufTy).Contents (Elt F) → (⟨S8x1x256x256, .f32⟩ : BufTy).Contents (Elt F)),
    StableHlo.unary main_v175 main_v176 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v176 main_v172 main_v177 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v170 main_v177 main_v178 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v171 main_v175 main_v179 (addf : (⟨S8x1x256x256, .f32⟩ : BufTy).Contents (Elt F) → (⟨S8x1x256x256, .f32⟩ : BufTy).Contents (Elt F) → (⟨S8x1x256x256, .f32⟩ : BufTy).Contents (Elt F)) ]

/-- The operations of @main's stretch 6. -/
abbrev win6 : List (HloOp τ sig (Elt F)) :=
  [ StableHlo.nullary main_c_178 (constantI S_ 32 0#32),
    StableHlo.nullary main_c_179 (constantI S_ 32 0#32),
    StableHlo.nullary main_c_180 (constantI S_ 32 8#32),
    StableHlo.nullary main_c_181 (constantI S_ 32 4#32),
    StableHlo.unaryIndexed main_v0 ![main_c_178, main_c_179, main_c_180, main_c_181] ⟨S_, .i32⟩ main_v180 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_182 (constantI S_ 32 0#32),
    StableHlo.nullary main_c_183 (constantI S_ 32 0#32),
    StableHlo.nullary main_c_184 (constantI S_ 32 8#32),
    StableHlo.nullary main_c_185 (constantI S_ 32 4#32),
    StableHlo.unaryIndexed main_v1 ![main_c_182, main_c_183, main_c_184, main_c_185] ⟨S_, .i32⟩ main_v181 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v181 main_arg1 main_v182 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v182 main_v183 (uitofp .f32 : (⟨S8x1x256x256, .i1⟩ : BufTy).Contents (Elt F) → (⟨S8x1x256x256, .f32⟩ : BufTy).Contents (Elt F)),
    StableHlo.unary main_v183 main_v184 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v184 main_v180 main_v185 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v178 main_v185 main_v186 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v179 main_v183 main_v187 (addf : (⟨S8x1x256x256, .f32⟩ : BufTy).Contents (Elt F) → (⟨S8x1x256x256, .f32⟩ : BufTy).Contents (Elt F) → (⟨S8x1x256x256, .f32⟩ : BufTy).Contents (Elt F)),
    StableHlo.nullary main_c_186 (constantI S_ 32 0#32),
    StableHlo.nullary main_c_187 (constantI S_ 32 0#32),
    StableHlo.nullary main_c_188 (constantI S_ 32 8#32),
    StableHlo.nullary main_c_189 (constantI S_ 32 6#32),
    StableHlo.unaryIndexed main_v0 ![main_c_186, main_c_187, main_c_188, main_c_189] ⟨S_, .i32⟩ main_v188 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_190 (constantI S_ 32 0#32),
    StableHlo.nullary main_c_191 (constantI S_ 32 0#32),
    StableHlo.nullary main_c_192 (constantI S_ 32 8#32),
    StableHlo.nullary main_c_193 (constantI S_ 32 6#32),
    StableHlo.unaryIndexed main_v1 ![main_c_190, main_c_191, main_c_192, main_c_193] ⟨S_, .i32⟩ main_v189 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v189 main_arg1 main_v190 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v190 main_v191 (uitofp .f32 : (⟨S8x1x256x256, .i1⟩ : BufTy).Contents (Elt F) → (⟨S8x1x256x256, .f32⟩ : BufTy).Contents (Elt F)),
    StableHlo.unary main_v191 main_v192 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v192 main_v188 main_v193 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v186 main_v193 main_v194 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v187 main_v191 main_v195 (addf : (⟨S8x1x256x256, .f32⟩ : BufTy).Contents (Elt F) → (⟨S8x1x256x256, .f32⟩ : BufTy).Contents (Elt F) → (⟨S8x1x256x256, .f32⟩ : BufTy).Contents (Elt F)),
    StableHlo.nullary main_c_194 (constantI S_ 32 0#32),
    StableHlo.nullary main_c_195 (constantI S_ 32 0#32),
    StableHlo.nullary main_c_196 (constantI S_ 32 8#32),
    StableHlo.nullary main_c_197 (constantI S_ 32 8#32),
    StableHlo.unaryIndexed main_v0 ![main_c_194, main_c_195, main_c_196, main_c_197] ⟨S_, .i32⟩ main_v196 ((fun x i => Host.dynamicSlice S8x64x256x256 x (fun k => (i k (Shape.Idx.first h_S_)).toInt) sliceFits_S8x64x264x264_S8x64x256x256) : (⟨S8x64x264x264, .f32⟩ : BufTy).Contents (Elt F) → (Fin 4 → (⟨S_, .i32⟩ : BufTy).Contents (Elt F)) → (⟨S8x64x256x256, .f32⟩ : BufTy).Contents (Elt F)),
    StableHlo.nullary main_c_198 (constantI S_ 32 0#32),
    StableHlo.nullary main_c_199 (constantI S_ 32 0#32),
    StableHlo.nullary main_c_200 (constantI S_ 32 8#32),
    StableHlo.nullary main_c_201 (constantI S_ 32 8#32),
    StableHlo.unaryIndexed main_v1 ![main_c_198, main_c_199, main_c_200, main_c_201] ⟨S_, .i32⟩ main_v197 ((fun x i => Host.dynamicSlice S8x1x256x256 x (fun k => (i k (Shape.Idx.first h_S_)).toInt) sliceFits_S8x1x264x264_S8x1x256x256) : (⟨S8x1x264x264, .f32⟩ : BufTy).Contents (Elt F) → (Fin 4 → (⟨S_, .i32⟩ : BufTy).Contents (Elt F)) → (⟨S8x1x256x256, .f32⟩ : BufTy).Contents (Elt F)),
    StableHlo.binary main_v197 main_arg1 main_v198 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.unary main_v198 main_v199 (uitofp .f32 : (⟨S8x1x256x256, .i1⟩ : BufTy).Contents (Elt F) → (⟨S8x1x256x256, .f32⟩ : BufTy).Contents (Elt F)),
    StableHlo.unary main_v199 main_v200 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v200 main_v196 main_v201 (mulf : (⟨S8x64x256x256, .f32⟩ : BufTy).Contents (Elt F) → (⟨S8x64x256x256, .f32⟩ : BufTy).Contents (Elt F) → (⟨S8x64x256x256, .f32⟩ : BufTy).Contents (Elt F)),
    StableHlo.binary main_v194 main_v201 main_v202 (addf : (⟨S8x64x256x256, .f32⟩ : BufTy).Contents (Elt F) → (⟨S8x64x256x256, .f32⟩ : BufTy).Contents (Elt F) → (⟨S8x64x256x256, .f32⟩ : BufTy).Contents (Elt F)),
    StableHlo.binary main_v195 main_v199 main_v203 (addf : (⟨S8x1x256x256, .f32⟩ : BufTy).Contents (Elt F) → (⟨S8x1x256x256, .f32⟩ : BufTy).Contents (Elt F) → (⟨S8x1x256x256, .f32⟩ : BufTy).Contents (Elt F)),
    StableHlo.nullary main_cst_202 (constant S_ .f32 0x00000000#32),
    StableHlo.unary main_cst_202 main_v204 (broadcastInDim S8x1x256x256 ![] bcast_S_S8x1x256x256 : (⟨S_, .f32⟩ : BufTy).Contents (Elt F) → (⟨S8x1x256x256, .f32⟩ : BufTy).Contents (Elt F)),
    StableHlo.binary main_v203 main_v204 main_v205 (cmpf .oeq : (⟨S8x1x256x256, .f32⟩ : BufTy).Contents (Elt F) → (⟨S8x1x256x256, .f32⟩ : BufTy).Contents (Elt F) → (⟨S8x1x256x256, .i1⟩ : BufTy).Contents (Elt F)),
    StableHlo.nullary main_cst_203 (constant S_ .f32 0x3F800000#32),
    StableHlo.unary main_cst_203 main_v206 (broadcastInDim S8x1x256x256 ![] bcast_S_S8x1x256x256 : (⟨S_, .f32⟩ : BufTy).Contents (Elt F) → (⟨S8x1x256x256, .f32⟩ : BufTy).Contents (Elt F)),
    StableHlo.TRef.ternary (.of main_v205 : StableHlo.TRef sig ⟨S8x1x256x256, .i1⟩) (.of main_v206 : StableHlo.TRef sig ⟨S8x1x256x256, .f32⟩) (.of main_v203 : StableHlo.TRef sig ⟨S8x1x256x256, .f32⟩) main_call2.v0 select,
    StableHlo.unary main_v207 main_v208 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    StableHlo.binary main_v202 main_v208 main_v209 (Host.divf : (⟨S8x64x256x256, .f32⟩ : BufTy).Contents (Elt F) → (⟨S8x64x256x256, .f32⟩ : BufTy).Contents (Elt F) → (⟨S8x64x256x256, .f32⟩ : BufTy).Contents (Elt F)) ]

set_option maxRecDepth 4096 in
theorem part0_eq (c : Dev nD) : main_part0 (F := F) c = seq (win0 (F := F)) := by
  simp only [main_part0, fn_pad.body, fn_pad_1.body, fn_flip.body, fn_flip_0.body, fn_flip_2.body, fn_flip_3.body, seq, bind_assoc, pure_bind]
  rfl
theorem part1_eq (c : Dev nD) : main_part1 (F := F) c = seq (win1 (F := F)) := rfl
theorem part2_eq (c : Dev nD) : main_part2 (F := F) c = seq (win2 (F := F)) := rfl
theorem part3_eq (c : Dev nD) : main_part3 (F := F) c = seq (win3 (F := F)) := rfl
theorem part4_eq (c : Dev nD) : main_part4 (F := F) c = seq (win4 (F := F)) := rfl
theorem part5_eq (c : Dev nD) : main_part5 (F := F) c = seq (win5 (F := F)) := rfl
set_option maxRecDepth 4096 in
theorem part6_eq (c : Dev nD) : main_part6 (F := F) c = seq (win6 (F := F)) := by
  simp only [main_part6, fn_where.body, seq, bind_assoc, pure_bind]

/-- The seven stretches in order are the whole list. -/
theorem wins_eq : (win0 (F := F)) ++ (win1 ++ (win2 ++ (win3 ++ (win4 ++ (win5 ++ win6))))) = allOps := rfl

/-- @main is the straight line of all its operations. -/
theorem main_eq (c : Dev nD) : main (F := F) c = seq (allOps (F := F)) := by
  rw [← wins_eq]
  simp only [seq_append]
  rw [← part0_eq c, ← part1_eq c, ← part2_eq c, ← part3_eq c, ← part4_eq c, ← part5_eq c, ← part6_eq c]
  rfl

end Cert.RefSide

end
-- ==== Proof.RefRun.lean ====
/-
  The reference program's run as the fold of its operations: every operation touches only the device's own buffers and
  determines what it writes, so every weakly fair execution of @main ends with each buffer at the fold of the
  operations' results over the launch contents.
-/
import proofs.«181392_j37838661878408_1_alg».proof.Proof.RefWin

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- A property of every element of two lists holds of every element of their concatenation. -/
theorem forall_append' {α : Type _} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

theorem head_ok : (headOps (F := F)).Forall (fun op => op.bufs ⊆ tcRefs τ sig ∧ op.fresh = ∅) :=
  ⟨⟨nullary_bufs_sub .., rfl⟩, ⟨unary_bufs_sub .., rfl⟩, ⟨unary_bufs_sub .., rfl⟩, ⟨unary_bufs_sub .., rfl⟩, ⟨binary_bufs_sub .., rfl⟩, ⟨unary_bufs_sub .., rfl⟩, ⟨unary_bufs_sub .., rfl⟩, ⟨unary_bufs_sub .., rfl⟩, ⟨binary_bufs_sub .., rfl⟩, ⟨unary_bufs_sub .., rfl⟩, ⟨unary_bufs_sub .., rfl⟩, ⟨unary_bufs_sub .., rfl⟩, ⟨binary_bufs_sub .., rfl⟩, ⟨unary_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨unary_bufs_sub .., rfl⟩, ⟨unary_bufs_sub .., rfl⟩, ⟨binary_bufs_sub .., rfl⟩, ⟨unary_bufs_sub .., rfl⟩, ⟨unary_bufs_sub .., rfl⟩, ⟨unary_bufs_sub .., rfl⟩, ⟨binary_bufs_sub .., rfl⟩, ⟨unary_bufs_sub .., rfl⟩, ⟨unary_bufs_sub .., rfl⟩, ⟨unary_bufs_sub .., rfl⟩, ⟨binary_bufs_sub .., rfl⟩, ⟨unary_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨nullary_bufs_sub .., rfl⟩, ⟨unary_bufs_sub .., rfl⟩⟩
theorem tap0_ok : (tapOps0 (F := F)).Forall (fun op => op.bufs ⊆ tcRefs τ sig ∧ op.fresh = ∅) :=
  ⟨⟨nullary_bufs_sub .., rfl⟩, ⟨nullary_bufs_sub .., rfl⟩, ⟨nullary_bufs_sub .., rfl⟩, ⟨nullary_bufs_sub .., rfl⟩, ⟨unaryIndexed_bufs_sub .., rfl⟩, ⟨nullary_bufs_sub .., rfl⟩, ⟨nullary_bufs_sub .., rfl⟩, ⟨nullary_bufs_sub .., rfl⟩, ⟨nullary_bufs_sub .., rfl⟩, ⟨unaryIndexed_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨binary_bufs_sub .., rfl⟩⟩
theorem tap1_ok : (tapOps1 (F := F)).Forall (fun op => op.bufs ⊆ tcRefs τ sig ∧ op.fresh = ∅) :=
  ⟨⟨nullary_bufs_sub .., rfl⟩, ⟨nullary_bufs_sub .., rfl⟩, ⟨nullary_bufs_sub .., rfl⟩, ⟨nullary_bufs_sub .., rfl⟩, ⟨unaryIndexed_bufs_sub .., rfl⟩, ⟨nullary_bufs_sub .., rfl⟩, ⟨nullary_bufs_sub .., rfl⟩, ⟨nullary_bufs_sub .., rfl⟩, ⟨nullary_bufs_sub .., rfl⟩, ⟨unaryIndexed_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨binary_bufs_sub .., rfl⟩⟩
theorem tap2_ok : (tapOps2 (F := F)).Forall (fun op => op.bufs ⊆ tcRefs τ sig ∧ op.fresh = ∅) :=
  ⟨⟨nullary_bufs_sub .., rfl⟩, ⟨nullary_bufs_sub .., rfl⟩, ⟨nullary_bufs_sub .., rfl⟩, ⟨nullary_bufs_sub .., rfl⟩, ⟨unaryIndexed_bufs_sub .., rfl⟩, ⟨nullary_bufs_sub .., rfl⟩, ⟨nullary_bufs_sub .., rfl⟩, ⟨nullary_bufs_sub .., rfl⟩, ⟨nullary_bufs_sub .., rfl⟩, ⟨unaryIndexed_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨binary_bufs_sub .., rfl⟩⟩
theorem tap3_ok : (tapOps3 (F := F)).Forall (fun op => op.bufs ⊆ tcRefs τ sig ∧ op.fresh = ∅) :=
  ⟨⟨nullary_bufs_sub .., rfl⟩, ⟨nullary_bufs_sub .., rfl⟩, ⟨nullary_bufs_sub .., rfl⟩, ⟨nullary_bufs_sub .., rfl⟩, ⟨unaryIndexed_bufs_sub .., rfl⟩, ⟨nullary_bufs_sub .., rfl⟩, ⟨nullary_bufs_sub .., rfl⟩, ⟨nullary_bufs_sub .., rfl⟩, ⟨nullary_bufs_sub .., rfl⟩, ⟨unaryIndexed_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨binary_bufs_sub .., rfl⟩⟩
theorem tap4_ok : (tapOps4 (F := F)).Forall (fun op => op.bufs ⊆ tcRefs τ sig ∧ op.fresh = ∅) :=
  ⟨⟨nullary_bufs_sub .., rfl⟩, ⟨nullary_bufs_sub .., rfl⟩, ⟨nullary_bufs_sub .., rfl⟩, ⟨nullary_bufs_sub .., rfl⟩, ⟨unaryIndexed_bufs_sub .., rfl⟩, ⟨nullary_bufs_sub .., rfl⟩, ⟨nullary_bufs_sub .., rfl⟩, ⟨nullary_bufs_sub .., rfl⟩, ⟨nullary_bufs_sub .., rfl⟩, ⟨unaryIndexed_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨binary_bufs_sub .., rfl⟩⟩
theorem tap5_ok : (tapOps5 (F := F)).Forall (fun op => op.bufs ⊆ tcRefs τ sig ∧ op.fresh = ∅) :=
  ⟨⟨nullary_bufs_sub .., rfl⟩, ⟨nullary_bufs_sub .., rfl⟩, ⟨nullary_bufs_sub .., rfl⟩, ⟨nullary_bufs_sub .., rfl⟩, ⟨unaryIndexed_bufs_sub .., rfl⟩, ⟨nullary_bufs_sub .., rfl⟩, ⟨nullary_bufs_sub .., rfl⟩, ⟨nullary_bufs_sub .., rfl⟩, ⟨nullary_bufs_sub .., rfl⟩, ⟨unaryIndexed_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨binary_bufs_sub .., rfl⟩⟩
theorem tap6_ok : (tapOps6 (F := F)).Forall (fun op => op.bufs ⊆ tcRefs τ sig ∧ op.fresh = ∅) :=
  ⟨⟨nullary_bufs_sub .., rfl⟩, ⟨nullary_bufs_sub .., rfl⟩, ⟨nullary_bufs_sub .., rfl⟩, ⟨nullary_bufs_sub .., rfl⟩, ⟨unaryIndexed_bufs_sub .., rfl⟩, ⟨nullary_bufs_sub .., rfl⟩, ⟨nullary_bufs_sub .., rfl⟩, ⟨nullary_bufs_sub .., rfl⟩, ⟨nullary_bufs_sub .., rfl⟩, ⟨unaryIndexed_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨binary_bufs_sub .., rfl⟩⟩
theorem tap7_ok : (tapOps7 (F := F)).Forall (fun op => op.bufs ⊆ tcRefs τ sig ∧ op.fresh = ∅) :=
  ⟨⟨nullary_bufs_sub .., rfl⟩, ⟨nullary_bufs_sub .., rfl⟩, ⟨nullary_bufs_sub .., rfl⟩, ⟨nullary_bufs_sub .., rfl⟩, ⟨unaryIndexed_bufs_sub .., rfl⟩, ⟨nullary_bufs_sub .., rfl⟩, ⟨nullary_bufs_sub .., rfl⟩, ⟨nullary_bufs_sub .., rfl⟩, ⟨nullary_bufs_sub .., rfl⟩, ⟨unaryIndexed_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨binary_bufs_sub .., rfl⟩⟩
theorem tap8_ok : (tapOps8 (F := F)).Forall (fun op => op.bufs ⊆ tcRefs τ sig ∧ op.fresh = ∅) :=
  ⟨⟨nullary_bufs_sub .., rfl⟩, ⟨nullary_bufs_sub .., rfl⟩, ⟨nullary_bufs_sub .., rfl⟩, ⟨nullary_bufs_sub .., rfl⟩, ⟨unaryIndexed_bufs_sub .., rfl⟩, ⟨nullary_bufs_sub .., rfl⟩, ⟨nullary_bufs_sub .., rfl⟩, ⟨nullary_bufs_sub .., rfl⟩, ⟨nullary_bufs_sub .., rfl⟩, ⟨unaryIndexed_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨binary_bufs_sub .., rfl⟩⟩
theorem tap9_ok : (tapOps9 (F := F)).Forall (fun op => op.bufs ⊆ tcRefs τ sig ∧ op.fresh = ∅) :=
  ⟨⟨nullary_bufs_sub .., rfl⟩, ⟨nullary_bufs_sub .., rfl⟩, ⟨nullary_bufs_sub .., rfl⟩, ⟨nullary_bufs_sub .., rfl⟩, ⟨unaryIndexed_bufs_sub .., rfl⟩, ⟨nullary_bufs_sub .., rfl⟩, ⟨nullary_bufs_sub .., rfl⟩, ⟨nullary_bufs_sub .., rfl⟩, ⟨nullary_bufs_sub .., rfl⟩, ⟨unaryIndexed_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨binary_bufs_sub .., rfl⟩⟩
theorem tap10_ok : (tapOps10 (F := F)).Forall (fun op => op.bufs ⊆ tcRefs τ sig ∧ op.fresh = ∅) :=
  ⟨⟨nullary_bufs_sub .., rfl⟩, ⟨nullary_bufs_sub .., rfl⟩, ⟨nullary_bufs_sub .., rfl⟩, ⟨nullary_bufs_sub .., rfl⟩, ⟨unaryIndexed_bufs_sub .., rfl⟩, ⟨nullary_bufs_sub .., rfl⟩, ⟨nullary_bufs_sub .., rfl⟩, ⟨nullary_bufs_sub .., rfl⟩, ⟨nullary_bufs_sub .., rfl⟩, ⟨unaryIndexed_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨binary_bufs_sub .., rfl⟩⟩
theorem tap11_ok : (tapOps11 (F := F)).Forall (fun op => op.bufs ⊆ tcRefs τ sig ∧ op.fresh = ∅) :=
  ⟨⟨nullary_bufs_sub .., rfl⟩, ⟨nullary_bufs_sub .., rfl⟩, ⟨nullary_bufs_sub .., rfl⟩, ⟨nullary_bufs_sub .., rfl⟩, ⟨unaryIndexed_bufs_sub .., rfl⟩, ⟨nullary_bufs_sub .., rfl⟩, ⟨nullary_bufs_sub .., rfl⟩, ⟨nullary_bufs_sub .., rfl⟩, ⟨nullary_bufs_sub .., rfl⟩, ⟨unaryIndexed_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨binary_bufs_sub .., rfl⟩⟩
theorem tap12_ok : (tapOps12 (F := F)).Forall (fun op => op.bufs ⊆ tcRefs τ sig ∧ op.fresh = ∅) :=
  ⟨⟨nullary_bufs_sub .., rfl⟩, ⟨nullary_bufs_sub .., rfl⟩, ⟨nullary_bufs_sub .., rfl⟩, ⟨nullary_bufs_sub .., rfl⟩, ⟨unaryIndexed_bufs_sub .., rfl⟩, ⟨nullary_bufs_sub .., rfl⟩, ⟨nullary_bufs_sub .., rfl⟩, ⟨nullary_bufs_sub .., rfl⟩, ⟨nullary_bufs_sub .., rfl⟩, ⟨unaryIndexed_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨binary_bufs_sub .., rfl⟩⟩
theorem tap13_ok : (tapOps13 (F := F)).Forall (fun op => op.bufs ⊆ tcRefs τ sig ∧ op.fresh = ∅) :=
  ⟨⟨nullary_bufs_sub .., rfl⟩, ⟨nullary_bufs_sub .., rfl⟩, ⟨nullary_bufs_sub .., rfl⟩, ⟨nullary_bufs_sub .., rfl⟩, ⟨unaryIndexed_bufs_sub .., rfl⟩, ⟨nullary_bufs_sub .., rfl⟩, ⟨nullary_bufs_sub .., rfl⟩, ⟨nullary_bufs_sub .., rfl⟩, ⟨nullary_bufs_sub .., rfl⟩, ⟨unaryIndexed_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨binary_bufs_sub .., rfl⟩⟩
theorem tap14_ok : (tapOps14 (F := F)).Forall (fun op => op.bufs ⊆ tcRefs τ sig ∧ op.fresh = ∅) :=
  ⟨⟨nullary_bufs_sub .., rfl⟩, ⟨nullary_bufs_sub .., rfl⟩, ⟨nullary_bufs_sub .., rfl⟩, ⟨nullary_bufs_sub .., rfl⟩, ⟨unaryIndexed_bufs_sub .., rfl⟩, ⟨nullary_bufs_sub .., rfl⟩, ⟨nullary_bufs_sub .., rfl⟩, ⟨nullary_bufs_sub .., rfl⟩, ⟨nullary_bufs_sub .., rfl⟩, ⟨unaryIndexed_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨binary_bufs_sub .., rfl⟩⟩
theorem tap15_ok : (tapOps15 (F := F)).Forall (fun op => op.bufs ⊆ tcRefs τ sig ∧ op.fresh = ∅) :=
  ⟨⟨nullary_bufs_sub .., rfl⟩, ⟨nullary_bufs_sub .., rfl⟩, ⟨nullary_bufs_sub .., rfl⟩, ⟨nullary_bufs_sub .., rfl⟩, ⟨unaryIndexed_bufs_sub .., rfl⟩, ⟨nullary_bufs_sub .., rfl⟩, ⟨nullary_bufs_sub .., rfl⟩, ⟨nullary_bufs_sub .., rfl⟩, ⟨nullary_bufs_sub .., rfl⟩, ⟨unaryIndexed_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨binary_bufs_sub .., rfl⟩⟩
theorem tap16_ok : (tapOps16 (F := F)).Forall (fun op => op.bufs ⊆ tcRefs τ sig ∧ op.fresh = ∅) :=
  ⟨⟨nullary_bufs_sub .., rfl⟩, ⟨nullary_bufs_sub .., rfl⟩, ⟨nullary_bufs_sub .., rfl⟩, ⟨nullary_bufs_sub .., rfl⟩, ⟨unaryIndexed_bufs_sub .., rfl⟩, ⟨nullary_bufs_sub .., rfl⟩, ⟨nullary_bufs_sub .., rfl⟩, ⟨nullary_bufs_sub .., rfl⟩, ⟨nullary_bufs_sub .., rfl⟩, ⟨unaryIndexed_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨binary_bufs_sub .., rfl⟩⟩
theorem tap17_ok : (tapOps17 (F := F)).Forall (fun op => op.bufs ⊆ tcRefs τ sig ∧ op.fresh = ∅) :=
  ⟨⟨nullary_bufs_sub .., rfl⟩, ⟨nullary_bufs_sub .., rfl⟩, ⟨nullary_bufs_sub .., rfl⟩, ⟨nullary_bufs_sub .., rfl⟩, ⟨unaryIndexed_bufs_sub .., rfl⟩, ⟨nullary_bufs_sub .., rfl⟩, ⟨nullary_bufs_sub .., rfl⟩, ⟨nullary_bufs_sub .., rfl⟩, ⟨nullary_bufs_sub .., rfl⟩, ⟨unaryIndexed_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨binary_bufs_sub .., rfl⟩⟩
theorem tap18_ok : (tapOps18 (F := F)).Forall (fun op => op.bufs ⊆ tcRefs τ sig ∧ op.fresh = ∅) :=
  ⟨⟨nullary_bufs_sub .., rfl⟩, ⟨nullary_bufs_sub .., rfl⟩, ⟨nullary_bufs_sub .., rfl⟩, ⟨nullary_bufs_sub .., rfl⟩, ⟨unaryIndexed_bufs_sub .., rfl⟩, ⟨nullary_bufs_sub .., rfl⟩, ⟨nullary_bufs_sub .., rfl⟩, ⟨nullary_bufs_sub .., rfl⟩, ⟨nullary_bufs_sub .., rfl⟩, ⟨unaryIndexed_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨binary_bufs_sub .., rfl⟩⟩
theorem tap19_ok : (tapOps19 (F := F)).Forall (fun op => op.bufs ⊆ tcRefs τ sig ∧ op.fresh = ∅) :=
  ⟨⟨nullary_bufs_sub .., rfl⟩, ⟨nullary_bufs_sub .., rfl⟩, ⟨nullary_bufs_sub .., rfl⟩, ⟨nullary_bufs_sub .., rfl⟩, ⟨unaryIndexed_bufs_sub .., rfl⟩, ⟨nullary_bufs_sub .., rfl⟩, ⟨nullary_bufs_sub .., rfl⟩, ⟨nullary_bufs_sub .., rfl⟩, ⟨nullary_bufs_sub .., rfl⟩, ⟨unaryIndexed_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨binary_bufs_sub .., rfl⟩⟩
theorem tap20_ok : (tapOps20 (F := F)).Forall (fun op => op.bufs ⊆ tcRefs τ sig ∧ op.fresh = ∅) :=
  ⟨⟨nullary_bufs_sub .., rfl⟩, ⟨nullary_bufs_sub .., rfl⟩, ⟨nullary_bufs_sub .., rfl⟩, ⟨nullary_bufs_sub .., rfl⟩, ⟨unaryIndexed_bufs_sub .., rfl⟩, ⟨nullary_bufs_sub .., rfl⟩, ⟨nullary_bufs_sub .., rfl⟩, ⟨nullary_bufs_sub .., rfl⟩, ⟨nullary_bufs_sub .., rfl⟩, ⟨unaryIndexed_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨binary_bufs_sub .., rfl⟩⟩
theorem tap21_ok : (tapOps21 (F := F)).Forall (fun op => op.bufs ⊆ tcRefs τ sig ∧ op.fresh = ∅) :=
  ⟨⟨nullary_bufs_sub .., rfl⟩, ⟨nullary_bufs_sub .., rfl⟩, ⟨nullary_bufs_sub .., rfl⟩, ⟨nullary_bufs_sub .., rfl⟩, ⟨unaryIndexed_bufs_sub .., rfl⟩, ⟨nullary_bufs_sub .., rfl⟩, ⟨nullary_bufs_sub .., rfl⟩, ⟨nullary_bufs_sub .., rfl⟩, ⟨nullary_bufs_sub .., rfl⟩, ⟨unaryIndexed_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨binary_bufs_sub .., rfl⟩⟩
theorem tap22_ok : (tapOps22 (F := F)).Forall (fun op => op.bufs ⊆ tcRefs τ sig ∧ op.fresh = ∅) :=
  ⟨⟨nullary_bufs_sub .., rfl⟩, ⟨nullary_bufs_sub .., rfl⟩, ⟨nullary_bufs_sub .., rfl⟩, ⟨nullary_bufs_sub .., rfl⟩, ⟨unaryIndexed_bufs_sub .., rfl⟩, ⟨nullary_bufs_sub .., rfl⟩, ⟨nullary_bufs_sub .., rfl⟩, ⟨nullary_bufs_sub .., rfl⟩, ⟨nullary_bufs_sub .., rfl⟩, ⟨unaryIndexed_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨binary_bufs_sub .., rfl⟩⟩
theorem tap23_ok : (tapOps23 (F := F)).Forall (fun op => op.bufs ⊆ tcRefs τ sig ∧ op.fresh = ∅) :=
  ⟨⟨nullary_bufs_sub .., rfl⟩, ⟨nullary_bufs_sub .., rfl⟩, ⟨nullary_bufs_sub .., rfl⟩, ⟨nullary_bufs_sub .., rfl⟩, ⟨unaryIndexed_bufs_sub .., rfl⟩, ⟨nullary_bufs_sub .., rfl⟩, ⟨nullary_bufs_sub .., rfl⟩, ⟨nullary_bufs_sub .., rfl⟩, ⟨nullary_bufs_sub .., rfl⟩, ⟨unaryIndexed_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨binary_bufs_sub .., rfl⟩⟩
theorem tap24_ok : (tapOps24 (F := F)).Forall (fun op => op.bufs ⊆ tcRefs τ sig ∧ op.fresh = ∅) :=
  ⟨⟨nullary_bufs_sub .., rfl⟩, ⟨nullary_bufs_sub .., rfl⟩, ⟨nullary_bufs_sub .., rfl⟩, ⟨nullary_bufs_sub .., rfl⟩, ⟨unaryIndexed_bufs_sub .., rfl⟩, ⟨nullary_bufs_sub .., rfl⟩, ⟨nullary_bufs_sub .., rfl⟩, ⟨nullary_bufs_sub .., rfl⟩, ⟨nullary_bufs_sub .., rfl⟩, ⟨unaryIndexed_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨binary_bufs_sub .., rfl⟩⟩
theorem tail_ok : (tailOps (F := F)).Forall (fun op => op.bufs ⊆ tcRefs τ sig ∧ op.fresh = ∅) :=
  ⟨⟨nullary_bufs_sub .., rfl⟩, ⟨unary_bufs_sub .., rfl⟩, ⟨binary_bufs_sub .., rfl⟩, ⟨nullary_bufs_sub .., rfl⟩, ⟨unary_bufs_sub .., rfl⟩, ⟨ternary_bufs_sub .., rfl⟩, ⟨unary_bufs_sub .., rfl⟩, ⟨binary_bufs_sub .., rfl⟩⟩

/-- Every operation of the program touches only TensorCore buffers and leaves nothing undetermined. -/
theorem all_ok : (allOps (F := F)).Forall (fun op => op.bufs ⊆ tcRefs τ sig ∧ op.fresh = ∅) :=
  forall_append' head_ok (forall_append' tap0_ok (forall_append' tap1_ok (forall_append' tap2_ok (forall_append' tap3_ok (forall_append' tap4_ok (forall_append' tap5_ok (forall_append' tap6_ok (forall_append' tap7_ok (forall_append' tap8_ok (forall_append' tap9_ok (forall_append' tap10_ok (forall_append' tap11_ok (forall_append' tap12_ok (forall_append' tap13_ok (forall_append' tap14_ok (forall_append' tap15_ok (forall_append' tap16_ok (forall_append' tap17_ok (forall_append' tap18_ok (forall_append' tap19_ok (forall_append' tap20_ok (forall_append' tap21_ok (forall_append' tap22_ok (forall_append' tap23_ok (forall_append' tap24_ok (tail_ok))))))))))))))))))))))))))

theorem scopedRefs_eq : (Finset.univ.filter fun b : Ref sig .tc => b.isScoped) = ∅ := by decide
theorem scopedSems_eq : (Finset.univ.filter fun sm : SemLoc sig => sm.isScoped .tc) = ∅ := by decide

/-- At the compiled mesh, for any float values, from any memory with zero counters: every weakly fair execution of @main
    terminates, and every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (allOps (F := F)) (launchContents m c) (b : DevRef τ sig) :=
  run_seq scopedRefs_eq scopedSems_eq defs main (fun _ => allOps) main_eq
    (fun _ => List.forall_iff_forall_mem.mpr fun op hop => (List.forall_iff_forall_mem.mp all_ok op hop).1) m ρ
    (fun _ op hop => (List.forall_iff_forall_mem.mp all_ok op hop).2)

end Cert.RefSide

end
-- ==== Proof.RefTap.lean ====
/-
  One tap of the pooling, on whole arrays: the padded image and the padded mask sliced at the tap's offsets, the mask
  slice compared with the mask, the indicator of a match times the image slice added to the running sum, and the
  indicator added to the running count; and what each reads at a pixel.
-/
import proofs.«181392_j37838661878408_1_alg».proof.Proof.Gen.ReferenceIdeal
import proofs.«181392_j37838661878408_1_alg».proof.Proof.Spec
import Idealize.ShloMosaic.Lib.ValueIdx
import Idealize.ShloMosaic.Lib.ValueLayout
import Idealize.ShloMosaic.Lib.Pipeline.Value
import Idealize.ShloMosaic.Lib.DynamicIndex
import Idealize.ShloMosaic.Lib.IdealHost

noncomputable section

namespace Cert.RefSide

open Cert.ReferenceIdeal Cert.ReferenceIdeal.Gen Idealize.ShloMosaic Idealize.ShloMosaic.ValueIdx Cert.SelPool

section Arrays

variable {F : FTy → Type} [FloatOps F]

/-- The four start indices of a tap's slices: zero on the batch and channel axes, the tap's offsets on the image axes. -/
abbrev starts (oi oj : Nat) : Fin 4 → (⟨S_, .i32⟩ : BufTy).Contents (Elt F) :=
  ![constantI S_ 32 0#32, constantI S_ 32 0#32, constantI S_ 32 (BitVec.ofNat 32 oi), constantI S_ 32 (BitVec.ofNat 32 oj)]

/-- The padded image sliced at a tap's offsets. -/
def slX (oi oj : Nat) (P : (⟨S8x64x264x264, .f32⟩ : BufTy).Contents (Elt F)) : (⟨S8x64x256x256, .f32⟩ : BufTy).Contents (Elt F) :=
  Host.dynamicSlice S8x64x256x256 P (fun k => (starts (F := F) oi oj k (Shape.Idx.first h_S_)).toInt) sliceFits_S8x64x264x264_S8x64x256x256

/-- The padded mask sliced at a tap's offsets. -/
def slM (oi oj : Nat) (Q : (⟨S8x1x264x264, .f32⟩ : BufTy).Contents (Elt F)) : (⟨S8x1x256x256, .f32⟩ : BufTy).Contents (Elt F) :=
  Host.dynamicSlice S8x1x256x256 Q (fun k => (starts (F := F) oi oj k (Shape.Idx.first h_S_)).toInt) sliceFits_S8x1x264x264_S8x1x256x256

/-- The indicator of a match at a tap: one where the mask slice equals the mask, zero elsewhere. -/
def tapInd (oi oj : Nat) (Q : (⟨S8x1x264x264, .f32⟩ : BufTy).Contents (Elt F)) (Mk : (⟨S8x1x256x256, .f32⟩ : BufTy).Contents (Elt F)) :
    (⟨S8x1x256x256, .f32⟩ : BufTy).Contents (Elt F) :=
  uitofp .f32 (cmpf .oeq (slM oi oj Q) Mk)

/-- The running sum after a tap. -/
def tapAcc (oi oj : Nat) (P : (⟨S8x64x264x264, .f32⟩ : BufTy).Contents (Elt F)) (Q : (⟨S8x1x264x264, .f32⟩ : BufTy).Contents (Elt F))
    (Mk : (⟨S8x1x256x256, .f32⟩ : BufTy).Contents (Elt F)) (a : (⟨S8x64x256x256, .f32⟩ : BufTy).Contents (Elt F)) :
    (⟨S8x64x256x256, .f32⟩ : BufTy).Contents (Elt F) :=
  addf a (mulf (broadcastInDim S8x64x256x256 ![0, 1, 2, 3] bcast_S8x1x256x256_S8x64x256x256_0_1_2_3 (tapInd oi oj Q Mk)) (slX oi oj P))

/-- The running count after a tap. -/
def tapCnt (oi oj : Nat) (Q : (⟨S8x1x264x264, .f32⟩ : BufTy).Contents (Elt F)) (Mk : (⟨S8x1x256x256, .f32⟩ : BufTy).Contents (Elt F))
    (c : (⟨S8x1x256x256, .f32⟩ : BufTy).Contents (Elt F)) : (⟨S8x1x256x256, .f32⟩ : BufTy).Contents (Elt F) :=
  addf c (tapInd oi oj Q Mk)

end Arrays

/-! ## At a pixel -/

/-- A start index that is a small number reads, signed, as that number. -/
theorem start_toInt (oi oj : Nat) (hi : oi ≤ 8) (hj : oj ≤ 8) (a : Fin 4) :
    (starts (F := Ideal) oi oj a (Shape.Idx.first h_S_)).toInt = ((![0, 0, oi, oj] : Fin 4 → Nat) a : Int) := by
  match a with
  | ⟨0, _⟩ => exact toInt_ofNat_of_lt (k := 0) (by omega)
  | ⟨1, _⟩ => exact toInt_ofNat_of_lt (k := 0) (by omega)
  | ⟨2, _⟩ => exact toInt_ofNat_of_lt (k := oi) (by omega)
  | ⟨3, _⟩ => exact toInt_ofNat_of_lt (k := oj) (by omega)

theorem slicesX (oi oj : Nat) (hi : oi ≤ 8) (hj : oj ≤ 8) : S8x64x264x264.Slices ![0, 0, oi, oj] S8x64x256x256 :=
  ⟨rfl, fun a => by
    match a with
    | ⟨0, _⟩ => show 0 + 8 ≤ 8; omega
    | ⟨1, _⟩ => show 0 + 64 ≤ 64; omega
    | ⟨2, _⟩ => show oi + 256 ≤ 264; omega
    | ⟨3, _⟩ => show oj + 256 ≤ 264; omega⟩

theorem slicesM (oi oj : Nat) (hi : oi ≤ 8) (hj : oj ≤ 8) : S8x1x264x264.Slices ![0, 0, oi, oj] S8x1x256x256 :=
  ⟨rfl, fun a => by
    match a with
    | ⟨0, _⟩ => show 0 + 8 ≤ 8; omega
    | ⟨1, _⟩ => show 0 + 1 ≤ 1; omega
    | ⟨2, _⟩ => show oi + 256 ≤ 264; omega
    | ⟨3, _⟩ => show oj + 256 ≤ 264; omega⟩

/-- The image slice at a pixel is the padded image at the pixel moved by the offsets. -/
theorem slX_apply (oi oj : Nat) (hi : oi ≤ 8) (hj : oj ≤ 8) (P : SXP.Idx → EReal) (b : Fin 8) (ch : Fin 64) (r c : Fin 256) :
    slX (F := Ideal) oi oj P (ix4 b ch r c) = P (ix4 b ch (shift r oi hi) (shift c oj hj)) := by
  unfold slX
  rw [Host.dynamicSlice_eq_extractStridedSlice S8x64x256x256 P _ ![0, 0, oi, oj] _ (slicesX oi oj hi hj) (start_toInt oi oj hi hj)]
  refine extractStridedSlice_apply _ _ _ _ _ (fun a => ?_)
  match a with
  | ⟨0, _⟩ => show b.val = 0 + b.val; omega
  | ⟨1, _⟩ => show ch.val = 0 + ch.val; omega
  | ⟨2, _⟩ => show r.val + oi = oi + r.val; omega
  | ⟨3, _⟩ => show c.val + oj = oj + c.val; omega

/-- The mask slice at a pixel is the padded mask at the pixel moved by the offsets. -/
theorem slM_apply (oi oj : Nat) (hi : oi ≤ 8) (hj : oj ≤ 8) (Q : SMP.Idx → EReal) (b : Fin 8) (r c : Fin 256) :
    slM (F := Ideal) oi oj Q (ix4 b (0 : Fin 1) r c) = Q (ix4 b (0 : Fin 1) (shift r oi hi) (shift c oj hj)) := by
  unfold slM
  rw [Host.dynamicSlice_eq_extractStridedSlice S8x1x256x256 Q _ ![0, 0, oi, oj] _ (slicesM oi oj hi hj) (start_toInt oi oj hi hj)]
  refine extractStridedSlice_apply _ _ _ _ _ (fun a => ?_)
  match a with
  | ⟨0, _⟩ => show b.val = 0 + b.val; omega
  | ⟨1, _⟩ => show (0 : Fin 1).val = 0 + (0 : Fin 1).val; omega
  | ⟨2, _⟩ => show r.val + oi = oi + r.val; omega
  | ⟨3, _⟩ => show c.val + oj = oj + c.val; omega

/-- The indicator at a pixel is the specification's. -/
theorem tapInd_apply (oi oj : Nat) (hi : oi ≤ 8) (hj : oj ≤ 8) (Q : SMP.Idx → EReal) (Mk : SM.Idx → EReal) (b : Fin 8) (r c : Fin 256) :
    tapInd (F := Ideal) oi oj Q Mk (ix4 b (0 : Fin 1) r c) = tapHit Q Mk b r c oi oj hi hj := by
  unfold tapInd tapHit hit
  show (((FloatOps.cmpf (F := Ideal) .oeq (slM (F := Ideal) oi oj Q (ix4 b (0 : Fin 1) r c)) (Mk (ix4 b (0 : Fin 1) r c))).toNat : ℝ) : EReal) = _
  rw [slM_apply oi oj hi hj]
  rfl

/-- A mask-shaped array broadcast along the channels reads, at a pixel, the array at channel zero. -/
theorem bcastCh_apply (x : SM.Idx → EReal) (b : Fin 8) (ch : Fin 64) (r c : Fin 256) :
    broadcastInDim S8x64x256x256 ![0, 1, 2, 3] bcast_S8x1x256x256_S8x64x256x256_0_1_2_3 x (ix4 b ch r c) = x (ix4 b (0 : Fin 1) r c) :=
  broadcastInDim_apply _ _ _ _ _ (fun a => match a with | ⟨0, _⟩ => rfl | ⟨1, _⟩ => rfl | ⟨2, _⟩ => rfl | ⟨3, _⟩ => rfl)

/-- The running sum after a tap, at a pixel: the sum before plus the tap's contribution. -/
theorem tapAcc_apply (oi oj : Nat) (hi : oi ≤ 8) (hj : oj ≤ 8) (P : SXP.Idx → EReal) (Q : SMP.Idx → EReal) (Mk : SM.Idx → EReal)
    (a : SX.Idx → EReal) (b : Fin 8) (ch : Fin 64) (r c : Fin 256) :
    tapAcc (F := Ideal) oi oj P Q Mk a (ix4 b ch r c) = a (ix4 b ch r c) + tapVal P Q Mk b ch r c oi oj hi hj := by
  unfold tapAcc tapVal
  rw [addf_apply, mulf_apply, bcastCh_apply, tapInd_apply oi oj hi hj, slX_apply oi oj hi hj]

/-- The running count after a tap, at a pixel: the count before plus the tap's indicator. -/
theorem tapCnt_apply (oi oj : Nat) (hi : oi ≤ 8) (hj : oj ≤ 8) (Q : SMP.Idx → EReal) (Mk : SM.Idx → EReal)
    (cn : SM.Idx → EReal) (b : Fin 8) (r c : Fin 256) :
    tapCnt (F := Ideal) oi oj Q Mk cn (ix4 b (0 : Fin 1) r c) = cn (ix4 b (0 : Fin 1) r c) + tapHit Q Mk b r c oi oj hi hj := by
  unfold tapCnt
  rw [addf_apply, tapInd_apply oi oj hi hj]

end Cert.RefSide

end
-- ==== Proof.RefStep0.lean ====
/-
  Each stretch of the reference program's operations read from arbitrary buffer contents: what it leaves in the buffers
  the later stretches read.
-/
import proofs.«181392_j37838661878408_1_alg».proof.Proof.RefOps
import proofs.«181392_j37838661878408_1_alg».proof.Proof.RefTap

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

section Results

variable {nD' : Nat} {τ' : Topo} {sig' : RefSig} {Val : EltTy → Type}

/-- A slice at four start indices held in four literal buffers: the result with each start's contents at its own buffer. -/
theorem unaryIndexed4_result (a c1 c2 c3 c4 y : Ref sig' .tc) (T : BufTy)
    (f : a.ty.Contents Val → (Fin 4 → T.Contents Val) → y.ty.Contents Val) (hT ha hix hy) (V : Valuation τ' sig' Val) :
    (unaryIndexed (τ := τ') a ![c1, c2, c3, c4] T y f hT ha hix hy).result V (Proc.devRef .tc y)
      = f (V (Proc.devRef .tc a))
          ![cast (congrArg (fun U : BufTy => U.Contents Val) (hT 0)) (V (Proc.devRef .tc c1)),
            cast (congrArg (fun U : BufTy => U.Contents Val) (hT 1)) (V (Proc.devRef .tc c2)),
            cast (congrArg (fun U : BufTy => U.Contents Val) (hT 2)) (V (Proc.devRef .tc c3)),
            cast (congrArg (fun U : BufTy => U.Contents Val) (hT 3)) (V (Proc.devRef .tc c4))] := by
  rw [unaryIndexed_result]; congr 1; funext k; fin_cases k <;> rfl

end Results

section Simp
variable {τ' : Topo} {sig' : RefSig} {Val : EltTy → Type}
theorem unaryIndexed4_result' (a c1 c2 c3 c4 y : Ref sig' .tc) (T : BufTy)
    (f : a.ty.Contents Val → (Fin 4 → T.Contents Val) → y.ty.Contents Val) (hT ha hix hy) (V : Valuation τ' sig' Val) :
    (unaryIndexed (τ := τ') a ![c1, c2, c3, c4] T y f hT ha hix hy).result V (no_index (Proc.devRef .tc y))
      = f (V (Proc.devRef .tc a))
          ![cast (congrArg (fun U : BufTy => U.Contents Val) (hT 0)) (V (Proc.devRef .tc c1)),
            cast (congrArg (fun U : BufTy => U.Contents Val) (hT 1)) (V (Proc.devRef .tc c2)),
            cast (congrArg (fun U : BufTy => U.Contents Val) (hT 2)) (V (Proc.devRef .tc c3)),
            cast (congrArg (fun U : BufTy => U.Contents Val) (hT 3)) (V (Proc.devRef .tc c4))] :=
  unaryIndexed4_result a c1 c2 c3 c4 y T f hT ha hix hy V
end Simp

/-- Reads a buffer after a literal stretch of operations, in one pass: each operation's result at its own buffer is its
    function's value, at any other buffer what was there. -/
macro "stretch_results" : tactic =>
  `(tactic| (simp (disch := decide) only [after_cons, after_nil,
      nullary_result', unary_result', binary_result', ternary_result', unaryIndexed4_result',
      nullary_result_ne', unary_result_ne', binary_result_ne', ternary_result_ne', unaryIndexed_result_ne']))

end Cert.RefSide

end
-- ==== Proof.RefStepA.lean ====
/-
  The taps' stretches read from arbitrary buffer contents: after a tap's sixteen operations the running sum and count
  have moved on by that tap, and the padded arrays and the arguments are as before.
-/
import proofs.«181392_j37838661878408_1_alg».proof.Proof.RefStep0

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 1000000 in
/-- Tap 0, offsets (0, 0): the running sum and count move on by the tap; the padded arrays and the arguments stay. -/
theorem tap0_step (W : Valuation τ sig (Elt F)) :
    after (tapOps0 (F := F)) W (Proc.devRef .tc main_v10) = tapAcc 0 0 (W (Proc.devRef .tc main_v0)) (W (Proc.devRef .tc main_v1)) (W (Proc.devRef .tc main_arg1)) (W (Proc.devRef .tc main_v2))
    ∧ after (tapOps0 (F := F)) W (Proc.devRef .tc main_v11) = tapCnt 0 0 (W (Proc.devRef .tc main_v1)) (W (Proc.devRef .tc main_arg1)) (W (Proc.devRef .tc main_v3))
    ∧ after (tapOps0 (F := F)) W (Proc.devRef .tc main_v0) = W (Proc.devRef .tc main_v0)
    ∧ after (tapOps0 (F := F)) W (Proc.devRef .tc main_v1) = W (Proc.devRef .tc main_v1)
    ∧ after (tapOps0 (F := F)) W (Proc.devRef .tc main_arg0) = W (Proc.devRef .tc main_arg0)
    ∧ after (tapOps0 (F := F)) W (Proc.devRef .tc main_arg1) = W (Proc.devRef .tc main_arg1) := by
  refine ⟨?_, ?_, ?_, ?_, ?_, ?_⟩
  · stretch_results; rfl
  · stretch_results; rfl
  · stretch_results
  · stretch_results
  · stretch_results
  · stretch_results
theorem tap0_acc (W : Valuation τ sig (Elt F)) :
    after (tapOps0 (F := F)) W (Proc.devRef .tc main_v10) = tapAcc 0 0 (W (Proc.devRef .tc main_v0)) (W (Proc.devRef .tc main_v1)) (W (Proc.devRef .tc main_arg1)) (W (Proc.devRef .tc main_v2)) := (tap0_step W).1
theorem tap0_cnt (W : Valuation τ sig (Elt F)) :
    after (tapOps0 (F := F)) W (Proc.devRef .tc main_v11) = tapCnt 0 0 (W (Proc.devRef .tc main_v1)) (W (Proc.devRef .tc main_arg1)) (W (Proc.devRef .tc main_v3)) := (tap0_step W).2.1
theorem tap0_v0 (W : Valuation τ sig (Elt F)) :
    after (tapOps0 (F := F)) W (Proc.devRef .tc main_v0) = W (Proc.devRef .tc main_v0) := (tap0_step W).2.2.1
theorem tap0_v1 (W : Valuation τ sig (Elt F)) :
    after (tapOps0 (F := F)) W (Proc.devRef .tc main_v1) = W (Proc.devRef .tc main_v1) := (tap0_step W).2.2.2.1
theorem tap0_a0 (W : Valuation τ sig (Elt F)) :
    after (tapOps0 (F := F)) W (Proc.devRef .tc main_arg0) = W (Proc.devRef .tc main_arg0) := (tap0_step W).2.2.2.2.1
theorem tap0_a1 (W : Valuation τ sig (Elt F)) :
    after (tapOps0 (F := F)) W (Proc.devRef .tc main_arg1) = W (Proc.devRef .tc main_arg1) := (tap0_step W).2.2.2.2.2

set_option maxHeartbeats 1000000 in
/-- Tap 1, offsets (0, 2): the running sum and count move on by the tap; the padded arrays and the arguments stay. -/
theorem tap1_step (W : Valuation τ sig (Elt F)) :
    after (tapOps1 (F := F)) W (Proc.devRef .tc main_v18) = tapAcc 0 2 (W (Proc.devRef .tc main_v0)) (W (Proc.devRef .tc main_v1)) (W (Proc.devRef .tc main_arg1)) (W (Proc.devRef .tc main_v10))
    ∧ after (tapOps1 (F := F)) W (Proc.devRef .tc main_v19) = tapCnt 0 2 (W (Proc.devRef .tc main_v1)) (W (Proc.devRef .tc main_arg1)) (W (Proc.devRef .tc main_v11))
    ∧ after (tapOps1 (F := F)) W (Proc.devRef .tc main_v0) = W (Proc.devRef .tc main_v0)
    ∧ after (tapOps1 (F := F)) W (Proc.devRef .tc main_v1) = W (Proc.devRef .tc main_v1)
    ∧ after (tapOps1 (F := F)) W (Proc.devRef .tc main_arg0) = W (Proc.devRef .tc main_arg0)
    ∧ after (tapOps1 (F := F)) W (Proc.devRef .tc main_arg1) = W (Proc.devRef .tc main_arg1) := by
  refine ⟨?_, ?_, ?_, ?_, ?_, ?_⟩
  · stretch_results; rfl
  · stretch_results; rfl
  · stretch_results
  · stretch_results
  · stretch_results
  · stretch_results
theorem tap1_acc (W : Valuation τ sig (Elt F)) :
    after (tapOps1 (F := F)) W (Proc.devRef .tc main_v18) = tapAcc 0 2 (W (Proc.devRef .tc main_v0)) (W (Proc.devRef .tc main_v1)) (W (Proc.devRef .tc main_arg1)) (W (Proc.devRef .tc main_v10)) := (tap1_step W).1
theorem tap1_cnt (W : Valuation τ sig (Elt F)) :
    after (tapOps1 (F := F)) W (Proc.devRef .tc main_v19) = tapCnt 0 2 (W (Proc.devRef .tc main_v1)) (W (Proc.devRef .tc main_arg1)) (W (Proc.devRef .tc main_v11)) := (tap1_step W).2.1
theorem tap1_v0 (W : Valuation τ sig (Elt F)) :
    after (tapOps1 (F := F)) W (Proc.devRef .tc main_v0) = W (Proc.devRef .tc main_v0) := (tap1_step W).2.2.1
theorem tap1_v1 (W : Valuation τ sig (Elt F)) :
    after (tapOps1 (F := F)) W (Proc.devRef .tc main_v1) = W (Proc.devRef .tc main_v1) := (tap1_step W).2.2.2.1
theorem tap1_a0 (W : Valuation τ sig (Elt F)) :
    after (tapOps1 (F := F)) W (Proc.devRef .tc main_arg0) = W (Proc.devRef .tc main_arg0) := (tap1_step W).2.2.2.2.1
theorem tap1_a1 (W : Valuation τ sig (Elt F)) :
    after (tapOps1 (F := F)) W (Proc.devRef .tc main_arg1) = W (Proc.devRef .tc main_arg1) := (tap1_step W).2.2.2.2.2

set_option maxHeartbeats 1000000 in
/-- Tap 2, offsets (0, 4): the running sum and count move on by the tap; the padded arrays and the arguments stay. -/
theorem tap2_step (W : Valuation τ sig (Elt F)) :
    after (tapOps2 (F := F)) W (Proc.devRef .tc main_v26) = tapAcc 0 4 (W (Proc.devRef .tc main_v0)) (W (Proc.devRef .tc main_v1)) (W (Proc.devRef .tc main_arg1)) (W (Proc.devRef .tc main_v18))
    ∧ after (tapOps2 (F := F)) W (Proc.devRef .tc main_v27) = tapCnt 0 4 (W (Proc.devRef .tc main_v1)) (W (Proc.devRef .tc main_arg1)) (W (Proc.devRef .tc main_v19))
    ∧ after (tapOps2 (F := F)) W (Proc.devRef .tc main_v0) = W (Proc.devRef .tc main_v0)
    ∧ after (tapOps2 (F := F)) W (Proc.devRef .tc main_v1) = W (Proc.devRef .tc main_v1)
    ∧ after (tapOps2 (F := F)) W (Proc.devRef .tc main_arg0) = W (Proc.devRef .tc main_arg0)
    ∧ after (tapOps2 (F := F)) W (Proc.devRef .tc main_arg1) = W (Proc.devRef .tc main_arg1) := by
  refine ⟨?_, ?_, ?_, ?_, ?_, ?_⟩
  · stretch_results; rfl
  · stretch_results; rfl
  · stretch_results
  · stretch_results
  · stretch_results
  · stretch_results
theorem tap2_acc (W : Valuation τ sig (Elt F)) :
    after (tapOps2 (F := F)) W (Proc.devRef .tc main_v26) = tapAcc 0 4 (W (Proc.devRef .tc main_v0)) (W (Proc.devRef .tc main_v1)) (W (Proc.devRef .tc main_arg1)) (W (Proc.devRef .tc main_v18)) := (tap2_step W).1
theorem tap2_cnt (W : Valuation τ sig (Elt F)) :
    after (tapOps2 (F := F)) W (Proc.devRef .tc main_v27) = tapCnt 0 4 (W (Proc.devRef .tc main_v1)) (W (Proc.devRef .tc main_arg1)) (W (Proc.devRef .tc main_v19)) := (tap2_step W).2.1
theorem tap2_v0 (W : Valuation τ sig (Elt F)) :
    after (tapOps2 (F := F)) W (Proc.devRef .tc main_v0) = W (Proc.devRef .tc main_v0) := (tap2_step W).2.2.1
theorem tap2_v1 (W : Valuation τ sig (Elt F)) :
    after (tapOps2 (F := F)) W (Proc.devRef .tc main_v1) = W (Proc.devRef .tc main_v1) := (tap2_step W).2.2.2.1
theorem tap2_a0 (W : Valuation τ sig (Elt F)) :
    after (tapOps2 (F := F)) W (Proc.devRef .tc main_arg0) = W (Proc.devRef .tc main_arg0) := (tap2_step W).2.2.2.2.1
theorem tap2_a1 (W : Valuation τ sig (Elt F)) :
    after (tapOps2 (F := F)) W (Proc.devRef .tc main_arg1) = W (Proc.devRef .tc main_arg1) := (tap2_step W).2.2.2.2.2

set_option maxHeartbeats 1000000 in
/-- Tap 3, offsets (0, 6): the running sum and count move on by the tap; the padded arrays and the arguments stay. -/
theorem tap3_step (W : Valuation τ sig (Elt F)) :
    after (tapOps3 (F := F)) W (Proc.devRef .tc main_v34) = tapAcc 0 6 (W (Proc.devRef .tc main_v0)) (W (Proc.devRef .tc main_v1)) (W (Proc.devRef .tc main_arg1)) (W (Proc.devRef .tc main_v26))
    ∧ after (tapOps3 (F := F)) W (Proc.devRef .tc main_v35) = tapCnt 0 6 (W (Proc.devRef .tc main_v1)) (W (Proc.devRef .tc main_arg1)) (W (Proc.devRef .tc main_v27))
    ∧ after (tapOps3 (F := F)) W (Proc.devRef .tc main_v0) = W (Proc.devRef .tc main_v0)
    ∧ after (tapOps3 (F := F)) W (Proc.devRef .tc main_v1) = W (Proc.devRef .tc main_v1)
    ∧ after (tapOps3 (F := F)) W (Proc.devRef .tc main_arg0) = W (Proc.devRef .tc main_arg0)
    ∧ after (tapOps3 (F := F)) W (Proc.devRef .tc main_arg1) = W (Proc.devRef .tc main_arg1) := by
  refine ⟨?_, ?_, ?_, ?_, ?_, ?_⟩
  · stretch_results; rfl
  · stretch_results; rfl
  · stretch_results
  · stretch_results
  · stretch_results
  · stretch_results
theorem tap3_acc (W : Valuation τ sig (Elt F)) :
    after (tapOps3 (F := F)) W (Proc.devRef .tc main_v34) = tapAcc 0 6 (W (Proc.devRef .tc main_v0)) (W (Proc.devRef .tc main_v1)) (W (Proc.devRef .tc main_arg1)) (W (Proc.devRef .tc main_v26)) := (tap3_step W).1
theorem tap3_cnt (W : Valuation τ sig (Elt F)) :
    after (tapOps3 (F := F)) W (Proc.devRef .tc main_v35) = tapCnt 0 6 (W (Proc.devRef .tc main_v1)) (W (Proc.devRef .tc main_arg1)) (W (Proc.devRef .tc main_v27)) := (tap3_step W).2.1
theorem tap3_v0 (W : Valuation τ sig (Elt F)) :
    after (tapOps3 (F := F)) W (Proc.devRef .tc main_v0) = W (Proc.devRef .tc main_v0) := (tap3_step W).2.2.1
theorem tap3_v1 (W : Valuation τ sig (Elt F)) :
    after (tapOps3 (F := F)) W (Proc.devRef .tc main_v1) = W (Proc.devRef .tc main_v1) := (tap3_step W).2.2.2.1
theorem tap3_a0 (W : Valuation τ sig (Elt F)) :
    after (tapOps3 (F := F)) W (Proc.devRef .tc main_arg0) = W (Proc.devRef .tc main_arg0) := (tap3_step W).2.2.2.2.1
theorem tap3_a1 (W : Valuation τ sig (Elt F)) :
    after (tapOps3 (F := F)) W (Proc.devRef .tc main_arg1) = W (Proc.devRef .tc main_arg1) := (tap3_step W).2.2.2.2.2

set_option maxHeartbeats 1000000 in
/-- Tap 4, offsets (0, 8): the running sum and count move on by the tap; the padded arrays and the arguments stay. -/
theorem tap4_step (W : Valuation τ sig (Elt F)) :
    after (tapOps4 (F := F)) W (Proc.devRef .tc main_v42) = tapAcc 0 8 (W (Proc.devRef .tc main_v0)) (W (Proc.devRef .tc main_v1)) (W (Proc.devRef .tc main_arg1)) (W (Proc.devRef .tc main_v34))
    ∧ after (tapOps4 (F := F)) W (Proc.devRef .tc main_v43) = tapCnt 0 8 (W (Proc.devRef .tc main_v1)) (W (Proc.devRef .tc main_arg1)) (W (Proc.devRef .tc main_v35))
    ∧ after (tapOps4 (F := F)) W (Proc.devRef .tc main_v0) = W (Proc.devRef .tc main_v0)
    ∧ after (tapOps4 (F := F)) W (Proc.devRef .tc main_v1) = W (Proc.devRef .tc main_v1)
    ∧ after (tapOps4 (F := F)) W (Proc.devRef .tc main_arg0) = W (Proc.devRef .tc main_arg0)
    ∧ after (tapOps4 (F := F)) W (Proc.devRef .tc main_arg1) = W (Proc.devRef .tc main_arg1) := by
  refine ⟨?_, ?_, ?_, ?_, ?_, ?_⟩
  · stretch_results; rfl
  · stretch_results; rfl
  · stretch_results
  · stretch_results
  · stretch_results
  · stretch_results
theorem tap4_acc (W : Valuation τ sig (Elt F)) :
    after (tapOps4 (F := F)) W (Proc.devRef .tc main_v42) = tapAcc 0 8 (W (Proc.devRef .tc main_v0)) (W (Proc.devRef .tc main_v1)) (W (Proc.devRef .tc main_arg1)) (W (Proc.devRef .tc main_v34)) := (tap4_step W).1
theorem tap4_cnt (W : Valuation τ sig (Elt F)) :
    after (tapOps4 (F := F)) W (Proc.devRef .tc main_v43) = tapCnt 0 8 (W (Proc.devRef .tc main_v1)) (W (Proc.devRef .tc main_arg1)) (W (Proc.devRef .tc main_v35)) := (tap4_step W).2.1
theorem tap4_v0 (W : Valuation τ sig (Elt F)) :
    after (tapOps4 (F := F)) W (Proc.devRef .tc main_v0) = W (Proc.devRef .tc main_v0) := (tap4_step W).2.2.1
theorem tap4_v1 (W : Valuation τ sig (Elt F)) :
    after (tapOps4 (F := F)) W (Proc.devRef .tc main_v1) = W (Proc.devRef .tc main_v1) := (tap4_step W).2.2.2.1
theorem tap4_a0 (W : Valuation τ sig (Elt F)) :
    after (tapOps4 (F := F)) W (Proc.devRef .tc main_arg0) = W (Proc.devRef .tc main_arg0) := (tap4_step W).2.2.2.2.1
theorem tap4_a1 (W : Valuation τ sig (Elt F)) :
    after (tapOps4 (F := F)) W (Proc.devRef .tc main_arg1) = W (Proc.devRef .tc main_arg1) := (tap4_step W).2.2.2.2.2

set_option maxHeartbeats 1000000 in
/-- Tap 5, offsets (2, 0): the running sum and count move on by the tap; the padded arrays and the arguments stay. -/
theorem tap5_step (W : Valuation τ sig (Elt F)) :
    after (tapOps5 (F := F)) W (Proc.devRef .tc main_v50) = tapAcc 2 0 (W (Proc.devRef .tc main_v0)) (W (Proc.devRef .tc main_v1)) (W (Proc.devRef .tc main_arg1)) (W (Proc.devRef .tc main_v42))
    ∧ after (tapOps5 (F := F)) W (Proc.devRef .tc main_v51) = tapCnt 2 0 (W (Proc.devRef .tc main_v1)) (W (Proc.devRef .tc main_arg1)) (W (Proc.devRef .tc main_v43))
    ∧ after (tapOps5 (F := F)) W (Proc.devRef .tc main_v0) = W (Proc.devRef .tc main_v0)
    ∧ after (tapOps5 (F := F)) W (Proc.devRef .tc main_v1) = W (Proc.devRef .tc main_v1)
    ∧ after (tapOps5 (F := F)) W (Proc.devRef .tc main_arg0) = W (Proc.devRef .tc main_arg0)
    ∧ after (tapOps5 (F := F)) W (Proc.devRef .tc main_arg1) = W (Proc.devRef .tc main_arg1) := by
  refine ⟨?_, ?_, ?_, ?_, ?_, ?_⟩
  · stretch_results; rfl
  · stretch_results; rfl
  · stretch_results
  · stretch_results
  · stretch_results
  · stretch_results
theorem tap5_acc (W : Valuation τ sig (Elt F)) :
    after (tapOps5 (F := F)) W (Proc.devRef .tc main_v50) = tapAcc 2 0 (W (Proc.devRef .tc main_v0)) (W (Proc.devRef .tc main_v1)) (W (Proc.devRef .tc main_arg1)) (W (Proc.devRef .tc main_v42)) := (tap5_step W).1
theorem tap5_cnt (W : Valuation τ sig (Elt F)) :
    after (tapOps5 (F := F)) W (Proc.devRef .tc main_v51) = tapCnt 2 0 (W (Proc.devRef .tc main_v1)) (W (Proc.devRef .tc main_arg1)) (W (Proc.devRef .tc main_v43)) := (tap5_step W).2.1
theorem tap5_v0 (W : Valuation τ sig (Elt F)) :
    after (tapOps5 (F := F)) W (Proc.devRef .tc main_v0) = W (Proc.devRef .tc main_v0) := (tap5_step W).2.2.1
theorem tap5_v1 (W : Valuation τ sig (Elt F)) :
    after (tapOps5 (F := F)) W (Proc.devRef .tc main_v1) = W (Proc.devRef .tc main_v1) := (tap5_step W).2.2.2.1
theorem tap5_a0 (W : Valuation τ sig (Elt F)) :
    after (tapOps5 (F := F)) W (Proc.devRef .tc main_arg0) = W (Proc.devRef .tc main_arg0) := (tap5_step W).2.2.2.2.1
theorem tap5_a1 (W : Valuation τ sig (Elt F)) :
    after (tapOps5 (F := F)) W (Proc.devRef .tc main_arg1) = W (Proc.devRef .tc main_arg1) := (tap5_step W).2.2.2.2.2

set_option maxHeartbeats 1000000 in
/-- Tap 6, offsets (2, 2): the running sum and count move on by the tap; the padded arrays and the arguments stay. -/
theorem tap6_step (W : Valuation τ sig (Elt F)) :
    after (tapOps6 (F := F)) W (Proc.devRef .tc main_v58) = tapAcc 2 2 (W (Proc.devRef .tc main_v0)) (W (Proc.devRef .tc main_v1)) (W (Proc.devRef .tc main_arg1)) (W (Proc.devRef .tc main_v50))
    ∧ after (tapOps6 (F := F)) W (Proc.devRef .tc main_v59) = tapCnt 2 2 (W (Proc.devRef .tc main_v1)) (W (Proc.devRef .tc main_arg1)) (W (Proc.devRef .tc main_v51))
    ∧ after (tapOps6 (F := F)) W (Proc.devRef .tc main_v0) = W (Proc.devRef .tc main_v0)
    ∧ after (tapOps6 (F := F)) W (Proc.devRef .tc main_v1) = W (Proc.devRef .tc main_v1)
    ∧ after (tapOps6 (F := F)) W (Proc.devRef .tc main_arg0) = W (Proc.devRef .tc main_arg0)
    ∧ after (tapOps6 (F := F)) W (Proc.devRef .tc main_arg1) = W (Proc.devRef .tc main_arg1) := by
  refine ⟨?_, ?_, ?_, ?_, ?_, ?_⟩
  · stretch_results; rfl
  · stretch_results; rfl
  · stretch_results
  · stretch_results
  · stretch_results
  · stretch_results
theorem tap6_acc (W : Valuation τ sig (Elt F)) :
    after (tapOps6 (F := F)) W (Proc.devRef .tc main_v58) = tapAcc 2 2 (W (Proc.devRef .tc main_v0)) (W (Proc.devRef .tc main_v1)) (W (Proc.devRef .tc main_arg1)) (W (Proc.devRef .tc main_v50)) := (tap6_step W).1
theorem tap6_cnt (W : Valuation τ sig (Elt F)) :
    after (tapOps6 (F := F)) W (Proc.devRef .tc main_v59) = tapCnt 2 2 (W (Proc.devRef .tc main_v1)) (W (Proc.devRef .tc main_arg1)) (W (Proc.devRef .tc main_v51)) := (tap6_step W).2.1
theorem tap6_v0 (W : Valuation τ sig (Elt F)) :
    after (tapOps6 (F := F)) W (Proc.devRef .tc main_v0) = W (Proc.devRef .tc main_v0) := (tap6_step W).2.2.1
theorem tap6_v1 (W : Valuation τ sig (Elt F)) :
    after (tapOps6 (F := F)) W (Proc.devRef .tc main_v1) = W (Proc.devRef .tc main_v1) := (tap6_step W).2.2.2.1
theorem tap6_a0 (W : Valuation τ sig (Elt F)) :
    after (tapOps6 (F := F)) W (Proc.devRef .tc main_arg0) = W (Proc.devRef .tc main_arg0) := (tap6_step W).2.2.2.2.1
theorem tap6_a1 (W : Valuation τ sig (Elt F)) :
    after (tapOps6 (F := F)) W (Proc.devRef .tc main_arg1) = W (Proc.devRef .tc main_arg1) := (tap6_step W).2.2.2.2.2

set_option maxHeartbeats 1000000 in
/-- Tap 7, offsets (2, 4): the running sum and count move on by the tap; the padded arrays and the arguments stay. -/
theorem tap7_step (W : Valuation τ sig (Elt F)) :
    after (tapOps7 (F := F)) W (Proc.devRef .tc main_v66) = tapAcc 2 4 (W (Proc.devRef .tc main_v0)) (W (Proc.devRef .tc main_v1)) (W (Proc.devRef .tc main_arg1)) (W (Proc.devRef .tc main_v58))
    ∧ after (tapOps7 (F := F)) W (Proc.devRef .tc main_v67) = tapCnt 2 4 (W (Proc.devRef .tc main_v1)) (W (Proc.devRef .tc main_arg1)) (W (Proc.devRef .tc main_v59))
    ∧ after (tapOps7 (F := F)) W (Proc.devRef .tc main_v0) = W (Proc.devRef .tc main_v0)
    ∧ after (tapOps7 (F := F)) W (Proc.devRef .tc main_v1) = W (Proc.devRef .tc main_v1)
    ∧ after (tapOps7 (F := F)) W (Proc.devRef .tc main_arg0) = W (Proc.devRef .tc main_arg0)
    ∧ after (tapOps7 (F := F)) W (Proc.devRef .tc main_arg1) = W (Proc.devRef .tc main_arg1) := by
  refine ⟨?_, ?_, ?_, ?_, ?_, ?_⟩
  · stretch_results; rfl
  · stretch_results; rfl
  · stretch_results
  · stretch_results
  · stretch_results
  · stretch_results
theorem tap7_acc (W : Valuation τ sig (Elt F)) :
    after (tapOps7 (F := F)) W (Proc.devRef .tc main_v66) = tapAcc 2 4 (W (Proc.devRef .tc main_v0)) (W (Proc.devRef .tc main_v1)) (W (Proc.devRef .tc main_arg1)) (W (Proc.devRef .tc main_v58)) := (tap7_step W).1
theorem tap7_cnt (W : Valuation τ sig (Elt F)) :
    after (tapOps7 (F := F)) W (Proc.devRef .tc main_v67) = tapCnt 2 4 (W (Proc.devRef .tc main_v1)) (W (Proc.devRef .tc main_arg1)) (W (Proc.devRef .tc main_v59)) := (tap7_step W).2.1
theorem tap7_v0 (W : Valuation τ sig (Elt F)) :
    after (tapOps7 (F := F)) W (Proc.devRef .tc main_v0) = W (Proc.devRef .tc main_v0) := (tap7_step W).2.2.1
theorem tap7_v1 (W : Valuation τ sig (Elt F)) :
    after (tapOps7 (F := F)) W (Proc.devRef .tc main_v1) = W (Proc.devRef .tc main_v1) := (tap7_step W).2.2.2.1
theorem tap7_a0 (W : Valuation τ sig (Elt F)) :
    after (tapOps7 (F := F)) W (Proc.devRef .tc main_arg0) = W (Proc.devRef .tc main_arg0) := (tap7_step W).2.2.2.2.1
theorem tap7_a1 (W : Valuation τ sig (Elt F)) :
    after (tapOps7 (F := F)) W (Proc.devRef .tc main_arg1) = W (Proc.devRef .tc main_arg1) := (tap7_step W).2.2.2.2.2

set_option maxHeartbeats 1000000 in
/-- Tap 8, offsets (2, 6): the running sum and count move on by the tap; the padded arrays and the arguments stay. -/
theorem tap8_step (W : Valuation τ sig (Elt F)) :
    after (tapOps8 (F := F)) W (Proc.devRef .tc main_v74) = tapAcc 2 6 (W (Proc.devRef .tc main_v0)) (W (Proc.devRef .tc main_v1)) (W (Proc.devRef .tc main_arg1)) (W (Proc.devRef .tc main_v66))
    ∧ after (tapOps8 (F := F)) W (Proc.devRef .tc main_v75) = tapCnt 2 6 (W (Proc.devRef .tc main_v1)) (W (Proc.devRef .tc main_arg1)) (W (Proc.devRef .tc main_v67))
    ∧ after (tapOps8 (F := F)) W (Proc.devRef .tc main_v0) = W (Proc.devRef .tc main_v0)
    ∧ after (tapOps8 (F := F)) W (Proc.devRef .tc main_v1) = W (Proc.devRef .tc main_v1)
    ∧ after (tapOps8 (F := F)) W (Proc.devRef .tc main_arg0) = W (Proc.devRef .tc main_arg0)
    ∧ after (tapOps8 (F := F)) W (Proc.devRef .tc main_arg1) = W (Proc.devRef .tc main_arg1) := by
  refine ⟨?_, ?_, ?_, ?_, ?_, ?_⟩
  · stretch_results; rfl
  · stretch_results; rfl
  · stretch_results
  · stretch_results
  · stretch_results
  · stretch_results
theorem tap8_acc (W : Valuation τ sig (Elt F)) :
    after (tapOps8 (F := F)) W (Proc.devRef .tc main_v74) = tapAcc 2 6 (W (Proc.devRef .tc main_v0)) (W (Proc.devRef .tc main_v1)) (W (Proc.devRef .tc main_arg1)) (W (Proc.devRef .tc main_v66)) := (tap8_step W).1
theorem tap8_cnt (W : Valuation τ sig (Elt F)) :
    after (tapOps8 (F := F)) W (Proc.devRef .tc main_v75) = tapCnt 2 6 (W (Proc.devRef .tc main_v1)) (W (Proc.devRef .tc main_arg1)) (W (Proc.devRef .tc main_v67)) := (tap8_step W).2.1
theorem tap8_v0 (W : Valuation τ sig (Elt F)) :
    after (tapOps8 (F := F)) W (Proc.devRef .tc main_v0) = W (Proc.devRef .tc main_v0) := (tap8_step W).2.2.1
theorem tap8_v1 (W : Valuation τ sig (Elt F)) :
    after (tapOps8 (F := F)) W (Proc.devRef .tc main_v1) = W (Proc.devRef .tc main_v1) := (tap8_step W).2.2.2.1
theorem tap8_a0 (W : Valuation τ sig (Elt F)) :
    after (tapOps8 (F := F)) W (Proc.devRef .tc main_arg0) = W (Proc.devRef .tc main_arg0) := (tap8_step W).2.2.2.2.1
theorem tap8_a1 (W : Valuation τ sig (Elt F)) :
    after (tapOps8 (F := F)) W (Proc.devRef .tc main_arg1) = W (Proc.devRef .tc main_arg1) := (tap8_step W).2.2.2.2.2

set_option maxHeartbeats 1000000 in
/-- Tap 9, offsets (2, 8): the running sum and count move on by the tap; the padded arrays and the arguments stay. -/
theorem tap9_step (W : Valuation τ sig (Elt F)) :
    after (tapOps9 (F := F)) W (Proc.devRef .tc main_v82) = tapAcc 2 8 (W (Proc.devRef .tc main_v0)) (W (Proc.devRef .tc main_v1)) (W (Proc.devRef .tc main_arg1)) (W (Proc.devRef .tc main_v74))
    ∧ after (tapOps9 (F := F)) W (Proc.devRef .tc main_v83) = tapCnt 2 8 (W (Proc.devRef .tc main_v1)) (W (Proc.devRef .tc main_arg1)) (W (Proc.devRef .tc main_v75))
    ∧ after (tapOps9 (F := F)) W (Proc.devRef .tc main_v0) = W (Proc.devRef .tc main_v0)
    ∧ after (tapOps9 (F := F)) W (Proc.devRef .tc main_v1) = W (Proc.devRef .tc main_v1)
    ∧ after (tapOps9 (F := F)) W (Proc.devRef .tc main_arg0) = W (Proc.devRef .tc main_arg0)
    ∧ after (tapOps9 (F := F)) W (Proc.devRef .tc main_arg1) = W (Proc.devRef .tc main_arg1) := by
  refine ⟨?_, ?_, ?_, ?_, ?_, ?_⟩
  · stretch_results; rfl
  · stretch_results; rfl
  · stretch_results
  · stretch_results
  · stretch_results
  · stretch_results
theorem tap9_acc (W : Valuation τ sig (Elt F)) :
    after (tapOps9 (F := F)) W (Proc.devRef .tc main_v82) = tapAcc 2 8 (W (Proc.devRef .tc main_v0)) (W (Proc.devRef .tc main_v1)) (W (Proc.devRef .tc main_arg1)) (W (Proc.devRef .tc main_v74)) := (tap9_step W).1
theorem tap9_cnt (W : Valuation τ sig (Elt F)) :
    after (tapOps9 (F := F)) W (Proc.devRef .tc main_v83) = tapCnt 2 8 (W (Proc.devRef .tc main_v1)) (W (Proc.devRef .tc main_arg1)) (W (Proc.devRef .tc main_v75)) := (tap9_step W).2.1
theorem tap9_v0 (W : Valuation τ sig (Elt F)) :
    after (tapOps9 (F := F)) W (Proc.devRef .tc main_v0) = W (Proc.devRef .tc main_v0) := (tap9_step W).2.2.1
theorem tap9_v1 (W : Valuation τ sig (Elt F)) :
    after (tapOps9 (F := F)) W (Proc.devRef .tc main_v1) = W (Proc.devRef .tc main_v1) := (tap9_step W).2.2.2.1
theorem tap9_a0 (W : Valuation τ sig (Elt F)) :
    after (tapOps9 (F := F)) W (Proc.devRef .tc main_arg0) = W (Proc.devRef .tc main_arg0) := (tap9_step W).2.2.2.2.1
theorem tap9_a1 (W : Valuation τ sig (Elt F)) :
    after (tapOps9 (F := F)) W (Proc.devRef .tc main_arg1) = W (Proc.devRef .tc main_arg1) := (tap9_step W).2.2.2.2.2

set_option maxHeartbeats 1000000 in
/-- Tap 10, offsets (4, 0): the running sum and count move on by the tap; the padded arrays and the arguments stay. -/
theorem tap10_step (W : Valuation τ sig (Elt F)) :
    after (tapOps10 (F := F)) W (Proc.devRef .tc main_v90) = tapAcc 4 0 (W (Proc.devRef .tc main_v0)) (W (Proc.devRef .tc main_v1)) (W (Proc.devRef .tc main_arg1)) (W (Proc.devRef .tc main_v82))
    ∧ after (tapOps10 (F := F)) W (Proc.devRef .tc main_v91) = tapCnt 4 0 (W (Proc.devRef .tc main_v1)) (W (Proc.devRef .tc main_arg1)) (W (Proc.devRef .tc main_v83))
    ∧ after (tapOps10 (F := F)) W (Proc.devRef .tc main_v0) = W (Proc.devRef .tc main_v0)
    ∧ after (tapOps10 (F := F)) W (Proc.devRef .tc main_v1) = W (Proc.devRef .tc main_v1)
    ∧ after (tapOps10 (F := F)) W (Proc.devRef .tc main_arg0) = W (Proc.devRef .tc main_arg0)
    ∧ after (tapOps10 (F := F)) W (Proc.devRef .tc main_arg1) = W (Proc.devRef .tc main_arg1) := by
  refine ⟨?_, ?_, ?_, ?_, ?_, ?_⟩
  · stretch_results; rfl
  · stretch_results; rfl
  · stretch_results
  · stretch_results
  · stretch_results
  · stretch_results
theorem tap10_acc (W : Valuation τ sig (Elt F)) :
    after (tapOps10 (F := F)) W (Proc.devRef .tc main_v90) = tapAcc 4 0 (W (Proc.devRef .tc main_v0)) (W (Proc.devRef .tc main_v1)) (W (Proc.devRef .tc main_arg1)) (W (Proc.devRef .tc main_v82)) := (tap10_step W).1
theorem tap10_cnt (W : Valuation τ sig (Elt F)) :
    after (tapOps10 (F := F)) W (Proc.devRef .tc main_v91) = tapCnt 4 0 (W (Proc.devRef .tc main_v1)) (W (Proc.devRef .tc main_arg1)) (W (Proc.devRef .tc main_v83)) := (tap10_step W).2.1
theorem tap10_v0 (W : Valuation τ sig (Elt F)) :
    after (tapOps10 (F := F)) W (Proc.devRef .tc main_v0) = W (Proc.devRef .tc main_v0) := (tap10_step W).2.2.1
theorem tap10_v1 (W : Valuation τ sig (Elt F)) :
    after (tapOps10 (F := F)) W (Proc.devRef .tc main_v1) = W (Proc.devRef .tc main_v1) := (tap10_step W).2.2.2.1
theorem tap10_a0 (W : Valuation τ sig (Elt F)) :
    after (tapOps10 (F := F)) W (Proc.devRef .tc main_arg0) = W (Proc.devRef .tc main_arg0) := (tap10_step W).2.2.2.2.1
theorem tap10_a1 (W : Valuation τ sig (Elt F)) :
    after (tapOps10 (F := F)) W (Proc.devRef .tc main_arg1) = W (Proc.devRef .tc main_arg1) := (tap10_step W).2.2.2.2.2

set_option maxHeartbeats 1000000 in
/-- Tap 11, offsets (4, 2): the running sum and count move on by the tap; the padded arrays and the arguments stay. -/
theorem tap11_step (W : Valuation τ sig (Elt F)) :
    after (tapOps11 (F := F)) W (Proc.devRef .tc main_v98) = tapAcc 4 2 (W (Proc.devRef .tc main_v0)) (W (Proc.devRef .tc main_v1)) (W (Proc.devRef .tc main_arg1)) (W (Proc.devRef .tc main_v90))
    ∧ after (tapOps11 (F := F)) W (Proc.devRef .tc main_v99) = tapCnt 4 2 (W (Proc.devRef .tc main_v1)) (W (Proc.devRef .tc main_arg1)) (W (Proc.devRef .tc main_v91))
    ∧ after (tapOps11 (F := F)) W (Proc.devRef .tc main_v0) = W (Proc.devRef .tc main_v0)
    ∧ after (tapOps11 (F := F)) W (Proc.devRef .tc main_v1) = W (Proc.devRef .tc main_v1)
    ∧ after (tapOps11 (F := F)) W (Proc.devRef .tc main_arg0) = W (Proc.devRef .tc main_arg0)
    ∧ after (tapOps11 (F := F)) W (Proc.devRef .tc main_arg1) = W (Proc.devRef .tc main_arg1) := by
  refine ⟨?_, ?_, ?_, ?_, ?_, ?_⟩
  · stretch_results; rfl
  · stretch_results; rfl
  · stretch_results
  · stretch_results
  · stretch_results
  · stretch_results
theorem tap11_acc (W : Valuation τ sig (Elt F)) :
    after (tapOps11 (F := F)) W (Proc.devRef .tc main_v98) = tapAcc 4 2 (W (Proc.devRef .tc main_v0)) (W (Proc.devRef .tc main_v1)) (W (Proc.devRef .tc main_arg1)) (W (Proc.devRef .tc main_v90)) := (tap11_step W).1
theorem tap11_cnt (W : Valuation τ sig (Elt F)) :
    after (tapOps11 (F := F)) W (Proc.devRef .tc main_v99) = tapCnt 4 2 (W (Proc.devRef .tc main_v1)) (W (Proc.devRef .tc main_arg1)) (W (Proc.devRef .tc main_v91)) := (tap11_step W).2.1
theorem tap11_v0 (W : Valuation τ sig (Elt F)) :
    after (tapOps11 (F := F)) W (Proc.devRef .tc main_v0) = W (Proc.devRef .tc main_v0) := (tap11_step W).2.2.1
theorem tap11_v1 (W : Valuation τ sig (Elt F)) :
    after (tapOps11 (F := F)) W (Proc.devRef .tc main_v1) = W (Proc.devRef .tc main_v1) := (tap11_step W).2.2.2.1
theorem tap11_a0 (W : Valuation τ sig (Elt F)) :
    after (tapOps11 (F := F)) W (Proc.devRef .tc main_arg0) = W (Proc.devRef .tc main_arg0) := (tap11_step W).2.2.2.2.1
theorem tap11_a1 (W : Valuation τ sig (Elt F)) :
    after (tapOps11 (F := F)) W (Proc.devRef .tc main_arg1) = W (Proc.devRef .tc main_arg1) := (tap11_step W).2.2.2.2.2

set_option maxHeartbeats 1000000 in
/-- Tap 12, offsets (4, 4): the running sum and count move on by the tap; the padded arrays and the arguments stay. -/
theorem tap12_step (W : Valuation τ sig (Elt F)) :
    after (tapOps12 (F := F)) W (Proc.devRef .tc main_v106) = tapAcc 4 4 (W (Proc.devRef .tc main_v0)) (W (Proc.devRef .tc main_v1)) (W (Proc.devRef .tc main_arg1)) (W (Proc.devRef .tc main_v98))
    ∧ after (tapOps12 (F := F)) W (Proc.devRef .tc main_v107) = tapCnt 4 4 (W (Proc.devRef .tc main_v1)) (W (Proc.devRef .tc main_arg1)) (W (Proc.devRef .tc main_v99))
    ∧ after (tapOps12 (F := F)) W (Proc.devRef .tc main_v0) = W (Proc.devRef .tc main_v0)
    ∧ after (tapOps12 (F := F)) W (Proc.devRef .tc main_v1) = W (Proc.devRef .tc main_v1)
    ∧ after (tapOps12 (F := F)) W (Proc.devRef .tc main_arg0) = W (Proc.devRef .tc main_arg0)
    ∧ after (tapOps12 (F := F)) W (Proc.devRef .tc main_arg1) = W (Proc.devRef .tc main_arg1) := by
  refine ⟨?_, ?_, ?_, ?_, ?_, ?_⟩
  · stretch_results; rfl
  · stretch_results; rfl
  · stretch_results
  · stretch_results
  · stretch_results
  · stretch_results
theorem tap12_acc (W : Valuation τ sig (Elt F)) :
    after (tapOps12 (F := F)) W (Proc.devRef .tc main_v106) = tapAcc 4 4 (W (Proc.devRef .tc main_v0)) (W (Proc.devRef .tc main_v1)) (W (Proc.devRef .tc main_arg1)) (W (Proc.devRef .tc main_v98)) := (tap12_step W).1
theorem tap12_cnt (W : Valuation τ sig (Elt F)) :
    after (tapOps12 (F := F)) W (Proc.devRef .tc main_v107) = tapCnt 4 4 (W (Proc.devRef .tc main_v1)) (W (Proc.devRef .tc main_arg1)) (W (Proc.devRef .tc main_v99)) := (tap12_step W).2.1
theorem tap12_v0 (W : Valuation τ sig (Elt F)) :
    after (tapOps12 (F := F)) W (Proc.devRef .tc main_v0) = W (Proc.devRef .tc main_v0) := (tap12_step W).2.2.1
theorem tap12_v1 (W : Valuation τ sig (Elt F)) :
    after (tapOps12 (F := F)) W (Proc.devRef .tc main_v1) = W (Proc.devRef .tc main_v1) := (tap12_step W).2.2.2.1
theorem tap12_a0 (W : Valuation τ sig (Elt F)) :
    after (tapOps12 (F := F)) W (Proc.devRef .tc main_arg0) = W (Proc.devRef .tc main_arg0) := (tap12_step W).2.2.2.2.1
theorem tap12_a1 (W : Valuation τ sig (Elt F)) :
    after (tapOps12 (F := F)) W (Proc.devRef .tc main_arg1) = W (Proc.devRef .tc main_arg1) := (tap12_step W).2.2.2.2.2

end Cert.RefSide

end
-- ==== Proof.RefStepB.lean ====
/-
  The taps' stretches read from arbitrary buffer contents: after a tap's sixteen operations the running sum and count
  have moved on by that tap, and the padded arrays and the arguments are as before.
-/
import proofs.«181392_j37838661878408_1_alg».proof.Proof.RefStep0

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 1000000 in
/-- Tap 13, offsets (4, 6): the running sum and count move on by the tap; the padded arrays and the arguments stay. -/
theorem tap13_step (W : Valuation τ sig (Elt F)) :
    after (tapOps13 (F := F)) W (Proc.devRef .tc main_v114) = tapAcc 4 6 (W (Proc.devRef .tc main_v0)) (W (Proc.devRef .tc main_v1)) (W (Proc.devRef .tc main_arg1)) (W (Proc.devRef .tc main_v106))
    ∧ after (tapOps13 (F := F)) W (Proc.devRef .tc main_v115) = tapCnt 4 6 (W (Proc.devRef .tc main_v1)) (W (Proc.devRef .tc main_arg1)) (W (Proc.devRef .tc main_v107))
    ∧ after (tapOps13 (F := F)) W (Proc.devRef .tc main_v0) = W (Proc.devRef .tc main_v0)
    ∧ after (tapOps13 (F := F)) W (Proc.devRef .tc main_v1) = W (Proc.devRef .tc main_v1)
    ∧ after (tapOps13 (F := F)) W (Proc.devRef .tc main_arg0) = W (Proc.devRef .tc main_arg0)
    ∧ after (tapOps13 (F := F)) W (Proc.devRef .tc main_arg1) = W (Proc.devRef .tc main_arg1) := by
  refine ⟨?_, ?_, ?_, ?_, ?_, ?_⟩
  · stretch_results; rfl
  · stretch_results; rfl
  · stretch_results
  · stretch_results
  · stretch_results
  · stretch_results
theorem tap13_acc (W : Valuation τ sig (Elt F)) :
    after (tapOps13 (F := F)) W (Proc.devRef .tc main_v114) = tapAcc 4 6 (W (Proc.devRef .tc main_v0)) (W (Proc.devRef .tc main_v1)) (W (Proc.devRef .tc main_arg1)) (W (Proc.devRef .tc main_v106)) := (tap13_step W).1
theorem tap13_cnt (W : Valuation τ sig (Elt F)) :
    after (tapOps13 (F := F)) W (Proc.devRef .tc main_v115) = tapCnt 4 6 (W (Proc.devRef .tc main_v1)) (W (Proc.devRef .tc main_arg1)) (W (Proc.devRef .tc main_v107)) := (tap13_step W).2.1
theorem tap13_v0 (W : Valuation τ sig (Elt F)) :
    after (tapOps13 (F := F)) W (Proc.devRef .tc main_v0) = W (Proc.devRef .tc main_v0) := (tap13_step W).2.2.1
theorem tap13_v1 (W : Valuation τ sig (Elt F)) :
    after (tapOps13 (F := F)) W (Proc.devRef .tc main_v1) = W (Proc.devRef .tc main_v1) := (tap13_step W).2.2.2.1
theorem tap13_a0 (W : Valuation τ sig (Elt F)) :
    after (tapOps13 (F := F)) W (Proc.devRef .tc main_arg0) = W (Proc.devRef .tc main_arg0) := (tap13_step W).2.2.2.2.1
theorem tap13_a1 (W : Valuation τ sig (Elt F)) :
    after (tapOps13 (F := F)) W (Proc.devRef .tc main_arg1) = W (Proc.devRef .tc main_arg1) := (tap13_step W).2.2.2.2.2

set_option maxHeartbeats 1000000 in
/-- Tap 14, offsets (4, 8): the running sum and count move on by the tap; the padded arrays and the arguments stay. -/
theorem tap14_step (W : Valuation τ sig (Elt F)) :
    after (tapOps14 (F := F)) W (Proc.devRef .tc main_v122) = tapAcc 4 8 (W (Proc.devRef .tc main_v0)) (W (Proc.devRef .tc main_v1)) (W (Proc.devRef .tc main_arg1)) (W (Proc.devRef .tc main_v114))
    ∧ after (tapOps14 (F := F)) W (Proc.devRef .tc main_v123) = tapCnt 4 8 (W (Proc.devRef .tc main_v1)) (W (Proc.devRef .tc main_arg1)) (W (Proc.devRef .tc main_v115))
    ∧ after (tapOps14 (F := F)) W (Proc.devRef .tc main_v0) = W (Proc.devRef .tc main_v0)
    ∧ after (tapOps14 (F := F)) W (Proc.devRef .tc main_v1) = W (Proc.devRef .tc main_v1)
    ∧ after (tapOps14 (F := F)) W (Proc.devRef .tc main_arg0) = W (Proc.devRef .tc main_arg0)
    ∧ after (tapOps14 (F := F)) W (Proc.devRef .tc main_arg1) = W (Proc.devRef .tc main_arg1) := by
  refine ⟨?_, ?_, ?_, ?_, ?_, ?_⟩
  · stretch_results; rfl
  · stretch_results; rfl
  · stretch_results
  · stretch_results
  · stretch_results
  · stretch_results
theorem tap14_acc (W : Valuation τ sig (Elt F)) :
    after (tapOps14 (F := F)) W (Proc.devRef .tc main_v122) = tapAcc 4 8 (W (Proc.devRef .tc main_v0)) (W (Proc.devRef .tc main_v1)) (W (Proc.devRef .tc main_arg1)) (W (Proc.devRef .tc main_v114)) := (tap14_step W).1
theorem tap14_cnt (W : Valuation τ sig (Elt F)) :
    after (tapOps14 (F := F)) W (Proc.devRef .tc main_v123) = tapCnt 4 8 (W (Proc.devRef .tc main_v1)) (W (Proc.devRef .tc main_arg1)) (W (Proc.devRef .tc main_v115)) := (tap14_step W).2.1
theorem tap14_v0 (W : Valuation τ sig (Elt F)) :
    after (tapOps14 (F := F)) W (Proc.devRef .tc main_v0) = W (Proc.devRef .tc main_v0) := (tap14_step W).2.2.1
theorem tap14_v1 (W : Valuation τ sig (Elt F)) :
    after (tapOps14 (F := F)) W (Proc.devRef .tc main_v1) = W (Proc.devRef .tc main_v1) := (tap14_step W).2.2.2.1
theorem tap14_a0 (W : Valuation τ sig (Elt F)) :
    after (tapOps14 (F := F)) W (Proc.devRef .tc main_arg0) = W (Proc.devRef .tc main_arg0) := (tap14_step W).2.2.2.2.1
theorem tap14_a1 (W : Valuation τ sig (Elt F)) :
    after (tapOps14 (F := F)) W (Proc.devRef .tc main_arg1) = W (Proc.devRef .tc main_arg1) := (tap14_step W).2.2.2.2.2

set_option maxHeartbeats 1000000 in
/-- Tap 15, offsets (6, 0): the running sum and count move on by the tap; the padded arrays and the arguments stay. -/
theorem tap15_step (W : Valuation τ sig (Elt F)) :
    after (tapOps15 (F := F)) W (Proc.devRef .tc main_v130) = tapAcc 6 0 (W (Proc.devRef .tc main_v0)) (W (Proc.devRef .tc main_v1)) (W (Proc.devRef .tc main_arg1)) (W (Proc.devRef .tc main_v122))
    ∧ after (tapOps15 (F := F)) W (Proc.devRef .tc main_v131) = tapCnt 6 0 (W (Proc.devRef .tc main_v1)) (W (Proc.devRef .tc main_arg1)) (W (Proc.devRef .tc main_v123))
    ∧ after (tapOps15 (F := F)) W (Proc.devRef .tc main_v0) = W (Proc.devRef .tc main_v0)
    ∧ after (tapOps15 (F := F)) W (Proc.devRef .tc main_v1) = W (Proc.devRef .tc main_v1)
    ∧ after (tapOps15 (F := F)) W (Proc.devRef .tc main_arg0) = W (Proc.devRef .tc main_arg0)
    ∧ after (tapOps15 (F := F)) W (Proc.devRef .tc main_arg1) = W (Proc.devRef .tc main_arg1) := by
  refine ⟨?_, ?_, ?_, ?_, ?_, ?_⟩
  · stretch_results; rfl
  · stretch_results; rfl
  · stretch_results
  · stretch_results
  · stretch_results
  · stretch_results
theorem tap15_acc (W : Valuation τ sig (Elt F)) :
    after (tapOps15 (F := F)) W (Proc.devRef .tc main_v130) = tapAcc 6 0 (W (Proc.devRef .tc main_v0)) (W (Proc.devRef .tc main_v1)) (W (Proc.devRef .tc main_arg1)) (W (Proc.devRef .tc main_v122)) := (tap15_step W).1
theorem tap15_cnt (W : Valuation τ sig (Elt F)) :
    after (tapOps15 (F := F)) W (Proc.devRef .tc main_v131) = tapCnt 6 0 (W (Proc.devRef .tc main_v1)) (W (Proc.devRef .tc main_arg1)) (W (Proc.devRef .tc main_v123)) := (tap15_step W).2.1
theorem tap15_v0 (W : Valuation τ sig (Elt F)) :
    after (tapOps15 (F := F)) W (Proc.devRef .tc main_v0) = W (Proc.devRef .tc main_v0) := (tap15_step W).2.2.1
theorem tap15_v1 (W : Valuation τ sig (Elt F)) :
    after (tapOps15 (F := F)) W (Proc.devRef .tc main_v1) = W (Proc.devRef .tc main_v1) := (tap15_step W).2.2.2.1
theorem tap15_a0 (W : Valuation τ sig (Elt F)) :
    after (tapOps15 (F := F)) W (Proc.devRef .tc main_arg0) = W (Proc.devRef .tc main_arg0) := (tap15_step W).2.2.2.2.1
theorem tap15_a1 (W : Valuation τ sig (Elt F)) :
    after (tapOps15 (F := F)) W (Proc.devRef .tc main_arg1) = W (Proc.devRef .tc main_arg1) := (tap15_step W).2.2.2.2.2

set_option maxHeartbeats 1000000 in
/-- Tap 16, offsets (6, 2): the running sum and count move on by the tap; the padded arrays and the arguments stay. -/
theorem tap16_step (W : Valuation τ sig (Elt F)) :
    after (tapOps16 (F := F)) W (Proc.devRef .tc main_v138) = tapAcc 6 2 (W (Proc.devRef .tc main_v0)) (W (Proc.devRef .tc main_v1)) (W (Proc.devRef .tc main_arg1)) (W (Proc.devRef .tc main_v130))
    ∧ after (tapOps16 (F := F)) W (Proc.devRef .tc main_v139) = tapCnt 6 2 (W (Proc.devRef .tc main_v1)) (W (Proc.devRef .tc main_arg1)) (W (Proc.devRef .tc main_v131))
    ∧ after (tapOps16 (F := F)) W (Proc.devRef .tc main_v0) = W (Proc.devRef .tc main_v0)
    ∧ after (tapOps16 (F := F)) W (Proc.devRef .tc main_v1) = W (Proc.devRef .tc main_v1)
    ∧ after (tapOps16 (F := F)) W (Proc.devRef .tc main_arg0) = W (Proc.devRef .tc main_arg0)
    ∧ after (tapOps16 (F := F)) W (Proc.devRef .tc main_arg1) = W (Proc.devRef .tc main_arg1) := by
  refine ⟨?_, ?_, ?_, ?_, ?_, ?_⟩
  · stretch_results; rfl
  · stretch_results; rfl
  · stretch_results
  · stretch_results
  · stretch_results
  · stretch_results
theorem tap16_acc (W : Valuation τ sig (Elt F)) :
    after (tapOps16 (F := F)) W (Proc.devRef .tc main_v138) = tapAcc 6 2 (W (Proc.devRef .tc main_v0)) (W (Proc.devRef .tc main_v1)) (W (Proc.devRef .tc main_arg1)) (W (Proc.devRef .tc main_v130)) := (tap16_step W).1
theorem tap16_cnt (W : Valuation τ sig (Elt F)) :
    after (tapOps16 (F := F)) W (Proc.devRef .tc main_v139) = tapCnt 6 2 (W (Proc.devRef .tc main_v1)) (W (Proc.devRef .tc main_arg1)) (W (Proc.devRef .tc main_v131)) := (tap16_step W).2.1
theorem tap16_v0 (W : Valuation τ sig (Elt F)) :
    after (tapOps16 (F := F)) W (Proc.devRef .tc main_v0) = W (Proc.devRef .tc main_v0) := (tap16_step W).2.2.1
theorem tap16_v1 (W : Valuation τ sig (Elt F)) :
    after (tapOps16 (F := F)) W (Proc.devRef .tc main_v1) = W (Proc.devRef .tc main_v1) := (tap16_step W).2.2.2.1
theorem tap16_a0 (W : Valuation τ sig (Elt F)) :
    after (tapOps16 (F := F)) W (Proc.devRef .tc main_arg0) = W (Proc.devRef .tc main_arg0) := (tap16_step W).2.2.2.2.1
theorem tap16_a1 (W : Valuation τ sig (Elt F)) :
    after (tapOps16 (F := F)) W (Proc.devRef .tc main_arg1) = W (Proc.devRef .tc main_arg1) := (tap16_step W).2.2.2.2.2

set_option maxHeartbeats 1000000 in
/-- Tap 17, offsets (6, 4): the running sum and count move on by the tap; the padded arrays and the arguments stay. -/
theorem tap17_step (W : Valuation τ sig (Elt F)) :
    after (tapOps17 (F := F)) W (Proc.devRef .tc main_v146) = tapAcc 6 4 (W (Proc.devRef .tc main_v0)) (W (Proc.devRef .tc main_v1)) (W (Proc.devRef .tc main_arg1)) (W (Proc.devRef .tc main_v138))
    ∧ after (tapOps17 (F := F)) W (Proc.devRef .tc main_v147) = tapCnt 6 4 (W (Proc.devRef .tc main_v1)) (W (Proc.devRef .tc main_arg1)) (W (Proc.devRef .tc main_v139))
    ∧ after (tapOps17 (F := F)) W (Proc.devRef .tc main_v0) = W (Proc.devRef .tc main_v0)
    ∧ after (tapOps17 (F := F)) W (Proc.devRef .tc main_v1) = W (Proc.devRef .tc main_v1)
    ∧ after (tapOps17 (F := F)) W (Proc.devRef .tc main_arg0) = W (Proc.devRef .tc main_arg0)
    ∧ after (tapOps17 (F := F)) W (Proc.devRef .tc main_arg1) = W (Proc.devRef .tc main_arg1) := by
  refine ⟨?_, ?_, ?_, ?_, ?_, ?_⟩
  · stretch_results; rfl
  · stretch_results; rfl
  · stretch_results
  · stretch_results
  · stretch_results
  · stretch_results
theorem tap17_acc (W : Valuation τ sig (Elt F)) :
    after (tapOps17 (F := F)) W (Proc.devRef .tc main_v146) = tapAcc 6 4 (W (Proc.devRef .tc main_v0)) (W (Proc.devRef .tc main_v1)) (W (Proc.devRef .tc main_arg1)) (W (Proc.devRef .tc main_v138)) := (tap17_step W).1
theorem tap17_cnt (W : Valuation τ sig (Elt F)) :
    after (tapOps17 (F := F)) W (Proc.devRef .tc main_v147) = tapCnt 6 4 (W (Proc.devRef .tc main_v1)) (W (Proc.devRef .tc main_arg1)) (W (Proc.devRef .tc main_v139)) := (tap17_step W).2.1
theorem tap17_v0 (W : Valuation τ sig (Elt F)) :
    after (tapOps17 (F := F)) W (Proc.devRef .tc main_v0) = W (Proc.devRef .tc main_v0) := (tap17_step W).2.2.1
theorem tap17_v1 (W : Valuation τ sig (Elt F)) :
    after (tapOps17 (F := F)) W (Proc.devRef .tc main_v1) = W (Proc.devRef .tc main_v1) := (tap17_step W).2.2.2.1
theorem tap17_a0 (W : Valuation τ sig (Elt F)) :
    after (tapOps17 (F := F)) W (Proc.devRef .tc main_arg0) = W (Proc.devRef .tc main_arg0) := (tap17_step W).2.2.2.2.1
theorem tap17_a1 (W : Valuation τ sig (Elt F)) :
    after (tapOps17 (F := F)) W (Proc.devRef .tc main_arg1) = W (Proc.devRef .tc main_arg1) := (tap17_step W).2.2.2.2.2

set_option maxHeartbeats 1000000 in
/-- Tap 18, offsets (6, 6): the running sum and count move on by the tap; the padded arrays and the arguments stay. -/
theorem tap18_step (W : Valuation τ sig (Elt F)) :
    after (tapOps18 (F := F)) W (Proc.devRef .tc main_v154) = tapAcc 6 6 (W (Proc.devRef .tc main_v0)) (W (Proc.devRef .tc main_v1)) (W (Proc.devRef .tc main_arg1)) (W (Proc.devRef .tc main_v146))
    ∧ after (tapOps18 (F := F)) W (Proc.devRef .tc main_v155) = tapCnt 6 6 (W (Proc.devRef .tc main_v1)) (W (Proc.devRef .tc main_arg1)) (W (Proc.devRef .tc main_v147))
    ∧ after (tapOps18 (F := F)) W (Proc.devRef .tc main_v0) = W (Proc.devRef .tc main_v0)
    ∧ after (tapOps18 (F := F)) W (Proc.devRef .tc main_v1) = W (Proc.devRef .tc main_v1)
    ∧ after (tapOps18 (F := F)) W (Proc.devRef .tc main_arg0) = W (Proc.devRef .tc main_arg0)
    ∧ after (tapOps18 (F := F)) W (Proc.devRef .tc main_arg1) = W (Proc.devRef .tc main_arg1) := by
  refine ⟨?_, ?_, ?_, ?_, ?_, ?_⟩
  · stretch_results; rfl
  · stretch_results; rfl
  · stretch_results
  · stretch_results
  · stretch_results
  · stretch_results
theorem tap18_acc (W : Valuation τ sig (Elt F)) :
    after (tapOps18 (F := F)) W (Proc.devRef .tc main_v154) = tapAcc 6 6 (W (Proc.devRef .tc main_v0)) (W (Proc.devRef .tc main_v1)) (W (Proc.devRef .tc main_arg1)) (W (Proc.devRef .tc main_v146)) := (tap18_step W).1
theorem tap18_cnt (W : Valuation τ sig (Elt F)) :
    after (tapOps18 (F := F)) W (Proc.devRef .tc main_v155) = tapCnt 6 6 (W (Proc.devRef .tc main_v1)) (W (Proc.devRef .tc main_arg1)) (W (Proc.devRef .tc main_v147)) := (tap18_step W).2.1
theorem tap18_v0 (W : Valuation τ sig (Elt F)) :
    after (tapOps18 (F := F)) W (Proc.devRef .tc main_v0) = W (Proc.devRef .tc main_v0) := (tap18_step W).2.2.1
theorem tap18_v1 (W : Valuation τ sig (Elt F)) :
    after (tapOps18 (F := F)) W (Proc.devRef .tc main_v1) = W (Proc.devRef .tc main_v1) := (tap18_step W).2.2.2.1
theorem tap18_a0 (W : Valuation τ sig (Elt F)) :
    after (tapOps18 (F := F)) W (Proc.devRef .tc main_arg0) = W (Proc.devRef .tc main_arg0) := (tap18_step W).2.2.2.2.1
theorem tap18_a1 (W : Valuation τ sig (Elt F)) :
    after (tapOps18 (F := F)) W (Proc.devRef .tc main_arg1) = W (Proc.devRef .tc main_arg1) := (tap18_step W).2.2.2.2.2

set_option maxHeartbeats 1000000 in
/-- Tap 19, offsets (6, 8): the running sum and count move on by the tap; the padded arrays and the arguments stay. -/
theorem tap19_step (W : Valuation τ sig (Elt F)) :
    after (tapOps19 (F := F)) W (Proc.devRef .tc main_v162) = tapAcc 6 8 (W (Proc.devRef .tc main_v0)) (W (Proc.devRef .tc main_v1)) (W (Proc.devRef .tc main_arg1)) (W (Proc.devRef .tc main_v154))
    ∧ after (tapOps19 (F := F)) W (Proc.devRef .tc main_v163) = tapCnt 6 8 (W (Proc.devRef .tc main_v1)) (W (Proc.devRef .tc main_arg1)) (W (Proc.devRef .tc main_v155))
    ∧ after (tapOps19 (F := F)) W (Proc.devRef .tc main_v0) = W (Proc.devRef .tc main_v0)
    ∧ after (tapOps19 (F := F)) W (Proc.devRef .tc main_v1) = W (Proc.devRef .tc main_v1)
    ∧ after (tapOps19 (F := F)) W (Proc.devRef .tc main_arg0) = W (Proc.devRef .tc main_arg0)
    ∧ after (tapOps19 (F := F)) W (Proc.devRef .tc main_arg1) = W (Proc.devRef .tc main_arg1) := by
  refine ⟨?_, ?_, ?_, ?_, ?_, ?_⟩
  · stretch_results; rfl
  · stretch_results; rfl
  · stretch_results
  · stretch_results
  · stretch_results
  · stretch_results
theorem tap19_acc (W : Valuation τ sig (Elt F)) :
    after (tapOps19 (F := F)) W (Proc.devRef .tc main_v162) = tapAcc 6 8 (W (Proc.devRef .tc main_v0)) (W (Proc.devRef .tc main_v1)) (W (Proc.devRef .tc main_arg1)) (W (Proc.devRef .tc main_v154)) := (tap19_step W).1
theorem tap19_cnt (W : Valuation τ sig (Elt F)) :
    after (tapOps19 (F := F)) W (Proc.devRef .tc main_v163) = tapCnt 6 8 (W (Proc.devRef .tc main_v1)) (W (Proc.devRef .tc main_arg1)) (W (Proc.devRef .tc main_v155)) := (tap19_step W).2.1
theorem tap19_v0 (W : Valuation τ sig (Elt F)) :
    after (tapOps19 (F := F)) W (Proc.devRef .tc main_v0) = W (Proc.devRef .tc main_v0) := (tap19_step W).2.2.1
theorem tap19_v1 (W : Valuation τ sig (Elt F)) :
    after (tapOps19 (F := F)) W (Proc.devRef .tc main_v1) = W (Proc.devRef .tc main_v1) := (tap19_step W).2.2.2.1
theorem tap19_a0 (W : Valuation τ sig (Elt F)) :
    after (tapOps19 (F := F)) W (Proc.devRef .tc main_arg0) = W (Proc.devRef .tc main_arg0) := (tap19_step W).2.2.2.2.1
theorem tap19_a1 (W : Valuation τ sig (Elt F)) :
    after (tapOps19 (F := F)) W (Proc.devRef .tc main_arg1) = W (Proc.devRef .tc main_arg1) := (tap19_step W).2.2.2.2.2

set_option maxHeartbeats 1000000 in
/-- Tap 20, offsets (8, 0): the running sum and count move on by the tap; the padded arrays and the arguments stay. -/
theorem tap20_step (W : Valuation τ sig (Elt F)) :
    after (tapOps20 (F := F)) W (Proc.devRef .tc main_v170) = tapAcc 8 0 (W (Proc.devRef .tc main_v0)) (W (Proc.devRef .tc main_v1)) (W (Proc.devRef .tc main_arg1)) (W (Proc.devRef .tc main_v162))
    ∧ after (tapOps20 (F := F)) W (Proc.devRef .tc main_v171) = tapCnt 8 0 (W (Proc.devRef .tc main_v1)) (W (Proc.devRef .tc main_arg1)) (W (Proc.devRef .tc main_v163))
    ∧ after (tapOps20 (F := F)) W (Proc.devRef .tc main_v0) = W (Proc.devRef .tc main_v0)
    ∧ after (tapOps20 (F := F)) W (Proc.devRef .tc main_v1) = W (Proc.devRef .tc main_v1)
    ∧ after (tapOps20 (F := F)) W (Proc.devRef .tc main_arg0) = W (Proc.devRef .tc main_arg0)
    ∧ after (tapOps20 (F := F)) W (Proc.devRef .tc main_arg1) = W (Proc.devRef .tc main_arg1) := by
  refine ⟨?_, ?_, ?_, ?_, ?_, ?_⟩
  · stretch_results; rfl
  · stretch_results; rfl
  · stretch_results
  · stretch_results
  · stretch_results
  · stretch_results
theorem tap20_acc (W : Valuation τ sig (Elt F)) :
    after (tapOps20 (F := F)) W (Proc.devRef .tc main_v170) = tapAcc 8 0 (W (Proc.devRef .tc main_v0)) (W (Proc.devRef .tc main_v1)) (W (Proc.devRef .tc main_arg1)) (W (Proc.devRef .tc main_v162)) := (tap20_step W).1
theorem tap20_cnt (W : Valuation τ sig (Elt F)) :
    after (tapOps20 (F := F)) W (Proc.devRef .tc main_v171) = tapCnt 8 0 (W (Proc.devRef .tc main_v1)) (W (Proc.devRef .tc main_arg1)) (W (Proc.devRef .tc main_v163)) := (tap20_step W).2.1
theorem tap20_v0 (W : Valuation τ sig (Elt F)) :
    after (tapOps20 (F := F)) W (Proc.devRef .tc main_v0) = W (Proc.devRef .tc main_v0) := (tap20_step W).2.2.1
theorem tap20_v1 (W : Valuation τ sig (Elt F)) :
    after (tapOps20 (F := F)) W (Proc.devRef .tc main_v1) = W (Proc.devRef .tc main_v1) := (tap20_step W).2.2.2.1
theorem tap20_a0 (W : Valuation τ sig (Elt F)) :
    after (tapOps20 (F := F)) W (Proc.devRef .tc main_arg0) = W (Proc.devRef .tc main_arg0) := (tap20_step W).2.2.2.2.1
theorem tap20_a1 (W : Valuation τ sig (Elt F)) :
    after (tapOps20 (F := F)) W (Proc.devRef .tc main_arg1) = W (Proc.devRef .tc main_arg1) := (tap20_step W).2.2.2.2.2

set_option maxHeartbeats 1000000 in
/-- Tap 21, offsets (8, 2): the running sum and count move on by the tap; the padded arrays and the arguments stay. -/
theorem tap21_step (W : Valuation τ sig (Elt F)) :
    after (tapOps21 (F := F)) W (Proc.devRef .tc main_v178) = tapAcc 8 2 (W (Proc.devRef .tc main_v0)) (W (Proc.devRef .tc main_v1)) (W (Proc.devRef .tc main_arg1)) (W (Proc.devRef .tc main_v170))
    ∧ after (tapOps21 (F := F)) W (Proc.devRef .tc main_v179) = tapCnt 8 2 (W (Proc.devRef .tc main_v1)) (W (Proc.devRef .tc main_arg1)) (W (Proc.devRef .tc main_v171))
    ∧ after (tapOps21 (F := F)) W (Proc.devRef .tc main_v0) = W (Proc.devRef .tc main_v0)
    ∧ after (tapOps21 (F := F)) W (Proc.devRef .tc main_v1) = W (Proc.devRef .tc main_v1)
    ∧ after (tapOps21 (F := F)) W (Proc.devRef .tc main_arg0) = W (Proc.devRef .tc main_arg0)
    ∧ after (tapOps21 (F := F)) W (Proc.devRef .tc main_arg1) = W (Proc.devRef .tc main_arg1) := by
  refine ⟨?_, ?_, ?_, ?_, ?_, ?_⟩
  · stretch_results; rfl
  · stretch_results; rfl
  · stretch_results
  · stretch_results
  · stretch_results
  · stretch_results
theorem tap21_acc (W : Valuation τ sig (Elt F)) :
    after (tapOps21 (F := F)) W (Proc.devRef .tc main_v178) = tapAcc 8 2 (W (Proc.devRef .tc main_v0)) (W (Proc.devRef .tc main_v1)) (W (Proc.devRef .tc main_arg1)) (W (Proc.devRef .tc main_v170)) := (tap21_step W).1
theorem tap21_cnt (W : Valuation τ sig (Elt F)) :
    after (tapOps21 (F := F)) W (Proc.devRef .tc main_v179) = tapCnt 8 2 (W (Proc.devRef .tc main_v1)) (W (Proc.devRef .tc main_arg1)) (W (Proc.devRef .tc main_v171)) := (tap21_step W).2.1
theorem tap21_v0 (W : Valuation τ sig (Elt F)) :
    after (tapOps21 (F := F)) W (Proc.devRef .tc main_v0) = W (Proc.devRef .tc main_v0) := (tap21_step W).2.2.1
theorem tap21_v1 (W : Valuation τ sig (Elt F)) :
    after (tapOps21 (F := F)) W (Proc.devRef .tc main_v1) = W (Proc.devRef .tc main_v1) := (tap21_step W).2.2.2.1
theorem tap21_a0 (W : Valuation τ sig (Elt F)) :
    after (tapOps21 (F := F)) W (Proc.devRef .tc main_arg0) = W (Proc.devRef .tc main_arg0) := (tap21_step W).2.2.2.2.1
theorem tap21_a1 (W : Valuation τ sig (Elt F)) :
    after (tapOps21 (F := F)) W (Proc.devRef .tc main_arg1) = W (Proc.devRef .tc main_arg1) := (tap21_step W).2.2.2.2.2

set_option maxHeartbeats 1000000 in
/-- Tap 22, offsets (8, 4): the running sum and count move on by the tap; the padded arrays and the arguments stay. -/
theorem tap22_step (W : Valuation τ sig (Elt F)) :
    after (tapOps22 (F := F)) W (Proc.devRef .tc main_v186) = tapAcc 8 4 (W (Proc.devRef .tc main_v0)) (W (Proc.devRef .tc main_v1)) (W (Proc.devRef .tc main_arg1)) (W (Proc.devRef .tc main_v178))
    ∧ after (tapOps22 (F := F)) W (Proc.devRef .tc main_v187) = tapCnt 8 4 (W (Proc.devRef .tc main_v1)) (W (Proc.devRef .tc main_arg1)) (W (Proc.devRef .tc main_v179))
    ∧ after (tapOps22 (F := F)) W (Proc.devRef .tc main_v0) = W (Proc.devRef .tc main_v0)
    ∧ after (tapOps22 (F := F)) W (Proc.devRef .tc main_v1) = W (Proc.devRef .tc main_v1)
    ∧ after (tapOps22 (F := F)) W (Proc.devRef .tc main_arg0) = W (Proc.devRef .tc main_arg0)
    ∧ after (tapOps22 (F := F)) W (Proc.devRef .tc main_arg1) = W (Proc.devRef .tc main_arg1) := by
  refine ⟨?_, ?_, ?_, ?_, ?_, ?_⟩
  · stretch_results; rfl
  · stretch_results; rfl
  · stretch_results
  · stretch_results
  · stretch_results
  · stretch_results
theorem tap22_acc (W : Valuation τ sig (Elt F)) :
    after (tapOps22 (F := F)) W (Proc.devRef .tc main_v186) = tapAcc 8 4 (W (Proc.devRef .tc main_v0)) (W (Proc.devRef .tc main_v1)) (W (Proc.devRef .tc main_arg1)) (W (Proc.devRef .tc main_v178)) := (tap22_step W).1
theorem tap22_cnt (W : Valuation τ sig (Elt F)) :
    after (tapOps22 (F := F)) W (Proc.devRef .tc main_v187) = tapCnt 8 4 (W (Proc.devRef .tc main_v1)) (W (Proc.devRef .tc main_arg1)) (W (Proc.devRef .tc main_v179)) := (tap22_step W).2.1
theorem tap22_v0 (W : Valuation τ sig (Elt F)) :
    after (tapOps22 (F := F)) W (Proc.devRef .tc main_v0) = W (Proc.devRef .tc main_v0) := (tap22_step W).2.2.1
theorem tap22_v1 (W : Valuation τ sig (Elt F)) :
    after (tapOps22 (F := F)) W (Proc.devRef .tc main_v1) = W (Proc.devRef .tc main_v1) := (tap22_step W).2.2.2.1
theorem tap22_a0 (W : Valuation τ sig (Elt F)) :
    after (tapOps22 (F := F)) W (Proc.devRef .tc main_arg0) = W (Proc.devRef .tc main_arg0) := (tap22_step W).2.2.2.2.1
theorem tap22_a1 (W : Valuation τ sig (Elt F)) :
    after (tapOps22 (F := F)) W (Proc.devRef .tc main_arg1) = W (Proc.devRef .tc main_arg1) := (tap22_step W).2.2.2.2.2

set_option maxHeartbeats 1000000 in
/-- Tap 23, offsets (8, 6): the running sum and count move on by the tap; the padded arrays and the arguments stay. -/
theorem tap23_step (W : Valuation τ sig (Elt F)) :
    after (tapOps23 (F := F)) W (Proc.devRef .tc main_v194) = tapAcc 8 6 (W (Proc.devRef .tc main_v0)) (W (Proc.devRef .tc main_v1)) (W (Proc.devRef .tc main_arg1)) (W (Proc.devRef .tc main_v186))
    ∧ after (tapOps23 (F := F)) W (Proc.devRef .tc main_v195) = tapCnt 8 6 (W (Proc.devRef .tc main_v1)) (W (Proc.devRef .tc main_arg1)) (W (Proc.devRef .tc main_v187))
    ∧ after (tapOps23 (F := F)) W (Proc.devRef .tc main_v0) = W (Proc.devRef .tc main_v0)
    ∧ after (tapOps23 (F := F)) W (Proc.devRef .tc main_v1) = W (Proc.devRef .tc main_v1)
    ∧ after (tapOps23 (F := F)) W (Proc.devRef .tc main_arg0) = W (Proc.devRef .tc main_arg0)
    ∧ after (tapOps23 (F := F)) W (Proc.devRef .tc main_arg1) = W (Proc.devRef .tc main_arg1) := by
  refine ⟨?_, ?_, ?_, ?_, ?_, ?_⟩
  · stretch_results; rfl
  · stretch_results; rfl
  · stretch_results
  · stretch_results
  · stretch_results
  · stretch_results
theorem tap23_acc (W : Valuation τ sig (Elt F)) :
    after (tapOps23 (F := F)) W (Proc.devRef .tc main_v194) = tapAcc 8 6 (W (Proc.devRef .tc main_v0)) (W (Proc.devRef .tc main_v1)) (W (Proc.devRef .tc main_arg1)) (W (Proc.devRef .tc main_v186)) := (tap23_step W).1
theorem tap23_cnt (W : Valuation τ sig (Elt F)) :
    after (tapOps23 (F := F)) W (Proc.devRef .tc main_v195) = tapCnt 8 6 (W (Proc.devRef .tc main_v1)) (W (Proc.devRef .tc main_arg1)) (W (Proc.devRef .tc main_v187)) := (tap23_step W).2.1
theorem tap23_v0 (W : Valuation τ sig (Elt F)) :
    after (tapOps23 (F := F)) W (Proc.devRef .tc main_v0) = W (Proc.devRef .tc main_v0) := (tap23_step W).2.2.1
theorem tap23_v1 (W : Valuation τ sig (Elt F)) :
    after (tapOps23 (F := F)) W (Proc.devRef .tc main_v1) = W (Proc.devRef .tc main_v1) := (tap23_step W).2.2.2.1
theorem tap23_a0 (W : Valuation τ sig (Elt F)) :
    after (tapOps23 (F := F)) W (Proc.devRef .tc main_arg0) = W (Proc.devRef .tc main_arg0) := (tap23_step W).2.2.2.2.1
theorem tap23_a1 (W : Valuation τ sig (Elt F)) :
    after (tapOps23 (F := F)) W (Proc.devRef .tc main_arg1) = W (Proc.devRef .tc main_arg1) := (tap23_step W).2.2.2.2.2

set_option maxHeartbeats 1000000 in
/-- Tap 24, offsets (8, 8): the running sum and count move on by the tap; the padded arrays and the arguments stay. -/
theorem tap24_step (W : Valuation τ sig (Elt F)) :
    after (tapOps24 (F := F)) W (Proc.devRef .tc main_v202) = tapAcc 8 8 (W (Proc.devRef .tc main_v0)) (W (Proc.devRef .tc main_v1)) (W (Proc.devRef .tc main_arg1)) (W (Proc.devRef .tc main_v194))
    ∧ after (tapOps24 (F := F)) W (Proc.devRef .tc main_v203) = tapCnt 8 8 (W (Proc.devRef .tc main_v1)) (W (Proc.devRef .tc main_arg1)) (W (Proc.devRef .tc main_v195))
    ∧ after (tapOps24 (F := F)) W (Proc.devRef .tc main_v0) = W (Proc.devRef .tc main_v0)
    ∧ after (tapOps24 (F := F)) W (Proc.devRef .tc main_v1) = W (Proc.devRef .tc main_v1)
    ∧ after (tapOps24 (F := F)) W (Proc.devRef .tc main_arg0) = W (Proc.devRef .tc main_arg0)
    ∧ after (tapOps24 (F := F)) W (Proc.devRef .tc main_arg1) = W (Proc.devRef .tc main_arg1) := by
  refine ⟨?_, ?_, ?_, ?_, ?_, ?_⟩
  · stretch_results; rfl
  · stretch_results; rfl
  · stretch_results
  · stretch_results
  · stretch_results
  · stretch_results
theorem tap24_acc (W : Valuation τ sig (Elt F)) :
    after (tapOps24 (F := F)) W (Proc.devRef .tc main_v202) = tapAcc 8 8 (W (Proc.devRef .tc main_v0)) (W (Proc.devRef .tc main_v1)) (W (Proc.devRef .tc main_arg1)) (W (Proc.devRef .tc main_v194)) := (tap24_step W).1
theorem tap24_cnt (W : Valuation τ sig (Elt F)) :
    after (tapOps24 (F := F)) W (Proc.devRef .tc main_v203) = tapCnt 8 8 (W (Proc.devRef .tc main_v1)) (W (Proc.devRef .tc main_arg1)) (W (Proc.devRef .tc main_v195)) := (tap24_step W).2.1
theorem tap24_v0 (W : Valuation τ sig (Elt F)) :
    after (tapOps24 (F := F)) W (Proc.devRef .tc main_v0) = W (Proc.devRef .tc main_v0) := (tap24_step W).2.2.1
theorem tap24_v1 (W : Valuation τ sig (Elt F)) :
    after (tapOps24 (F := F)) W (Proc.devRef .tc main_v1) = W (Proc.devRef .tc main_v1) := (tap24_step W).2.2.2.1
theorem tap24_a0 (W : Valuation τ sig (Elt F)) :
    after (tapOps24 (F := F)) W (Proc.devRef .tc main_arg0) = W (Proc.devRef .tc main_arg0) := (tap24_step W).2.2.2.2.1
theorem tap24_a1 (W : Valuation τ sig (Elt F)) :
    after (tapOps24 (F := F)) W (Proc.devRef .tc main_arg1) = W (Proc.devRef .tc main_arg1) := (tap24_step W).2.2.2.2.2

end Cert.RefSide

end
-- ==== Proof.RefRead.lean ====
/-
  The whole pooling on arrays, as the reference program composes it — the 25 taps applied in row-major order to the zero
  arrays, then the quotient by the count (by one where the count is zero) — and the proof that, pixel by pixel, it is the
  specification's pooled image.
-/
import proofs.«181392_j37838661878408_1_alg».proof.Proof.RefTap

noncomputable section

namespace Cert.RefSide

open Cert.ReferenceIdeal Cert.ReferenceIdeal.Gen Idealize.ShloMosaic Idealize.ShloMosaic.ValueIdx Cert.SelPool

section Arrays

variable {F : FTy → Type} [FloatOps F]

/-- The image-shaped array of zeros the sum starts from. -/
def zeroX : (⟨S8x64x256x256, .f32⟩ : BufTy).Contents (Elt F) :=
  broadcastInDim S8x64x256x256 ![] bcast_S_S8x64x256x256 (constant S_ .f32 0x00000000#32)

/-- The mask-shaped array of zeros the count starts from (and is compared with). -/
def zeroM : (⟨S8x1x256x256, .f32⟩ : BufTy).Contents (Elt F) :=
  broadcastInDim S8x1x256x256 ![] bcast_S_S8x1x256x256 (constant S_ .f32 0x00000000#32)

/-- The mask-shaped array of ones: the divisor where no tap counts. -/
def oneM : (⟨S8x1x256x256, .f32⟩ : BufTy).Contents (Elt F) :=
  broadcastInDim S8x1x256x256 ![] bcast_S_S8x1x256x256 (constant S_ .f32 0x3F800000#32)

/-- The sum over the 25 taps, in row-major order from zero. -/
def accArr (P : (⟨S8x64x264x264, .f32⟩ : BufTy).Contents (Elt F)) (Q : (⟨S8x1x264x264, .f32⟩ : BufTy).Contents (Elt F))
    (Mk : (⟨S8x1x256x256, .f32⟩ : BufTy).Contents (Elt F)) : (⟨S8x64x256x256, .f32⟩ : BufTy).Contents (Elt F) :=
  tapAcc 8 8 P Q Mk (tapAcc 8 6 P Q Mk (tapAcc 8 4 P Q Mk (tapAcc 8 2 P Q Mk (tapAcc 8 0 P Q Mk (tapAcc 6 8 P Q Mk (tapAcc 6 6 P Q Mk (tapAcc 6 4 P Q Mk (tapAcc 6 2 P Q Mk (tapAcc 6 0 P Q Mk (tapAcc 4 8 P Q Mk (tapAcc 4 6 P Q Mk (tapAcc 4 4 P Q Mk (tapAcc 4 2 P Q Mk (tapAcc 4 0 P Q Mk (tapAcc 2 8 P Q Mk (tapAcc 2 6 P Q Mk (tapAcc 2 4 P Q Mk (tapAcc 2 2 P Q Mk (tapAcc 2 0 P Q Mk (tapAcc 0 8 P Q Mk (tapAcc 0 6 P Q Mk (tapAcc 0 4 P Q Mk (tapAcc 0 2 P Q Mk (tapAcc 0 0 P Q Mk (zeroX)))))))))))))))))))))))))

/-- The count over the 25 taps, in the same order. -/
def cntArr (Q : (⟨S8x1x264x264, .f32⟩ : BufTy).Contents (Elt F)) (Mk : (⟨S8x1x256x256, .f32⟩ : BufTy).Contents (Elt F)) :
    (⟨S8x1x256x256, .f32⟩ : BufTy).Contents (Elt F) :=
  tapCnt 8 8 Q Mk (tapCnt 8 6 Q Mk (tapCnt 8 4 Q Mk (tapCnt 8 2 Q Mk (tapCnt 8 0 Q Mk (tapCnt 6 8 Q Mk (tapCnt 6 6 Q Mk (tapCnt 6 4 Q Mk (tapCnt 6 2 Q Mk (tapCnt 6 0 Q Mk (tapCnt 4 8 Q Mk (tapCnt 4 6 Q Mk (tapCnt 4 4 Q Mk (tapCnt 4 2 Q Mk (tapCnt 4 0 Q Mk (tapCnt 2 8 Q Mk (tapCnt 2 6 Q Mk (tapCnt 2 4 Q Mk (tapCnt 2 2 Q Mk (tapCnt 2 0 Q Mk (tapCnt 0 8 Q Mk (tapCnt 0 6 Q Mk (tapCnt 0 4 Q Mk (tapCnt 0 2 Q Mk (tapCnt 0 0 Q Mk (zeroM)))))))))))))))))))))))))

/-- A sum divided by a count, or by one where the count is zero. -/
def quot (a : (⟨S8x64x256x256, .f32⟩ : BufTy).Contents (Elt F)) (cn : (⟨S8x1x256x256, .f32⟩ : BufTy).Contents (Elt F)) :
    (⟨S8x64x256x256, .f32⟩ : BufTy).Contents (Elt F) :=
  Host.divf a
    (broadcastInDim S8x64x256x256 ![0, 1, 2, 3] bcast_S8x1x256x256_S8x64x256x256_0_1_2_3
      (select (cmpf .oeq cn zeroM) oneM cn))

/-- The pooled image: the sum divided by the count, or by one where the count is zero. -/
def outArr (P : (⟨S8x64x264x264, .f32⟩ : BufTy).Contents (Elt F)) (Q : (⟨S8x1x264x264, .f32⟩ : BufTy).Contents (Elt F))
    (Mk : (⟨S8x1x256x256, .f32⟩ : BufTy).Contents (Elt F)) : (⟨S8x64x256x256, .f32⟩ : BufTy).Contents (Elt F) :=
  quot (accArr P Q Mk) (cntArr Q Mk)

end Arrays

theorem zeroX_apply (i : SX.Idx) : zeroX (F := Ideal) i = zero := by
  unfold zeroX; rw [broadcastInDim_scalar_apply, constant_apply]

theorem zeroM_apply (i : SM.Idx) : zeroM (F := Ideal) i = zero := by
  unfold zeroM; rw [broadcastInDim_scalar_apply, constant_apply]

theorem oneM_apply (i : SM.Idx) : oneM (F := Ideal) i = one := by
  unfold oneM; rw [broadcastInDim_scalar_apply, constant_apply]

/-- The sum array at a pixel is the specification's sum there. -/
theorem accArr_apply (P : SXP.Idx → EReal) (Q : SMP.Idx → EReal) (Mk : SM.Idx → EReal) (b : Fin 8) (ch : Fin 64) (r c : Fin 256) :
    accArr (F := Ideal) P Q Mk (ix4 b ch r c) = acc P Q Mk b ch r c := by
  unfold accArr acc
  rw [tapAcc_apply 8 8 (by decide) (by decide),
    tapAcc_apply 8 6 (by decide) (by decide),
    tapAcc_apply 8 4 (by decide) (by decide),
    tapAcc_apply 8 2 (by decide) (by decide),
    tapAcc_apply 8 0 (by decide) (by decide),
    tapAcc_apply 6 8 (by decide) (by decide),
    tapAcc_apply 6 6 (by decide) (by decide),
    tapAcc_apply 6 4 (by decide) (by decide),
    tapAcc_apply 6 2 (by decide) (by decide),
    tapAcc_apply 6 0 (by decide) (by decide),
    tapAcc_apply 4 8 (by decide) (by decide),
    tapAcc_apply 4 6 (by decide) (by decide),
    tapAcc_apply 4 4 (by decide) (by decide),
    tapAcc_apply 4 2 (by decide) (by decide),
    tapAcc_apply 4 0 (by decide) (by decide),
    tapAcc_apply 2 8 (by decide) (by decide),
    tapAcc_apply 2 6 (by decide) (by decide),
    tapAcc_apply 2 4 (by decide) (by decide),
    tapAcc_apply 2 2 (by decide) (by decide),
    tapAcc_apply 2 0 (by decide) (by decide),
    tapAcc_apply 0 8 (by decide) (by decide),
    tapAcc_apply 0 6 (by decide) (by decide),
    tapAcc_apply 0 4 (by decide) (by decide),
    tapAcc_apply 0 2 (by decide) (by decide),
    tapAcc_apply 0 0 (by decide) (by decide),
    zeroX_apply]

/-- The count array at a pixel is the specification's count there. -/
theorem cntArr_apply (Q : SMP.Idx → EReal) (Mk : SM.Idx → EReal) (b : Fin 8) (r c : Fin 256) :
    cntArr (F := Ideal) Q Mk (ix4 b (0 : Fin 1) r c) = cnt Q Mk b r c := by
  unfold cntArr cnt
  rw [tapCnt_apply 8 8 (by decide) (by decide),
    tapCnt_apply 8 6 (by decide) (by decide),
    tapCnt_apply 8 4 (by decide) (by decide),
    tapCnt_apply 8 2 (by decide) (by decide),
    tapCnt_apply 8 0 (by decide) (by decide),
    tapCnt_apply 6 8 (by decide) (by decide),
    tapCnt_apply 6 6 (by decide) (by decide),
    tapCnt_apply 6 4 (by decide) (by decide),
    tapCnt_apply 6 2 (by decide) (by decide),
    tapCnt_apply 6 0 (by decide) (by decide),
    tapCnt_apply 4 8 (by decide) (by decide),
    tapCnt_apply 4 6 (by decide) (by decide),
    tapCnt_apply 4 4 (by decide) (by decide),
    tapCnt_apply 4 2 (by decide) (by decide),
    tapCnt_apply 4 0 (by decide) (by decide),
    tapCnt_apply 2 8 (by decide) (by decide),
    tapCnt_apply 2 6 (by decide) (by decide),
    tapCnt_apply 2 4 (by decide) (by decide),
    tapCnt_apply 2 2 (by decide) (by decide),
    tapCnt_apply 2 0 (by decide) (by decide),
    tapCnt_apply 0 8 (by decide) (by decide),
    tapCnt_apply 0 6 (by decide) (by decide),
    tapCnt_apply 0 4 (by decide) (by decide),
    tapCnt_apply 0 2 (by decide) (by decide),
    tapCnt_apply 0 0 (by decide) (by decide),
    zeroM_apply]

/-- The composed arrays are the specification's pooled image. -/
theorem outArr_eq (P : SXP.Idx → EReal) (Q : SMP.Idx → EReal) (Mk : SM.Idx → EReal) :
    outArr (F := Ideal) P Q Mk = pooled P Q Mk := by
  funext i
  obtain ⟨b, ch, r, c, rfl⟩ : ∃ (b : Fin 8) (ch : Fin 64) (r c : Fin 256), i = ix4 b ch r c := ⟨i 0, i 1, i 2, i 3, eq_ix4 i⟩
  rw [pooled_apply]
  unfold outArr quot outAt denom
  show Ideal.div _ _ = _
  rw [bcastCh_apply, select_apply, cmpf_apply, accArr_apply, cntArr_apply, zeroM_apply, oneM_apply]
  rfl

end Cert.RefSide

end
-- ==== Proof.RefHead.lean ====
/-
  The first stretch (both reflect pads and the zero arrays) and the last (the divisor and the quotient) read from
  arbitrary buffer contents: the pads' joins of slices and reversals are the specification's padded arrays of the
  arguments, the arguments are untouched, and the last stretch divides the running sum by the count or by one.
-/
import proofs.«181392_j37838661878408_1_alg».proof.Proof.RefOps
import proofs.«181392_j37838661878408_1_alg».proof.Proof.RefRead
import proofs.«181392_j37838661878408_1_alg».proof.Proof.Pad

noncomputable section

namespace Cert.RefSide

open Cert.ReferenceIdeal Cert.ReferenceIdeal.Gen Idealize.ShloMosaic Idealize.ShloMosaic.TcCoe Idealize.SL.Sem Idealize.ShloMosaic.StableHlo

attribute [local irreducible] concatenate extractStridedSlice Host.reverse broadcastInDim in
set_option maxRecDepth 8192 in
set_option maxHeartbeats 1000000 in
/-- After the first stretch the padded-image buffer holds the image reflect-padded. -/
theorem head_v0 (V : Valuation τ sig (Elt Ideal)) :
    after (headOps (F := Ideal)) V (Proc.devRef .tc main_v0) = Cert.SelPool.padX (V (Proc.devRef .tc main_arg0)) := by
  simp only [after_cons, after_nil]
  rfl

attribute [local irreducible] concatenate extractStridedSlice Host.reverse broadcastInDim in
set_option maxRecDepth 8192 in
set_option maxHeartbeats 1000000 in
/-- After the first stretch the padded-mask buffer holds the mask reflect-padded. -/
theorem head_v1 (V : Valuation τ sig (Elt Ideal)) :
    after (headOps (F := Ideal)) V (Proc.devRef .tc main_v1) = Cert.SelPool.padM (V (Proc.devRef .tc main_arg1)) := by
  simp only [after_cons, after_nil]
  rfl

attribute [local irreducible] concatenate extractStridedSlice Host.reverse broadcastInDim in
set_option maxRecDepth 8192 in
set_option maxHeartbeats 1000000 in
theorem head_a0 (V : Valuation τ sig (Elt Ideal)) :
    after (headOps (F := Ideal)) V (Proc.devRef .tc main_arg0) = V (Proc.devRef .tc main_arg0) := by
  simp only [after_cons, after_nil]
  rfl

attribute [local irreducible] concatenate extractStridedSlice Host.reverse broadcastInDim in
set_option maxRecDepth 8192 in
set_option maxHeartbeats 1000000 in
theorem head_a1 (V : Valuation τ sig (Elt Ideal)) :
    after (headOps (F := Ideal)) V (Proc.devRef .tc main_arg1) = V (Proc.devRef .tc main_arg1) := by
  simp only [after_cons, after_nil]
  rfl

attribute [local irreducible] concatenate extractStridedSlice Host.reverse broadcastInDim in
set_option maxRecDepth 8192 in
set_option maxHeartbeats 1000000 in
/-- The sum starts from zeros. -/
theorem head_v2 (V : Valuation τ sig (Elt Ideal)) :
    after (headOps (F := Ideal)) V (Proc.devRef .tc main_v2) = zeroX (F := Ideal) := by
  simp only [after_cons, after_nil]
  rfl

attribute [local irreducible] concatenate extractStridedSlice Host.reverse broadcastInDim in
set_option maxRecDepth 8192 in
set_option maxHeartbeats 1000000 in
/-- The count starts from zeros. -/
theorem head_v3 (V : Valuation τ sig (Elt Ideal)) :
    after (headOps (F := Ideal)) V (Proc.devRef .tc main_v3) = zeroM (F := Ideal) := by
  simp only [after_cons, after_nil]
  rfl

attribute [local irreducible] Host.divf broadcastInDim select cmpf in
set_option maxRecDepth 8192 in
set_option maxHeartbeats 1000000 in
/-- The last stretch: the running sum divided by the running count, or by one where the count is zero. -/
theorem tail_out (W : Valuation τ sig (Elt Ideal)) :
    after (tailOps (F := Ideal)) W (Proc.devRef .tc main_v209)
      = quot (F := Ideal) (W (Proc.devRef .tc main_v202)) (W (Proc.devRef .tc main_v203)) := by
  simp only [after_cons, after_nil]
  rfl

attribute [local irreducible] Host.divf broadcastInDim select cmpf in
set_option maxRecDepth 8192 in
set_option maxHeartbeats 1000000 in
theorem tail_a0 (W : Valuation τ sig (Elt Ideal)) :
    after (tailOps (F := Ideal)) W (Proc.devRef .tc main_arg0) = W (Proc.devRef .tc main_arg0) := by
  simp only [after_cons, after_nil]
  rfl

attribute [local irreducible] Host.divf broadcastInDim select cmpf in
set_option maxRecDepth 8192 in
set_option maxHeartbeats 1000000 in
theorem tail_a1 (W : Valuation τ sig (Elt Ideal)) :
    after (tailOps (F := Ideal)) W (Proc.devRef .tc main_arg1) = W (Proc.devRef .tc main_arg1) := by
  simp only [after_cons, after_nil]
  rfl

end Cert.RefSide

end
-- ==== Proof.RefSide.lean ====
/-
  The reference program computes the specification: its run's result buffer holds the pooled image of the reflect-padded
  image and mask against the mask, and its two arguments are unchanged.

  The fold of the operations is read stretch by stretch, from the last back to the first: the quotient; each tap's update
  of the running sum and count, with the padded arrays and the mask carried through; the pads and the zeros. What is left
  is the composed array function of the arguments, which is the specification pixel by pixel.
-/
import proofs.«181392_j37838661878408_1_alg».proof.Proof.RefRun
import proofs.«181392_j37838661878408_1_alg».proof.Proof.RefStepA
import proofs.«181392_j37838661878408_1_alg».proof.Proof.RefStepB
import proofs.«181392_j37838661878408_1_alg».proof.Proof.RefHead

noncomputable section

namespace Cert.RefSide

open Cert.ReferenceIdeal Cert.ReferenceIdeal.Gen Idealize.ShloMosaic Idealize.ShloMosaic.TcCoe Idealize.SL.Sem Idealize.ShloMosaic.StableHlo

/-- The contents after two stretches in a row are the second's after the first's. -/
theorem after_append {τ' : Topo} {sig' : RefSig} {Val : EltTy → Type} (l₁ l₂ : List (HloOp τ' sig' Val)) (V : Valuation τ' sig' Val) :
    after (l₁ ++ l₂) V = after l₂ (after l₁ V) := by
  induction l₁ generalizing V with
  | nil => rfl
  | cons op l ih => simp only [List.cons_append, after_cons, ih]

/-- The fold of all the operations, as the stretches' folds one after the other. -/
theorem after_all (V : Valuation τ sig (Elt Ideal)) :
    after (allOps (F := Ideal)) V
      = after tailOps (after tapOps24 (after tapOps23 (after tapOps22 (after tapOps21 (after tapOps20 (after tapOps19 (after tapOps18 (after tapOps17 (after tapOps16 (after tapOps15 (after tapOps14 (after tapOps13 (after tapOps12 (after tapOps11 (after tapOps10 (after tapOps9 (after tapOps8 (after tapOps7 (after tapOps6 (after tapOps5 (after tapOps4 (after tapOps3 (after tapOps2 (after tapOps1 (after tapOps0 (after headOps V)))))))))))))))))))))))))) := by
  unfold allOps
  simp only [after_append]

/-- The result buffer after the run's operations is the specification of the two arguments. -/
theorem out_eq (V : Valuation τ sig (Elt Ideal)) :
    after (allOps (F := Ideal)) V (Proc.devRef .tc main_v209) = Cert.SelPool.G (V (Proc.devRef .tc main_arg0)) (V (Proc.devRef .tc main_arg1)) := by
  rw [after_all, tail_out, tap24_acc, tap24_cnt]
  rw [tap23_acc, tap23_cnt, tap23_v0, tap23_v1, tap23_a1]
  rw [tap22_acc, tap22_cnt, tap22_v0, tap22_v1, tap22_a1]
  rw [tap21_acc, tap21_cnt, tap21_v0, tap21_v1, tap21_a1]
  rw [tap20_acc, tap20_cnt, tap20_v0, tap20_v1, tap20_a1]
  rw [tap19_acc, tap19_cnt, tap19_v0, tap19_v1, tap19_a1]
  rw [tap18_acc, tap18_cnt, tap18_v0, tap18_v1, tap18_a1]
  rw [tap17_acc, tap17_cnt, tap17_v0, tap17_v1, tap17_a1]
  rw [tap16_acc, tap16_cnt, tap16_v0, tap16_v1, tap16_a1]
  rw [tap15_acc, tap15_cnt, tap15_v0, tap15_v1, tap15_a1]
  rw [tap14_acc, tap14_cnt, tap14_v0, tap14_v1, tap14_a1]
  rw [tap13_acc, tap13_cnt, tap13_v0, tap13_v1, tap13_a1]
  rw [tap12_acc, tap12_cnt, tap12_v0, tap12_v1, tap12_a1]
  rw [tap11_acc, tap11_cnt, tap11_v0, tap11_v1, tap11_a1]
  rw [tap10_acc, tap10_cnt, tap10_v0, tap10_v1, tap10_a1]
  rw [tap9_acc, tap9_cnt, tap9_v0, tap9_v1, tap9_a1]
  rw [tap8_acc, tap8_cnt, tap8_v0, tap8_v1, tap8_a1]
  rw [tap7_acc, tap7_cnt, tap7_v0, tap7_v1, tap7_a1]
  rw [tap6_acc, tap6_cnt, tap6_v0, tap6_v1, tap6_a1]
  rw [tap5_acc, tap5_cnt, tap5_v0, tap5_v1, tap5_a1]
  rw [tap4_acc, tap4_cnt, tap4_v0, tap4_v1, tap4_a1]
  rw [tap3_acc, tap3_cnt, tap3_v0, tap3_v1, tap3_a1]
  rw [tap2_acc, tap2_cnt, tap2_v0, tap2_v1, tap2_a1]
  rw [tap1_acc, tap1_cnt, tap1_v0, tap1_v1, tap1_a1]
  rw [tap0_acc, tap0_cnt, tap0_v0, tap0_v1, tap0_a1]
  rw [head_v0, head_v1, head_a1, head_v2, head_v3]
  exact outArr_eq _ _ _

/-- The first argument's buffer is untouched. -/
theorem arg0_eq (V : Valuation τ sig (Elt Ideal)) :
    after (allOps (F := Ideal)) V (Proc.devRef .tc main_arg0) = V (Proc.devRef .tc main_arg0) := by
  rw [after_all, tail_a0, tap24_a0, tap23_a0, tap22_a0, tap21_a0, tap20_a0, tap19_a0, tap18_a0, tap17_a0, tap16_a0, tap15_a0, tap14_a0, tap13_a0, tap12_a0, tap11_a0, tap10_a0, tap9_a0, tap8_a0, tap7_a0, tap6_a0, tap5_a0, tap4_a0, tap3_a0, tap2_a0, tap1_a0, tap0_a0, head_a0]

/-- The second argument's buffer is untouched. -/
theorem arg1_eq (V : Valuation τ sig (Elt Ideal)) :
    after (allOps (F := Ideal)) V (Proc.devRef .tc main_arg1) = V (Proc.devRef .tc main_arg1) := by
  rw [after_all, tail_a1, tap24_a1, tap23_a1, tap22_a1, tap21_a1, tap20_a1, tap19_a1, tap18_a1, tap17_a1, tap16_a1, tap15_a1, tap14_a1, tap13_a1, tap12_a1, tap11_a1, tap10_a1, tap9_a1, tap8_a1, tap7_a1, tap6_a1, tap5_a1, tap4_a1, tap3_a1, tap2_a1, tap1_a1, tap0_a1, head_a1]

/-- From any memory with zero counters, every weakly fair execution of the reference program terminates with its result
    buffer at the specification of its two arguments, and the arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v209)
          = Cert.SelPool.G (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run Cert.ReferenceIdeal.defs _ _).mono (fun _ h c => ⟨(h c main_v209).trans (out_eq _), (h c main_arg0).trans (arg0_eq _), (h c main_arg1).trans (arg1_eq _)⟩)
    (run_main (F := Ideal) m ρ)

end Cert.RefSide

end
-- ==== Proof.lean ====
/-
  Masked mean pooling: a kernel against its reference, equal at the ideal instance.

  Both programs pad the image `x : [8, 64, 256, 256]` and the mask `mask : [8, 1, 256, 256]` by reflection, 4 rows and
  4 columns on every side, with the same host operations. At each pixel they then run over the 25 taps of a 5 × 5
  window dilated by 2, in the same order: a tap counts when the padded mask there equals the mask at the pixel — the
  kernel reads that value at the centre of the padded mask, the reference from the mask itself, and the centre of the
  padded mask is the mask —; the padded image over the taps that count is summed from zero, the taps that count are
  counted beside, and the sum is divided by the count, or by one where no tap counts. The kernel's comparison bit is
  widened to a 32-bit word and converted as a signed integer, the reference's is converted as an unsigned one-bit word:
  the same number, zero or one. Index by index the two results are therefore one term on the extended reals
  (`Cert.SelPool.G`), with the additions in one order: no law of arithmetic and no finiteness is used.

  The kernel side (`Cert.KernelSide.run`): the stored block at an entry is the pooled value (KernelBody), the padded
  operands are the specification's pads (KernelHost), the 32 blocks tile the result and the padded mask's centre is the
  mask (KernelArray, PadCentre). The reference side (`Cert.RefSide.run`): its operations' fold read at an index. The
  frames of the two kernel programs are the generated ones; the reference's frame is its run with the result dropped;
  the idealization rewrote nothing, so `preserves` is trivial.
-/
import proofs.«181392_j37838661878408_1_alg».proof.Defs
import proofs.«181392_j37838661878408_1_alg».proof.Proof.Gen.Kernel
import proofs.«181392_j37838661878408_1_alg».proof.Proof.Gen.Kernel.Skeleton
import proofs.«181392_j37838661878408_1_alg».proof.Proof.Gen.Kernel.Launch
import proofs.«181392_j37838661878408_1_alg».proof.Proof.Gen.Kernel.Points
import proofs.«181392_j37838661878408_1_alg».proof.Proof.Gen.Kernel.Frame
import proofs.«181392_j37838661878408_1_alg».proof.Proof.Gen.KernelIdeal
import proofs.«181392_j37838661878408_1_alg».proof.Proof.Gen.KernelIdeal.Skeleton
import proofs.«181392_j37838661878408_1_alg».proof.Proof.Gen.KernelIdeal.Launch
import proofs.«181392_j37838661878408_1_alg».proof.Proof.Gen.KernelIdeal.Points
import proofs.«181392_j37838661878408_1_alg».proof.Proof.Gen.KernelIdeal.Frame
import proofs.«181392_j37838661878408_1_alg».proof.Proof.Gen.ReferenceIdeal
import proofs.«181392_j37838661878408_1_alg».proof.Proof.Gen.Pre_finite_inputs
import proofs.«181392_j37838661878408_1_alg».proof.Proof.KernelArray
import proofs.«181392_j37838661878408_1_alg».proof.Proof.RefSide
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference runs and leaves its arguments unchanged: its run, the result dropped. -/
theorem frame_reference : Cert.frame_ReferenceIdeal := fun m ρ _ =>
  (θ_run Cert.ReferenceIdeal.defs _ _).mono (fun _ h c => (h c).2) (Cert.RefSide.run m ρ)

/-- The idealization rewrote no operation. -/
theorem preserves : Cert.preserves_Kernel_KernelIdeal := trivial

/-- From memories agreeing on the arguments both programs end with the result array at `G` of the arguments. -/
theorem algebraic : Cert.algebraic_KernelIdeal_ReferenceIdeal := by
  intro m ρ m' ρ' _ hagree
  refine ⟨fun c => Cert.SelPool.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.KernelSide.run m ρ, ?_⟩
  refine (θ_run Cert.ReferenceIdeal.defs _ _).mono (fun _ h c => ⟨?_, (h c).2⟩) (Cert.RefSide.run m' ρ')
  rw [(h c).1, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
